-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x64 : Shape := ⟨2, ![128, 64]⟩
abbrev S64 : Shape := ⟨1, ![64]⟩
abbrev S1x16 : Shape := ⟨2, ![1, 16]⟩
abbrev S16x8 : Shape := ⟨2, ![16, 8]⟩
abbrev S8 : Shape := ⟨1, ![8]⟩
abbrev S1x64 : Shape := ⟨2, ![1, 64]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x16 : S_.BroadcastsInDim S1x16 (![] : Fin 0 → Fin S1x16.rank)
  reducesTo_S1x16_S_d0_1 : S1x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  main_v53

def fn_part2 {F : FTy → Type} [FloatOps F] (main_arg7 : FVec F S1x16 .f32) (main_arg8 : FVec F S16x8 .f32) (main_arg9 : FVec F S8 .f32) (main_arg10 : FVec F S1x64 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S16x8 .f32 := Host.absf main_arg8
  let main_cst_14 : FVec F S_ .f32 := constant S_ .f32 0x7F800000#32
  let main_v40 : FVec F S16x8 .f32 := broadcastInDim S16x8 ![] bcast_S_S16x8 main_cst_14
  let main_v41 : IVec S16x8 1 := cmpf .olt main_v39 main_v40
  let main_c_15 : IVec S_ 1 := constantI S_ 1 1#1
  let main_v42 : IVec S_ 1 := (fun x v => Host.reduce IntOp.andi x v reducesTo_S16x8_S_d0_1 h_S_) main_v41 main_c_15
  let main_v43 : IVec S_ 1 := andi main_v38 main_v42
  let main_v44 : FVec F S8 .f32 := Host.absf main_arg9
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_v48 main_v49 main_v50

def fn_part1 {F : FTy → Type} [FloatOps F] (main_arg4 : FVec F S1024x4096 .f32) (main_arg5 : FVec F S128x64 .f32) (main_arg6 : FVec F S64 .f32) (main_arg7 : FVec F S1x16 .f32) (main_arg8 : FVec F S16x8 .f32) (main_arg9 : FVec F S8 .f32) (main_arg10 : FVec F S1x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128 .f32) (main_arg1 : FVec F S4096x16 .f32) (main_arg2 : FVec F S4096x4096 .f32) (main_arg3 : FVec F S1024x1024 .f32) (main_arg4 : FVec F S1024x4096 .f32) (main_arg5 : FVec F S128x64 .f32) (main_arg6 : FVec F S64 .f32) (main_arg7 : FVec F S1x16 .f32) (main_arg8 : FVec F S16x8 .f32) (main_arg9 : FVec F S8 .f32) (main_arg10 : FVec F S1x64 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x64 : Shape := ⟨2, ![128, 64]⟩
abbrev S64 : Shape := ⟨1, ![64]⟩
abbrev S1x16 : Shape := ⟨2, ![1, 16]⟩
abbrev S16x8 : Shape := ⟨2, ![16, 8]⟩
abbrev S8 : Shape := ⟨1, ![8]⟩
abbrev S1x64 : Shape := ⟨2, ![1, 64]⟩
abbrev S4096x1024 : Shape := ⟨2, ![4096, 1024]⟩
abbrev S1024x1 : Shape := ⟨2, ![1024, 1]⟩
abbrev S4096x256 : Shape := ⟨2, ![4096, 256]⟩
abbrev S1024x256 : Shape := ⟨2, ![1024, 256]⟩
abbrev S1024x64 : Shape := ⟨2, ![1024, 64]⟩
abbrev S4096x1 : Shape := ⟨2, ![4096, 1]⟩
abbrev S256 : Shape := ⟨1, ![256]⟩
abbrev S256x64 : Shape := ⟨2, ![256, 64]⟩
abbrev S256x1 : Shape := ⟨2, ![256, 1]⟩
abbrev S1x8 : Shape := ⟨2, ![1, 8]⟩
abbrev S4096x8 : Shape := ⟨2, ![4096, 8]⟩
abbrev S1024x512 : Shape := ⟨2, ![1024, 512]⟩
abbrev S4096x512 : Shape := ⟨2, ![4096, 512]⟩
abbrev S512 : Shape := ⟨1, ![512]⟩
abbrev S512x16 : Shape := ⟨2, ![512, 16]⟩
abbrev S512x8 : Shape := ⟨2, ![512, 8]⟩
abbrev S512x1 : Shape := ⟨2, ![512, 1]⟩

abbrev nBuf : Space → Nat
  | .hbm => 16
  | .vmem => 25
  | .smem => 0
  | _ => 0

abbrev bufTy : (tb : Table) → Fin (tcTables nBuf tb) → BufTy
  | .hbm, ⟨0, _⟩ => ⟨S1024x128, .f32⟩
  | .hbm, ⟨1, _⟩ => ⟨S4096x16, .f32⟩
  | .hbm, ⟨2, _⟩ => ⟨S4096x4096, .f32⟩
  | .hbm, ⟨3, _⟩ => ⟨S1024x1024, .f32⟩
  | .hbm, ⟨4, _⟩ => ⟨S1024x4096, .f32⟩
  | .hbm, ⟨5, _⟩ => ⟨S128x64, .f32⟩
  | .hbm, ⟨6, _⟩ => ⟨S64, .f32⟩
  | .hbm, ⟨7, _⟩ => ⟨S1x16, .f32⟩
  | .hbm, ⟨8, _⟩ => ⟨S16x8, .f32⟩
  | .hbm, ⟨9, _⟩ => ⟨S8, .f32⟩
  | .hbm, ⟨10, _⟩ => ⟨S1x64, .f32⟩
  | .hbm, ⟨11, _⟩ => ⟨S4096x1024, .f32⟩
  | .hbm, ⟨12, _⟩ => ⟨S1x64, .f32⟩
  | .hbm, ⟨13, _⟩ => ⟨S1024x1, .f32⟩
  | .hbm, ⟨14, _⟩ => ⟨S1x8, .f32⟩
  | .hbm, ⟨15, _⟩ => ⟨S4096x8, .f32⟩
  | .local _ .vmem, ⟨0, _⟩ => ⟨S1024x4096, .f32⟩
  | .local _ .vmem, ⟨1, _⟩ => ⟨S4096x256, .f32⟩
  | .local _ .vmem, ⟨2, _⟩ => ⟨S4096x256, .f32⟩
  | .local _ .vmem, ⟨3, _⟩ => ⟨S1024x256, .f32⟩
  | .local _ .vmem, ⟨4, _⟩ => ⟨S1024x256, .f32⟩
  | .local _ .vmem, ⟨5, _⟩ => ⟨S1024x128, .f32⟩
  | .local _ .vmem, ⟨6, _⟩ => ⟨S4096x16, .f32⟩
  | .local _ .vmem, ⟨7, _⟩ => ⟨S128x64, .f32⟩
  | .local _ .vmem, ⟨8, _⟩ => ⟨S1x64, .f32⟩
  | .local _ .vmem, ⟨9, _⟩ => ⟨S1x16, .f32⟩
  | .local _ .vmem, ⟨10, _⟩ => ⟨S1x64, .f32⟩
  | .local _ .vmem, ⟨11, _⟩ => ⟨S1024x1, .f32⟩
  | .local _ .vmem, ⟨12, _⟩ => ⟨S1024x64, .f32⟩
  | .local _ .vmem, ⟨13, _⟩ => ⟨S1024x64, .f32⟩
  | .local _ .vmem, ⟨14, _⟩ => ⟨S4096x1024, .f32⟩
  | .local _ .vmem, ⟨15, _⟩ => ⟨S1024x512, .f32⟩
  | .local _ .vmem, ⟨16, _⟩ => ⟨S1024x512, .f32⟩
  | .local _ .vmem, ⟨17, _⟩ => ⟨S4096x512, .f32⟩
  | .local _ .vmem, ⟨18, _⟩ => ⟨S4096x512, .f32⟩
  | .local _ .vmem, ⟨19, _⟩ => ⟨S4096x16, .f32⟩
  | .local _ .vmem, ⟨20, _⟩ => ⟨S16x8, .f32⟩
  | .local _ .vmem, ⟨21, _⟩ => ⟨S1x8, .f32⟩
  | .local _ .vmem, ⟨22, _⟩ => ⟨S1024x1, .f32⟩
  | .local _ .vmem, ⟨23, _⟩ => ⟨S4096x8, .f32⟩
  | .local _ .vmem, ⟨24, _⟩ => ⟨S4096x8, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_scratch0 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c256_i32_16 : BitVec 32 := 256#32
  let v27 : BitVec 32 := Scalar.muli arg0 c256_i32_16
  let v28 : Index := Scalar.indexCast v27
  let c0_17 : Index := 0#32
  ![v28.toNat, 0]
def k0_cond2 (i : grid0.Coords) : BitVec 1 :=
  let arg0 : BitVec 32 := BitVec.ofNat 32 (i 0).val
  let c3_i32 : BitVec 32 := 3#32
  let v39 : BitVec 1 := Scalar.cmpi .eq arg0 c3_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![8], ![false]⟩

def k1_off1 (i : grid1.Coords) : Fin 2 → Nat :=
  let arg0 : BitVec 32 := BitVec.ofNat 32 (i 0).val
  let c512_i32_13 : BitVec 32 := 512#32
  let v26 : BitVec 32 := Scalar.muli arg0 c512_i32_13
  let v27 : Index := Scalar.indexCast v26
  let c0_14 : Index := 0#32
  ![v27.toNat, 0]
def k1_cond2 (i : grid1.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  transposes_S1024x4096_S4096x1024_1_0 : S1024x4096.Transposes [1, 0] S4096x1024
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4096x16_S4096x16_0_0 : ∀ a, (![0, 0] : Fin 2 → Nat) a + S4096x16.size a ≤ S4096x16.size a
  h_S4096x16 : 0 < S4096x16.numel
  inb_S1x16_S1x16_0_0 : ∀ a, (![0, 0] : Fin 2 → Nat) a + S1x16.size a ≤ S1x16.size a
  h_S1x16 : 0 < S1x16.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S4096x1_S4096x256 : S4096x1.Broadcasts S4096x256
  inb_S1024x4096_S1024x4096_0_0 : ∀ a, (![0, 0] : Fin 2 → Nat) a + S1024x4096.size a ≤ S1024x4096.size a
  h_S1024x4096 : 0 < S1024x4096.numel
  iota_S1024x256_d0_w32 : S1024x256.Iotas .tc 32 [0]
  iota_S1024x256_d1_w32 : S1024x256.Iotas .tc 32 [1]
  inb_S1024x256_S1024x256_0_0 : ∀ a, (![0, 0] : Fin 2 → Nat) a + S1024x256.size a ≤ S1024x256.size a
  h_S1024x256 : 0 < S1024x256.numel
  reduces_S1024x256_S256 : S1024x256.Reduces [0] S256
  h_S256x64 : 0 < S256x64.numel
  shapeCasts_S256_S256x1 : S256.ShapeCasts S256x1
  broadcasts_S256x1_S256x64 : S256x1.Broadcasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x1_S1024x1_0_0 : ∀ a, (![0, 0] : Fin 2 → Nat) a + S1024x1.size a ≤ S1024x1.size a
  h_S1024x1 : 0 < S1024x1.numel
  shapeCasts_S8_S1x8 : S8.ShapeCasts S1x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1024x512_S1024x512_0_0 : ∀ a, (![0, 0] : Fin 2 → Nat) a + S1024x512.size a ≤ S1024x512.size a
  h_S1024x512 : 0 < S1024x512.numel
  shapeCasts_S1024x1_S1024x1 : S1024x1.ShapeCasts S1024x1
  broadcasts_S1024x1_S1024x512 : S1024x1.Broadcasts S1024x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  iota_S4096x512_d0_w32 : S4096x512.Iotas .tc 32 [0]
  iota_S4096x512_d1_w32 : S4096x512.Iotas .tc 32 [1]
  inb_S4096x512_S4096x512_0_0 : ∀ a, (![0, 0] : Fin 2 → Nat) a + S4096x512.size a ≤ S4096x512.size a
  h_S4096x512 : 0 < S4096x512.numel
  reduces_S4096x512_S512 : S4096x512.Reduces [0] S512
  h_S512x16 : 0 < S512x16.numel
  inb_S16x8_S16x8_0_0 : ∀ a, (![0, 0] : Fin 2 → Nat) a + S16x8.size a ≤ S16x8.size a
  h_S16x8 : 0 < S16x8.numel
  shapeCasts_S512_S512x1 : S512.ShapeCasts S512x1
  broadcasts_S512x1_S512x8 : S512x1.Broadcasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4096x8 : S1x8.Broadcasts S4096x8
  reduces_S4096x8_S8 : S4096x8.Reduces [0] S8
  dot_S1024x128_S128x64_S1024x64_1_0_0_1_n_n_wf : DotDims.WF S1024x128 S128x64 S1024x64 [1] [0] [0] [1] [] []
  dot_S4096x16_S1x16_S4096x1_1_1_0_0_n_n_wf : DotDims.WF S4096x16 S1x16 S4096x1 [1] [1] [0] [0] [] []
  dot_S1024x4096_S4096x256_S1024x256_1_0_0_1_n_n_wf : DotDims.WF S1024x4096 S4096x256 S1024x256 [1] [0] [0] [1] [] []
  dot_S1024x256_S256x64_S1024x64_1_0_0_1_n_n_wf : DotDims.WF S1024x256 S256x64 S1024x64 [1] [0] [0] [1] [] []
  dot_S1024x64_S1x64_S1024x1_1_1_0_0_n_n_wf : DotDims.WF S1024x64 S1x64 S1024x1 [1] [1] [0] [0] [] []
  dot_S4096x1024_S1024x512_S4096x512_1_0_0_1_n_n_wf : DotDims.WF S4096x1024 S1024x512 S4096x512 [1] [0] [0] [1] [] []
  dot_S512x16_S16x8_S512x8_1_0_0_1_n_n_wf : DotDims.WF S512x16 S16x8 S512x8 [1] [0] [0] [1] [] []
  dot_S4096x512_S512x8_S4096x8_1_0_0_1_n_n_wf : DotDims.WF S4096x512 S512x8 S4096x8 [1] [0] [0] [1] [] []
  hrank0 : 0 < grid0.rank
  k0_off1_inb : ∀ i : grid0.Coords, ∀ a, (k0_off1 i) a + S256x64.size a ≤ S1024x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .f32 = 32 ∨ (Rect.block (s := S1024x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x1024.size a
  hwx0_1 : ∀ i : grid0.Coords, EltTy.bits .f32 = 32 ∨ (Rect.block (s := S4096x1024) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x1024.size a
  hwx0_2 : ∀ i : grid0.Coords, EltTy.bits .f32 = 32 ∨ (Rect.block (s := S1024x1024) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x16.size a ≤ S4096x16.size a
  hwx0_4 : ∀ i : grid0.Coords, EltTy.bits .f32 = 32 ∨ (Rect.block (s := S4096x16) S4096x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .f32 = 32 ∨ (Rect.block (s := S1024x1) S1024x1.size (cc0_transform_9 i) (hinb0_9 i)).WholeWords (EltTy.packing .f32)
  hrank1 : 0 < grid1.rank
  k1_off1_inb : ∀ i : grid1.Coords, ∀ a, (k1_off1 i) a + S512x16.size a ≤ S4096x16.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S4096x1024.size a
  hwx1_0 : ∀ i : grid1.Coords, EltTy.bits .f32 = 32 ∨ (Rect.block (s := S4096x1024) S4096x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x4096.size a
  hwx1_1 : ∀ i : grid1.Coords, EltTy.bits .f32 = 32 ∨ (Rect.block (s := S1024x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x4096.size a
  hwx1_2 : ∀ i : grid1.Coords, EltTy.bits .f32 = 32 ∨ (Rect.block (s := S4096x4096) S4096x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S4096x16.size a
  hwx1_3 : ∀ i : grid1.Coords, EltTy.bits .f32 = 32 ∨ (Rect.block (s := S4096x16) S4096x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x8.size a ≤ S16x8.size a
  hwx1_4 : ∀ i : grid1.Coords, EltTy.bits .f32 = 32 ∨ (Rect.block (s := S16x8) S16x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8.size a ≤ S1x8.size a
  hwx1_5 : ∀ i : grid1.Coords, EltTy.bits .f32 = 32 ∨ (Rect.block (s := S1x8) S1x8.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S1024x1.size a
  hwx1_6 : ∀ i : grid1.Coords, EltTy.bits .f32 = 32 ∨ (Rect.block (s := S1024x1) S1024x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x8.size a ≤ S4096x8.size a
  hwx1_7 : ∀ i : grid1.Coords, EltTy.bits .f32 = 32 ∨ (Rect.block (s := S4096x8) S4096x8.size (cc1_transform_7 i) (hinb1_7 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S4096x16_S1x16_S4096x1_1_1_0_0_n_n : DotDims S4096x16 S1x16 S4096x1 where
  lhsContracting := [1]
  rhsContracting := [1]
  lhsNonContracting := [0]
  rhsNonContracting := [0]
  lhsBatch := []
  rhsBatch := []
  wf := dot_S4096x16_S1x16_S4096x1_1_1_0_0_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S1x64_S1024x1_1_1_0_0_n_n : DotDims S1024x64 S1x64 S1024x1 where
  lhsContracting := [1]
  rhsContracting := [1]
  lhsNonContracting := [0]
  rhsNonContracting := [0]
  lhsBatch := []
  rhsBatch := []
  wf := dot_S1024x64_S1x64_S1024x1_1_1_0_0_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S512x16_S16x8_S512x8_1_0_0_1_n_n : DotDims S512x16 S16x8 S512x8 where
  lhsContracting := [1]
  rhsContracting := [0]
  lhsNonContracting := [0]
  rhsNonContracting := [1]
  lhsBatch := []
  rhsBatch := []
  wf := dot_S512x16_S16x8_S512x8_1_0_0_1_n_n_wf
def dot_S4096x512_S512x8_S4096x8_1_0_0_1_n_n : DotDims S4096x512 S512x8 S4096x8 where
  lhsContracting := [1]
  rhsContracting := [0]
  lhsNonContracting := [0]
  rhsNonContracting := [1]
  lhsBatch := []
  rhsBatch := []
  wf := dot_S4096x512_S512x8_S4096x8_1_0_0_1_n_n_wf

abbrev win0_0 : Pipeline.Window sig grid0 :=
  Pipeline.Window.ofSpec (Memref.whole main_arg4) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4096x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v0) S4096x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4096x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1024x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S4096x8.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x64 : Shape := ⟨2, ![128, 64]⟩
abbrev S64 : Shape := ⟨1, ![64]⟩
abbrev S1x16 : Shape := ⟨2, ![1, 16]⟩
abbrev S16x8 : Shape := ⟨2, ![16, 8]⟩
abbrev S8 : Shape := ⟨1, ![8]⟩
abbrev S1x64 : Shape := ⟨2, ![1, 64]⟩
abbrev S16x1 : Shape := ⟨2, ![16, 1]⟩
abbrev S4096x1 : Shape := ⟨2, ![4096, 1]⟩
abbrev S4096 : Shape := ⟨1, ![4096]⟩
abbrev S1x4096 : Shape := ⟨2, ![1, 4096]⟩
abbrev S4096x1024 : Shape := ⟨2, ![4096, 1024]⟩
abbrev S_ : Shape := ⟨0, ![]⟩
abbrev S1024 : Shape := ⟨1, ![1024]⟩
abbrev S1x1024 : Shape := ⟨2, ![1, 1024]⟩
abbrev S1024x64 : Shape := ⟨2, ![1024, 64]⟩
abbrev S64x1 : Shape := ⟨2, ![64, 1]⟩
abbrev S1024x1 : Shape := ⟨2, ![1024, 1]⟩
abbrev S4096x8 : Shape := ⟨2, ![4096, 8]⟩
abbrev S1x8 : Shape := ⟨2, ![1, 8]⟩

abbrev nBuf : Space → Nat
  | .hbm => 116
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S4096x16, .f32⟩
  | .hbm, ⟨2, _⟩ => ⟨S4096x4096, .f32⟩
  | .hbm, ⟨3, _⟩ => ⟨S1024x1024, .f32⟩
  | .hbm, ⟨4, _⟩ => ⟨S1024x4096, .f32⟩
  | .hbm, ⟨5, _⟩ => ⟨S128x64, .f32⟩
  | .hbm, ⟨6, _⟩ => ⟨S64, .f32⟩
  | .hbm, ⟨7, _⟩ => ⟨S1x16, .f32⟩
  | .hbm, ⟨8, _⟩ => ⟨S16x8, .f32⟩
  | .hbm, ⟨9, _⟩ => ⟨S8, .f32⟩
  | .hbm, ⟨10, _⟩ => ⟨S1x64, .f32⟩
  | .hbm, ⟨11, _⟩ => ⟨S16x1, .f32⟩
  | .hbm, ⟨12, _⟩ => ⟨S4096x1, .f32⟩
  | .hbm, ⟨13, _⟩ => ⟨S4096, .f32⟩
  | .hbm, ⟨14, _⟩ => ⟨S1x4096, .f32⟩
  | .hbm, ⟨15, _⟩ => ⟨S1024x4096, .f32⟩
  | .hbm, ⟨16, _⟩ => ⟨S1024x4096, .f32⟩
  | .hbm, ⟨17, _⟩ => ⟨S4096x1024, .f32⟩
  | .hbm, ⟨18, _⟩ => ⟨S1024x1024, .f32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1024x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S1024x1024, .f32⟩
  | .hbm, ⟨47, _⟩ => ⟨S1024x1024, .f32⟩
  | .hbm, ⟨48, _⟩ => ⟨S1024x64, .f32⟩
  | .hbm, ⟨49, _⟩ => ⟨S1024x64, .f32⟩
  | .hbm, ⟨50, _⟩ => ⟨S1x64, .f32⟩
  | .hbm, ⟨51, _⟩ => ⟨S1024x64, .f32⟩
  | .hbm, ⟨52, _⟩ => ⟨S1024x64, .f32⟩
  | .hbm, ⟨53, _⟩ => ⟨S_, .f32⟩
  | .hbm, ⟨54, _⟩ => ⟨S1024x64, .f32⟩
  | .hbm, ⟨55, _⟩ => ⟨S1024x64, .f32⟩
  | .hbm, ⟨56, _⟩ => ⟨S_, .f32⟩
  | .hbm, ⟨57, _⟩ => ⟨S4096x16, .f32⟩
  | .hbm, ⟨58, _⟩ => ⟨S4096x16, .f32⟩
  | .hbm, ⟨59, _⟩ => ⟨S64x1, .f32⟩
  | .hbm, ⟨60, _⟩ => ⟨S1024x1, .f32⟩
  | .hbm, ⟨61, _⟩ => ⟨S1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x4096, .f32⟩
  | .hbm, ⟨67, _⟩ => ⟨S4096x4096, .i32⟩
  | .hbm, ⟨68, _⟩ => ⟨S4096x4096, .i32⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S1x4096, .f32⟩
  | .hbm, ⟨94, _⟩ => ⟨S4096x4096, .f32⟩
  | .hbm, ⟨95, _⟩ => ⟨S4096x4096, .f32⟩
  | .hbm, ⟨96, _⟩ => ⟨S4096x8, .f32⟩
  | .hbm, ⟨97, _⟩ => ⟨S4096x8, .f32⟩
  | .hbm, ⟨98, _⟩ => ⟨S1x8, .f32⟩
  | .hbm, ⟨99, _⟩ => ⟨S4096x8, .f32⟩
  | .hbm, ⟨100, _⟩ => ⟨S4096x8, .f32⟩
  | .hbm, ⟨101, _⟩ => ⟨S_, .f32⟩
  | .hbm, ⟨102, _⟩ => ⟨S8, .f32⟩
  | .hbm, ⟨103, _⟩ => ⟨S_, .f32⟩
  | .hbm, ⟨104, _⟩ => ⟨S8, .f32⟩
  | .hbm, ⟨105, _⟩ => ⟨S8, .f32⟩
  | .hbm, ⟨106, _⟩ => ⟨S1x8, .f32⟩
  | .hbm, ⟨107, _⟩ => ⟨S4096x8, .f32⟩
  | .hbm, ⟨108, _⟩ => ⟨S4096x8, .f32⟩
  | .hbm, ⟨109, _⟩ => ⟨S4096x8, .f32⟩
  | .hbm, ⟨110, _⟩ => ⟨S_, .f32⟩
  | .hbm, ⟨111, _⟩ => ⟨S8, .f32⟩
  | .hbm, ⟨112, _⟩ => ⟨S1x8, .f32⟩
  | .hbm, ⟨113, _⟩ => ⟨S1x8, .f32⟩
  | .hbm, ⟨114, _⟩ => ⟨S4096x8, .f32⟩
  | .hbm, ⟨115, _⟩ => ⟨S4096x8, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_cst_9 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call2_cst : Ref sig .tc := ⟨.hbm, 101, rfl⟩
abbrev main_call2_v0 : Ref sig .tc := ⟨.hbm, 102, rfl⟩
abbrev main_call2_cst_0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_cst_1 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_v74 : Ref sig .tc := ⟨.hbm, 115, rfl⟩

abbrev nD : Nat := 1
abbrev τ : Topo := Topo.v7x

variable {F : FTy → Type} [FloatOps F]

class Facts₀ : Prop where
  transposes_S1x16_S16x1_1_0 : S1x16.Transposes [1, 0] S16x1
  shapeCasts_S4096x1_S4096 : S4096x1.ShapeCasts S4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S1024x4096_S4096x1024_1_0 : S1024x4096.Transposes [1, 0] S4096x1024
  bcast_S_S1024x1024 : S_.BroadcastsInDim S1024x1024 (![] : Fin 0 → Fin S1024x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S1024_d0 : S1024x1024.ReducesTo [0] S1024
  h_S_ : 0 < S_.numel
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S_S4096x16 : S_.BroadcastsInDim S4096x16 (![] : Fin 0 → Fin S4096x16.rank)
  transposes_S1x64_S64x1_1_0 : S1x64.Transposes [1, 0] S64x1
  shapeCasts_S1024x1_S1024 : S1024x1.ShapeCasts S1024
  bcast_S1x1024_S4096x1024_0_1 : S1x1024.BroadcastsInDim S4096x1024 (![0, 1] : Fin 2 → Fin S4096x1024.rank)
  bcast_S_S4096x4096 : S_.BroadcastsInDim S4096x4096 (![] : Fin 0 → Fin S4096x4096.rank)
  bcast_S_S4096 : S_.BroadcastsInDim S4096 (![] : Fin 0 → Fin S4096.rank)
  bcast_S1x4096_S4096x4096_0_1 : S1x4096.BroadcastsInDim S4096x4096 (![0, 1] : Fin 2 → Fin S4096x4096.rank)
  reducesTo_S4096x4096_S4096_d0 : S4096x4096.ReducesTo [0] S4096
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  reducesTo_S4096x8_S8_d0 : S4096x8.ReducesTo [0] S8
  bcast_S_S8 : S_.BroadcastsInDim S8 (![] : Fin 0 → Fin S8.rank)
  dot_S4096x16_S16x1_S4096x1_1_0_0_1_n_n_wf : DotDims.WF S4096x16 S16x1 S4096x1 [1] [0] [0] [1] [] []
  dot_S1024x4096_S4096x1024_S1024x1024_1_0_0_1_n_n_wf : DotDims.WF S1024x4096 S4096x1024 S1024x1024 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S1024x64_S64x1_S1024x1_1_0_0_1_n_n_wf : DotDims.WF S1024x64 S64x1 S1024x1 [1] [0] [0] [1] [] []
  dot_S4096x1024_S1024x4096_S4096x4096_1_0_0_1_n_n_wf : DotDims.WF S4096x1024 S1024x4096 S4096x4096 [1] [0] [0] [1] [] []
  dot_S4096x16_S16x8_S4096x8_1_0_0_1_n_n_wf : DotDims.WF S4096x16 S16x8 S4096x8 [1] [0] [0] [1] [] []
  dot_S4096x4096_S4096x8_S4096x8_1_0_0_1_n_n_wf : DotDims.WF S4096x4096 S4096x8 S4096x8 [1] [0] [0] [1] [] []

variable [Facts₀]

def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x16_S16x8_S4096x8_1_0_0_1_n_n : DotDims S4096x16 S16x8 S4096x8 where
  lhsContracting := [1]
  rhsContracting := [0]
  lhsNonContracting := [0]
  rhsNonContracting := [1]
  lhsBatch := []
  rhsBatch := []
  wf := dot_S4096x16_S16x8_S4096x8_1_0_0_1_n_n_wf
def dot_S4096x4096_S4096x8_S4096x8_1_0_0_1_n_n : DotDims S4096x4096 S4096x8 S4096x8 where
  lhsContracting := [1]
  rhsContracting := [0]
  lhsNonContracting := [0]
  rhsNonContracting := [1]
  lhsBatch := []
  rhsBatch := []
  wf := dot_S4096x4096_S4096x8_S4096x8_1_0_0_1_n_n_wf

class Facts : Prop extends Facts₀ where

variable [Facts]
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.KNodeRuns.lean ====
import proofs.«168662_g27230092657223_cont_9to1_1126_2_alg».proof.Proof.Gen.Kernel.Launch
import proofs.«168662_g27230092657223_cont_9to1_1126_2_alg».proof.Proof.Gen.Kernel.Skeleton
import proofs.«168662_g27230092657223_cont_9to1_1126_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of full extents is checked structurally, once per coordinate of the long axes
set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, read off the arrays as the region finds them -/

/-- Window `w`'s block at grid point `t`, read off the window's array at the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds the window's block at every point, whether the block was
    fetched at this point or kept from an earlier one (the block index has not moved since, the window is uncut and
    never idle), for any proof data over the arrays `V` whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: its current staging buffer holds the window's block at every point, whether the block was
    fetched at this point or kept from an earlier one (the block index has not moved since, the window is uncut and
    never idle), for any proof data over the arrays `V` whose body leaves the block in place. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: its current staging buffer holds the window's block at every point, whether the block was
    fetched at this point or kept from an earlier one (the block index has not moved since, the window is uncut and
    never idle), for any proof data over the arrays `V` whose body leaves the block in place. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: its current staging buffer holds the window's block at every point, whether the block was
    fetched at this point or kept from an earlier one (the block index has not moved since, the window is uncut and
    never idle), for any proof data over the arrays `V` whose body leaves the block in place. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: its current staging buffer holds the window's block at every point, whether the block was
    fetched at this point or kept from an earlier one (the block index has not moved since, the window is uncut and
    never idle), for any proof data over the arrays `V` whose body leaves the block in place. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: its current staging buffer holds the window's block at every point, whether the block was
    fetched at this point or kept from an earlier one (the block index has not moved since, the window is uncut and
    never idle), for any proof data over the arrays `V` whose body leaves the block in place. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6: its current staging buffer holds the window's block at every point, whether the block was
    fetched at this point or kept from an earlier one (the block index has not moved since, the window is uncut and
    never idle), for any proof data over the arrays `V` whose body leaves the block in place. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7: its current staging buffer holds the window's block at every point, whether the block was
    fetched at this point or kept from an earlier one (the block index has not moved since, the window is uncut and
    never idle), for any proof data over the arrays `V` whose body leaves the block in place. -/
theorem before_of_7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8: its current staging buffer holds the window's block at every point, whether the block was
    fetched at this point or kept from an earlier one (the block index has not moved since, the window is uncut and
    never idle), for any proof data over the arrays `V` whose body leaves the block in place. -/
theorem before_of_8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, as predicates of the grid point -/

/-- The first conditional (initialise the two scratch buffers) tests whether the grid coordinate is 0. -/
abbrev cond0 (i : grid0.Coords) : Prop := (Scalar.cmpi .ne (Scalar.extui (Scalar.cmpi .eq (BitVec.ofNat 32 (i 0).val) 0#32)) 0#32) = 1#1
/-- It holds exactly at the first point. -/
theorem hcond0 : ∀ t : Fin cfg0.N, cond0 (grid0.coords t) ↔ t.val % 4 = 0 :=
  (by decide +kernel : ∀ t : Fin grid0.N, cond0 (grid0.coords t) ↔ t.val % 4 = 0)

/-- The second conditional (write the output) tests whether the grid coordinate is 3. -/
abbrev cond1 (i : grid0.Coords) : Prop := k0_cond2 i = 1#1
/-- It holds exactly at the last point. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

/-- Window 0 is an input: never idle. -/
theorem liveAt_0 : ∀ t : Fin cfg0.N, cfg0.idle 0 (grid0.coords t) = false := by decide +kernel
/-- Window 1 is an input: never idle. -/
theorem liveAt_1 : ∀ t : Fin cfg0.N, cfg0.idle 1 (grid0.coords t) = false := by decide +kernel
/-- Window 2 is an input: never idle. -/
theorem liveAt_2 : ∀ t : Fin cfg0.N, cfg0.idle 2 (grid0.coords t) = false := by decide +kernel
/-- Window 3 is an input: never idle. -/
theorem liveAt_3 : ∀ t : Fin cfg0.N, cfg0.idle 3 (grid0.coords t) = false := by decide +kernel
/-- Window 4 is an input: never idle. -/
theorem liveAt_4 : ∀ t : Fin cfg0.N, cfg0.idle 4 (grid0.coords t) = false := by decide +kernel
/-- Window 5 is an input: never idle. -/
theorem liveAt_5 : ∀ t : Fin cfg0.N, cfg0.idle 5 (grid0.coords t) = false := by decide +kernel
/-- Window 6 is an input: never idle. -/
theorem liveAt_6 : ∀ t : Fin cfg0.N, cfg0.idle 6 (grid0.coords t) = false := by decide +kernel
/-- Window 7 is an input: never idle. -/
theorem liveAt_7 : ∀ t : Fin cfg0.N, cfg0.idle 7 (grid0.coords t) = false := by decide +kernel
/-- Window 8 is an input: never idle. -/
theorem liveAt_8 : ∀ t : Fin cfg0.N, cfg0.idle 8 (grid0.coords t) = false := by decide +kernel
/-- At the first point the output window is idle (nothing is stored into it) -/
theorem idleAt9_A : ∀ t : Fin cfg0.N, cond0 (grid0.coords t) → ¬cond1 (grid0.coords t) → cfg0.idle 9 (grid0.coords t) = true := by decide +kernel
/-- and its block is not written back there. -/
theorem noFlush9_A : ∀ t : Fin cfg0.N, cond0 (grid0.coords t) → ¬cond1 (grid0.coords t) → (cfg0.win 9).flush t = false := by decide +kernel
/-- At the middle points the output window is idle -/
theorem idleAt9_B : ∀ t : Fin cfg0.N, ¬cond0 (grid0.coords t) → ¬cond1 (grid0.coords t) → cfg0.idle 9 (grid0.coords t) = true := by decide +kernel
/-- and not written back. -/
theorem noFlush9_B : ∀ t : Fin cfg0.N, ¬cond0 (grid0.coords t) → ¬cond1 (grid0.coords t) → (cfg0.win 9).flush t = false := by decide +kernel
/-- At the last point the output window is live: the body stores its whole block. -/
theorem liveAt9_C : ∀ t : Fin cfg0.N, ¬cond0 (grid0.coords t) → cond1 (grid0.coords t) → cfg0.idle 9 (grid0.coords t) = false := by decide +kernel

/-! ## The memrefs the body is called with -/

abbrev ms_0 (t : Fin cfg0.N) : Memref sig .tc .vmem S1024x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S4096x16 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x16 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1024x1 .f32 := win0_9.stage (cfg0.slots t 9)
abbrev hs_9 (t : Fin cfg0.N) : (ms_9 t).IsWhole := hstage0_9 ((cfg0.slots t 9).cast nbuf0_9)
/-- One staging buffer of the output window, as a view: what the window holds is stated through it. -/
abbrev VO9 : View sig .tc .vmem S1024x1 .f32 := (Memref.whole cc0_stg9_0 : Memref sig .tc .vmem S1024x1 .f32).view
/-- The two scratch operands, whole buffers of the kernel's own: the accumulator and the product computed at the first point. -/
abbrev scM0 : Memref sig .tc .vmem S1024x64 .f32 := Memref.whole cc0_scratch0
abbrev scM1 : Memref sig .tc .vmem S1024x64 .f32 := Memref.whole cc0_scratch1
/-- The same as views. -/
abbrev VS0 : View sig .tc .vmem S1024x64 .f32 := scM0.view
abbrev VS1 : View sig .tc .vmem S1024x64 .f32 := scM1.view

/-- The core's other scoped buffers (the second kernel's staging buffers and scratch), each whole at some contents:
    this kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f))

/-- What the launch hands the region, with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ otherScoped (F := F) c) ∗ (∃ r, prngReg c r)) := by
  unfold Pipeline.ΦA otherScoped; rw [scopedRest0_eq]; simp only [scM0, scM1, owns_whole]; try rfl

end Cert.Kernel.Node

end
-- ==== Proof.KNodeRunA.lean ====
import proofs.«168662_g27230092657223_cont_9to1_1126_2_alg».proof.Proof.KNodeRuns

-- membership of an index in a rectangle of full extents is checked structurally, once per coordinate of the long axes
set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE FIRST POINT (the initialising branch taken, the output branch not). On whole memrefs — the nine inputs at their
    contents, the output window's buffer at contents handed back untouched, the two scratch buffers at anything — the body
    runs to a continuation that holds the inputs and the output buffer as they were, and each scratch buffer with the
    stores the body made written into it: the accumulator first zeroed and then overwritten by the first partial
    product, the other buffer by the product of inputs 3 and 5. The stores, as lists of pieces (last first), are the
    witness the proof of the triple determines. -/
noncomputable def runA (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) :
    Σ' (LS0 : List (View.Piece (Elt F) S1024x64 .f32)), { LS1 : List (View.Piece (Elt F) S1024x64 .f32) //
      ∀ (xi10 : Vec F S1024x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

end Cert.Kernel.Node

end
-- ==== Proof.KNodeRunB.lean ====
import proofs.«168662_g27230092657223_cont_9to1_1126_2_alg».proof.Proof.KNodeRuns

-- membership of an index in a rectangle of full extents is checked structurally, once per coordinate of the long axes
set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE MIDDLE POINTS (neither branch taken). On whole memrefs — the nine inputs at their contents, the output window's
    buffer at contents handed back untouched, the accumulator at what the point before left (`xs0`), the second scratch
    buffer at what the first point stored (`xs1`) — the body runs to a continuation that holds the inputs, the output
    buffer and the second scratch buffer as they were, and the accumulator with the body's one store written into it.
    The store, as a list of pieces, is the witness the proof of the triple determines. -/
noncomputable def runB (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : ¬cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 : Vec F S1024x64 .f32) (xs1 : Vec F S1024x64 .f32) :
    { LS0 : List (View.Piece (Elt F) S1024x64 .f32) //
      ∀ (xi10 : Vec F S1024x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xs0 ∗ owns (c : Thread nD τ) arg12 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ f, arg11.view.loc (c : Thread nD τ) ↦[arg11.view.set]{fullShare} arg11.view.writes (Elt F) f LS0) ∗ owns (c : Thread nD τ) arg12 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, fun xi10 E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; isplitr; · ipureintro; exact harg12.read_unread _
    iexact H12

end Cert.Kernel.Node

end
-- ==== Proof.KNodeRunC.lean ====
import proofs.«168662_g27230092657223_cont_9to1_1126_2_alg».proof.Proof.KNodeRuns

-- membership of an index in a rectangle of full extents is checked structurally, once per coordinate of the long axes
set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE LAST POINT (the output branch taken, the initialising branch not). On whole memrefs — the nine inputs at their
    contents, the output window's buffer at anything, the accumulator at what the point before left (`xs0`), the second
    scratch buffer at what the first point stored (`xs1`) — the body runs to a continuation that holds the inputs and the
    second scratch buffer as they were, the accumulator with the body's store written into it, and the output buffer
    with the final store written. The stores, as lists of pieces, are the witness the proof of the triple determines. -/
noncomputable def runC (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 : Vec F S1024x64 .f32) (xs1 : Vec F S1024x64 .f32) :
    Σ' (L10 : List (View.Piece (Elt F) S1024x1 .f32)), { LS0 : List (View.Piece (Elt F) S1024x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs0 ∗ owns (c : Thread nD τ) arg12 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f LS0) ∗ owns (c : Thread nD τ) arg12 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; isplitr; · ipureintro; exact harg12.read_unread _
    iexact H12

end Cert.Kernel.Node

end
-- ==== Proof.KNodeFrame.lean ====
import proofs.«168662_g27230092657223_cont_9to1_1126_2_alg».proof.Proof.KNodeRunA
import proofs.«168662_g27230092657223_cont_9to1_1126_2_alg».proof.Proof.KNodeRunB
import proofs.«168662_g27230092657223_cont_9to1_1126_2_alg».proof.Proof.KNodeRunC

-- membership of an index in a rectangle of full extents is checked structurally, once per coordinate of the long axes
set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point: the body's triple at the point's memrefs and input blocks -/

/-- The first-point triple at point `t`: the staging memrefs the pipeline passes there, the two scratch buffers, the input blocks. -/
abbrev ptA (c : Dev nD) (t : Fin cfg0.N) (h0 : cond0 (grid0.coords t)) (h1 : ¬cond1 (grid0.coords t)) :=
  runA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t)
/-- The middle-point triple at point `t`, over what the scratch buffers held before. -/
abbrev ptB (c : Dev nD) (t : Fin cfg0.N) (h0 : ¬cond0 (grid0.coords t)) (h1 : ¬cond1 (grid0.coords t)) (xs0 xs1 : Vec F S1024x64 .f32) :=
  runB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1
/-- The last-point triple at point `t`, over what the scratch buffers held before. -/
abbrev ptC (c : Dev nD) (t : Fin cfg0.N) (h0 : ¬cond0 (grid0.coords t)) (h1 : cond1 (grid0.coords t)) (xs0 xs1 : Vec F S1024x64 .f32) :=
  runC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1

/-! ## What each case stores: the stores cover the buffer, so its contents are the stores read back -/

/-- At the first point the accumulator's stores (zeros, then the first partial product; each the whole buffer) cover it. -/
theorem scoverA_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (y : S1024x64.Idx) :
    ∃ pc ∈ (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).1 S1024x64.size (by sl_kernel_rfl) y
/-- At the first point the second scratch buffer's one store covers it. -/
theorem scoverA_1 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (y : S1024x64.Idx) :
    ∃ pc ∈ (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).2.1 S1024x64.size (by sl_kernel_rfl) y
/-- At a middle point the accumulator's one store covers it. -/
theorem scoverB_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x64.Idx) :
    ∃ pc ∈ (runB (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1 S1024x64.size (by sl_kernel_rfl) y
/-- At the last point the output window's one store covers its block, -/
theorem coverC_9 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x1.Idx) :
    ∃ pc ∈ (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1, y ∈ pc.1.set :=
  View.cover_of_tiledL (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1 S1024x1.size (by sl_kernel_rfl) y
/-- and the accumulator's one store covers it. -/
theorem scoverC_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x64.Idx) :
    ∃ pc ∈ (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).2.1, y ∈ pc.1.set :=
  View.cover_of_tiledL (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).2.1 S1024x64.size (by sl_kernel_rfl) y

/-- What the first point leaves in the accumulator: its stores read back (over anything). -/
def soutA_0 (c : Dev nD) (t : Fin cfg0.N) (h0 : cond0 (grid0.coords t)) (h1 : ¬cond1 (grid0.coords t)) : Vec F S1024x64 .f32 :=
  VS0.read (Elt F) (VS0.writes (Elt F) VS0.junk (ptA V c t h0 h1).1)
/-- What the first point leaves in the second scratch buffer. -/
def soutA_1 (c : Dev nD) (t : Fin cfg0.N) (h0 : cond0 (grid0.coords t)) (h1 : ¬cond1 (grid0.coords t)) : Vec F S1024x64 .f32 :=
  VS1.read (Elt F) (VS1.writes (Elt F) VS1.junk (ptA V c t h0 h1).2.1)
/-- What a middle point leaves in the accumulator, over what the scratch buffers held. -/
def soutB_0 (c : Dev nD) (t : Fin cfg0.N) (h0 : ¬cond0 (grid0.coords t)) (h1 : ¬cond1 (grid0.coords t)) (xs0 xs1 : Vec F S1024x64 .f32) : Vec F S1024x64 .f32 :=
  VS0.read (Elt F) (VS0.writes (Elt F) VS0.junk (ptB V c t h0 h1 xs0 xs1).1)
/-- What the last point leaves in the output window's buffer, -/
def outC_9 (c : Dev nD) (t : Fin cfg0.N) (h0 : ¬cond0 (grid0.coords t)) (h1 : cond1 (grid0.coords t)) (xs0 xs1 : Vec F S1024x64 .f32) : Vec F S1024x1 .f32 :=
  VO9.read (Elt F) (VO9.writes (Elt F) VO9.junk (ptC V c t h0 h1 xs0 xs1).1)
/-- and in the accumulator. -/
def soutC_0 (c : Dev nD) (t : Fin cfg0.N) (h0 : ¬cond0 (grid0.coords t)) (h1 : cond1 (grid0.coords t)) (xs0 xs1 : Vec F S1024x64 .f32) : Vec F S1024x64 .f32 :=
  VS0.read (Elt F) (VS0.writes (Elt F) VS0.junk (ptC V c t h0 h1 xs0 xs1).2.1)
/-- The output window at a point that stores nothing into it: a placeholder nothing consults (the window is neither
    written back there nor read at the next point). -/
def idleOut : Vec F S1024x1 .f32 := VO9.read (Elt F) VO9.junk

/-! ## What the output window and the two scratch buffers hold after each point -/

theorem lt4 {n : ℕ} (hn : n < cfg0.N) : n < 4 := lt_of_lt_of_eq hn (show cfg0.N = 4 from N_0)

/-- THE ACCUMULATION: after the body at position `n`, the output window's buffer, the accumulator and the second scratch
    buffer. The first point initialises both scratch buffers; every later point adds its partial product to the
    accumulator the point before left and leaves the second buffer alone; the last point also stores the output. -/
def outsAt (c : Dev nD) : (n : ℕ) → n < cfg0.N → Vec F S1024x1 .f32 × Vec F S1024x64 .f32 × Vec F S1024x64 .f32
  | 0, hn => (idleOut,
      soutA_0 V c ⟨0, hn⟩ ((hcond0 ⟨0, hn⟩).mpr (Nat.zero_mod _)) (fun h => (fun h => by (try dsimp only at h); omega) ((hcond1 ⟨0, hn⟩).mp h)),
      soutA_1 V c ⟨0, hn⟩ ((hcond0 ⟨0, hn⟩).mpr (Nat.zero_mod _)) (fun h => (fun h => by (try dsimp only at h); omega) ((hcond1 ⟨0, hn⟩).mp h)))
  | n + 1, hn =>
    if h1 : (n + 1) % 4 = 3 then
      (outC_9 V c ⟨n + 1, hn⟩ (fun h => (fun h => by have := lt4 hn; (try dsimp only at h); omega) ((hcond0 ⟨n + 1, hn⟩).mp h)) ((hcond1 ⟨n + 1, hn⟩).mpr h1) (outsAt c n (Nat.lt_of_succ_lt hn)).2.1 (outsAt c n (Nat.lt_of_succ_lt hn)).2.2,
       soutC_0 V c ⟨n + 1, hn⟩ (fun h => (fun h => by have := lt4 hn; (try dsimp only at h); omega) ((hcond0 ⟨n + 1, hn⟩).mp h)) ((hcond1 ⟨n + 1, hn⟩).mpr h1) (outsAt c n (Nat.lt_of_succ_lt hn)).2.1 (outsAt c n (Nat.lt_of_succ_lt hn)).2.2,
       (outsAt c n (Nat.lt_of_succ_lt hn)).2.2)
    else
      (idleOut,
       soutB_0 V c ⟨n + 1, hn⟩ (fun h => (fun h => by have := lt4 hn; (try dsimp only at h); omega) ((hcond0 ⟨n + 1, hn⟩).mp h)) (fun h => h1 ((hcond1 ⟨n + 1, hn⟩).mp h)) (outsAt c n (Nat.lt_of_succ_lt hn)).2.1 (outsAt c n (Nat.lt_of_succ_lt hn)).2.2,
       (outsAt c n (Nat.lt_of_succ_lt hn)).2.2)

/-- `outsAt` at the first point. -/
theorem outsAt_A (c : Dev nD) (t : Fin cfg0.N) (h0 : t.val % 4 = 0) (h1 : ¬t.val % 4 = 3) :
    outsAt V c t.val t.isLt = (idleOut, soutA_0 V c t ((hcond0 t).mpr h0) (fun h => h1 ((hcond1 t).mp h)), soutA_1 V c t ((hcond0 t).mpr h0) (fun h => h1 ((hcond1 t).mp h))) := by
  obtain ⟨n, hn⟩ := t
  cases n with
  | zero => exact rfl
  | succ n => exact (by exfalso; have := lt4 hn; (try dsimp only at h0); omega)

/-- `outsAt` at a middle point, over what the point before left. -/
theorem outsAt_B (c : Dev nD) (t : Fin cfg0.N) (h0 : ¬t.val % 4 = 0) (h1 : ¬t.val % 4 = 3) :
    outsAt V c t.val t.isLt = (idleOut, soutB_0 V c t (fun h => h0 ((hcond0 t).mp h)) (fun h => h1 ((hcond1 t).mp h)) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt` at the last point, over what the point before left. -/
theorem outsAt_C (c : Dev nD) (t : Fin cfg0.N) (h0 : ¬t.val % 4 = 0) (h1 : t.val % 4 = 3) :
    outsAt V c t.val t.isLt = (outC_9 V c t (fun h => h0 ((hcond0 t).mp h)) ((hcond1 t).mpr h1) (outsAt V c (t.val - 1) (Nat.lt_of_le_of_lt (Nat.sub_le _ _) t.isLt)).2.1 (outsAt V c (t.val - 1) (Nat.lt_of_le_of_lt (Nat.sub_le _ _) t.isLt)).2.2,
      soutC_0 V c t (fun h => h0 ((hcond0 t).mp h)) ((hcond1 t).mpr h1) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The region invariant -/

/-- Before position `n`: before the first point what the launch hands over (every scoped buffer at anything); afterwards
    the accumulator and the second scratch buffer at what the point before left in them, the core's other scoped buffers
    at anything, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt V c n hn).2.1) ∗ owns (c : Thread nD τ) scM1 fullShare ((outsAt V c n hn).2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt V c n hn).2.1) ∗ owns (c : Thread nD τ) scM1 fullShare ((outsAt V c n hn).2.2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt V c (n - 1) (by omega)).2.1) ∗ owns (c : Thread nD τ) scM1 fullShare ((outsAt V c (n - 1) (by omega)).2.2) ∗ otherScoped (F := F) c) ∗ (∃ r, prngReg c r)) := by
  cases n with
  | zero => exact absurd rfl hz
  | succ n => rfl

/-! ## The pipeline's proof data -/

/-- The proof data on core `c`: the arrays at the region-entry contents `V`; after the body at point `t` each input's
    buffer at its block and the output's at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = (outsAt V c t.val t.isLt).1 := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d
theorem before_7 (c : Dev nD) (t : Fin cfg0.N) (d) : (dat V c).before 7 t d = iblk V c 7 t :=
  before_of_7 V (dat V c) (A_eq V c 7) (after_7 V c) t d
theorem before_8 (c : Dev nD) (t : Fin cfg0.N) (d) : (dat V c).before 8 t d = iblk V c 8 t :=
  before_of_8 V (dat V c) (A_eq V c 8) (after_8 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point. The inputs' memrefs hold their blocks; the closed forms of the two conditions say which of
    the three cases the point is in; the invariant hands the body the two scratch buffers — at anything before the
    first point, at what the point before left afterwards — and takes them back at this point's contents (the stores
    cover each buffer, so its contents are the stores read back); the output window's buffer is handed back untouched
    where the point stores nothing into it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).owesAt () t.succ = (dat V c).owesAt () t.castSucc from rfl]
  rw [show (dat V c).Φ t.succ = PhiS V c (t.val + 1) t.isLt from rfl, PhiS_succ]
  have hN : t.val < 4 := lt4 t.isLt
  by_cases h0 : t.val % 4 = 0
  · by_cases h1 : t.val % 4 = 3
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [Dat.leavesExact_idle (dat V c) 9 t (idleAt9_A t ((hcond0 t).mpr h0) (fun h => h1 ((hcond1 t).mp h))) (noFlush9_A t ((hcond0 t).mpr h0) (fun h => h1 ((hcond1 t).mp h)))]
      rw [outsAt_A V c t h0 h1]
      unfold soutA_0 soutA_1; (try dsimp only)
      have hz : t.val = 0 := by omega
      rw [PhiS_castSucc V c t, PhiS_zero V c _ _ hz, PhiA_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptA V c t ((hcond0 t).mpr h0) (fun h => h1 ((hcond1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := by omega
    by_cases h1 : t.val % 4 = 3
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt9_C t (fun h => h0 ((hcond0 t).mp h)) ((hcond1 t).mpr h1)], after_9]
      rw [outsAt_C V c t h0 h1]
      unfold outC_9 soutC_0; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptC V c t (fun h => h0 ((hcond0 t).mp h)) ((hcond1 t).mpr h1) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, HS1⟩
      isplitl [HS0 HS1 Hrest Hg]
      · isplitr [Hg]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _ _ _ _ _ _ _ _ _ _ _)
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC_9 c _ _ _ _ _ _ _ _ _ _ _ _ _ _ _ _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [Dat.leavesExact_idle (dat V c) 9 t (idleAt9_B t (fun h => h0 ((hcond0 t).mp h)) (fun h => h1 ((hcond1 t).mp h))) (noFlush9_B t (fun h => h0 ((hcond0 t).mp h)) (fun h => h1 ((hcond1 t).mp h)))]
      rw [outsAt_B V c t h0 h1]
      unfold soutB_0; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptB V c t (fun h => h0 ((hcond0 t).mp h)) (fun h => h1 ((hcond1 t).mp h)) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, HS1⟩
      isplitl [HS0 HS1 Hrest Hg]
      · isplitr [Hg]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _ _ _ _ _ _ _ _ _ _ _)
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the scratch buffers' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hrest⟩, Hg⟩
  isplitr [Hg]
  · isplitl [HS0]
    · iexists _; iexact HS0
    isplitl [HS1]
    · iexists _; iexact HS1
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 4 := N_0; omega)

end Cert.Kernel.Node

end
-- ==== Proof.KEdgeRuns.lean ====
import proofs.«168662_g27230092657223_cont_9to1_1126_2_alg».proof.Proof.Gen.Kernel.Launch
import proofs.«168662_g27230092657223_cont_9to1_1126_2_alg».proof.Proof.Gen.Kernel.Skeleton
import proofs.«168662_g27230092657223_cont_9to1_1126_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! What the three whole-body runs of the edge kernel (region 1) share: the input blocks read off the
    region-entry contents, the two branch conditions in closed form over the grid, where the output window is
    idle, the staging and scratch memrefs, and the class invariant split into the accumulator and the rest. -/

-- membership proofs in rectangles with long axes recurse once per coordinate
set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the
    window is uncut and never idle, and the body leaves the block in place. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The condition of the initialising branch (taken at the first point), the scalar chain substituted. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The condition of the finalising branch (taken at the last point). -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-! ## Where the output window is idle -/

theorem live_in : ∀ (w : Fin cfg1.W), w ≠ 7 → ∀ t : Fin cfg1.N, cfg1.idle w (grid1.coords t) = false := by decide +kernel
/-- Away from the last point the output window is idle (nothing is stored into it) -/
theorem idle_out : ∀ t : Fin cfg1.N, ¬isLast (grid1.coords t) → cfg1.idle 7 (grid1.coords t) = true := by decide +kernel
/-- and its block is not written back there. -/
theorem noFlush_out : ∀ t : Fin cfg1.N, ¬isLast (grid1.coords t) → (cfg1.win 7).flush t = false := by decide +kernel
/-- At the last point it is live. -/
theorem live_out : ∀ t : Fin cfg1.N, isLast (grid1.coords t) → cfg1.idle 7 (grid1.coords t) = false := by decide +kernel

/-! ## The memrefs the body is called with -/

/-- The output window's one staging buffer, as a view: its contents are stated through it. -/
abbrev VO : View sig .tc .vmem S4096x8 .f32 := (Memref.whole cc1_stg7_0 : Memref sig .tc .vmem S4096x8 .f32).view
abbrev ms0 (t : Fin cfg1.N) : Memref sig .tc .vmem S4096x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S4096x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S4096x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x8 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x8 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S4096x8 .f32 := win1_7.stage (cfg1.slots t 7)
abbrev hs7 (t : Fin cfg1.N) : (ms7 t).IsWhole := hstage1_7 ((cfg1.slots t 7).cast nbuf1_7)
/-- The accumulator: a whole scoped buffer of the kernel's own, passed beside the windows. -/
abbrev scM : Memref sig .tc .vmem S4096x8 .f32 := Memref.whole cc1_scratch0
abbrev VS : View sig .tc .vmem S4096x8 .f32 := scM.view

/-! ## The class invariant, split -/

/-- The core's scoped buffers other than this region's staging buffers and its accumulator, each at some contents. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))

/-- The class invariant hands out the accumulator at some contents, -/
theorem PhiA_open (c : Dev nD) :
    (Pipeline.ΦA spec1 c : sProp 𝕄) ⊢ iprop((others (F := F) c ∗ (∃ d, owns (c : Thread nD τ) scM fullShare d)) ∗ (∃ r, prngReg c r)) := by
  unfold Pipeline.ΦA others; rw [scopedRest1_eq]; simp only [scM, owns_whole]
  iintro ⟨⟨R0, R1, R2, R3, R4, R5, R6, R7, R8, R9, R10, R11, R12, R13, HS⟩, Hg⟩
  iframe

/-- and takes it back at any contents. -/
theorem PhiA_close (c : Dev nD) :
    iprop((others (F := F) c ∗ (∃ d, owns (c : Thread nD τ) scM fullShare d)) ∗ (∃ r, prngReg c r)) ⊢ (Pipeline.ΦA spec1 c : sProp 𝕄) := by
  unfold Pipeline.ΦA others; rw [scopedRest1_eq]; simp only [scM, owns_whole]
  iintro ⟨⟨⟨R0, R1, R2, R3, R4, R5, R6, R7, R8, R9, R10, R11, R12, R13⟩, HS⟩, Hg⟩
  iframe

end Cert.Kernel.Edge

end
-- ==== Proof.KEdgeRunB.lean ====
import proofs.«168662_g27230092657223_cont_9to1_1126_2_alg».proof.Proof.KEdgeRuns

/-! The whole-body run of the edge kernel in case B. -/

-- membership proofs in rectangles with long axes recurse once per coordinate
set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at a MIDDLE point (neither branch taken): as at the first point, but the accumulator comes in at
    the contents `xs` the point before left, and the pieces may read them. -/
noncomputable def runMid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    Σ' (L7 : List (View.Piece (Elt F) S4096x8 .f32)), { LS : List (View.Piece (Elt F) S4096x8 .f32) //
      ∀ (xi7 : Vec F S4096x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨[], ?_, fun xi7 E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.Kernel.Edge

end
-- ==== Proof.KEdgeRunA.lean ====
import proofs.«168662_g27230092657223_cont_9to1_1126_2_alg».proof.Proof.KEdgeRunB

/-! The whole-body run of the edge kernel in case A. -/

-- membership proofs in rectangles with long axes recurse once per coordinate
set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at the FIRST point (the initialising branch taken, the finalising one not): the pieces its stores leave
    in the accumulator (the witness the symbolic run finds), with the proof that on whole staging memrefs — the
    inputs at their contents, the idle output at contents handed back untouched, the accumulator at anything — it
    runs to the continuation holding the inputs as they were and the accumulator with those pieces written. -/
noncomputable def runFirst (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) :
    Σ' (L7 : List (View.Piece (Elt F) S4096x8 .f32)), { LS : List (View.Piece (Elt F) S4096x8 .f32) //
      ∀ (xi7 : Vec F S4096x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨[], ?_, fun xi7 E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.Kernel.Edge

end
-- ==== Proof.KEdgeRunC.lean ====
import proofs.«168662_g27230092657223_cont_9to1_1126_2_alg».proof.Proof.KEdgeRunA

/-! The whole-body run of the edge kernel in case C. -/

-- membership proofs in rectangles with long axes recurse once per coordinate
set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at the LAST point (the finalising branch taken): the accumulator comes in at `xs`; the output window's
    buffer comes in at anything and leaves with its pieces written. -/
noncomputable def runLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    Σ' (L7 : List (View.Piece (Elt F) S4096x8 .f32)), { LS : List (View.Piece (Elt F) S4096x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨?_, ?_, fun E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.Kernel.Edge

end
-- ==== Proof.KEdgeFrame.lean ====
import proofs.«168662_g27230092657223_cont_9to1_1126_2_alg».proof.Proof.KEdgeRunC

/-! The frame proof data of the edge kernel (region 1), parametrised by the region-entry contents `V`: what the
    accumulator and the output window hold after each point, the invariant, the proof data, the body obligation
    and the two ends of the invariant. -/

-- membership proofs in rectangles with long axes recurse once per coordinate
set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, from the pieces its run found -/

/-- The pieces the first point stores into the accumulator cover it. -/
theorem cover_first (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (y : S4096x8.Idx) :
    ∃ pc ∈ (runFirst c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 hc0 hc1 x0 x1 x2 x3 x4 x5 x6).2.1 S4096x8.size (by sl_kernel_rfl) y

/-- What the first point leaves in the accumulator: its pieces read back over junk. -/
def accFirst (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) : Vec F S4096x8 .f32 :=
  VS.read (Elt F) (VS.writes (Elt F) VS.junk (runFirst c i arg1 harg1 arg2 harg2 arg3 harg3 arg4 harg4 arg5 harg5 arg6 harg6 arg7 harg7 arg8 harg8 arg9 harg9 hc0 hc1 x0 x1 x2 x3 x4 x5 x6).2.1)

/-- The pieces a middle point stores into the accumulator cover it. -/
theorem cover_mid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runMid c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runMid c i arg1 harg1 arg2 harg2 arg3 harg3 arg4 harg4 arg5 harg5 arg6 harg6 arg7 harg7 arg8 harg8 arg9 harg9 hc0 hc1 x0 x1 x2 x3 x4 x5 x6 xs).2.1 S4096x8.size (by sl_kernel_rfl) y

/-- What a middle point leaves in the accumulator. -/
def accMid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VS.read (Elt F) (VS.writes (Elt F) VS.junk (runMid c i arg1 harg1 arg2 harg2 arg3 harg3 arg4 harg4 arg5 harg5 arg6 harg6 arg7 harg7 arg8 harg8 arg9 harg9 hc0 hc1 x0 x1 x2 x3 x4 x5 x6 xs).2.1)

/-- The pieces the last point stores into the accumulator cover it. -/
theorem cover_last (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).2.1 S4096x8.size (by sl_kernel_rfl) y

/-- What the last point leaves in the accumulator. -/
def accLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VS.read (Elt F) (VS.writes (Elt F) VS.junk (runLast c i arg1 harg1 arg2 harg2 arg3 harg3 arg4 harg4 arg5 harg5 arg6 harg6 arg7 harg7 arg8 harg8 arg9 harg9 hc0 hc1 x0 x1 x2 x3 x4 x5 x6 xs).2.1)

/-- The pieces the last point stores into the output window's buffer cover it. -/
theorem cover_out (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).1 S4096x8.size (by sl_kernel_rfl) y

/-- What the last point leaves in the output window's buffer. -/
def outLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VO.read (Elt F) (VO.writes (Elt F) VO.junk (runLast c i arg1 harg1 arg2 harg2 arg3 harg3 arg4 harg4 arg5 harg5 arg6 harg6 arg7 harg7 arg8 harg8 arg9 harg9 hc0 hc1 x0 x1 x2 x3 x4 x5 x6 xs).1)

/-- At the other points nothing is stored into the output window: a placeholder nothing consults (the window is
    neither written back there nor read at the next point). -/
def outIdle : Vec F S4096x8 .f32 := VO.read (Elt F) (VO.writes (Elt F) VO.junk [])

/-! ## Point by point -/

/-- What the output window's buffer and the accumulator hold after the body at position `n`: the case of `n`, run
    at the point's memrefs and input blocks, the accumulator coming in at what position `n - 1` left. -/
def outsAt (c : Dev nD) : (n : ℕ) → n < cfg1.N → Vec F S4096x8 .f32 × Vec F S4096x8 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((isFirst_iff ⟨0, hn⟩).mpr rfl) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h1 : n + 1 = 7 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)
    else
      (outIdle, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_first (c : Dev nD) (t : Fin cfg1.N) (h0 : t.val = 0) (h1 : ¬t.val = 7) :
    outsAt V c t.val t.isLt = (outIdle, accFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_mid (c : Dev nD) (t : Fin cfg1.N) (h0 : ¬t.val = 0) (h1 : ¬t.val = 7) :
    outsAt V c t.val t.isLt = (outIdle, accMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact (dif_neg h1).trans rfl

theorem outsAt_last (c : Dev nD) (t : Fin cfg1.N) (h0 : ¬t.val = 0) (h1 : t.val = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       accLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: before the first point the accumulator at anything; afterwards at what the point before
    left in it; the other scoped buffers and the generator register at some state throughout. -/
def PhiS (c : Dev nD) : (n : ℕ) → n ≤ cfg1.N → sProp 𝕄
  | 0, _ => iprop((others (F := F) c ∗ (∃ d, owns (c : Thread nD τ) scM fullShare d)) ∗ (∃ r, prngReg c r))
  | n + 1, hn => iprop((others (F := F) c ∗ owns (c : Thread nD τ) scM fullShare ((outsAt V c n hn).2)) ∗ (∃ r, prngReg c r))

theorem PhiS_zero (c : Dev nD) (n : ℕ) (h : n ≤ cfg1.N) (hz : n = 0) :
    PhiS V c n h = iprop((others (F := F) c ∗ (∃ d, owns (c : Thread nD τ) scM fullShare d)) ∗ (∃ r, prngReg c r)) := by
  subst hz; rfl

theorem PhiS_succ (c : Dev nD) (n : ℕ) (hn : n < cfg1.N) :
    PhiS V c (n + 1) hn = iprop((others (F := F) c ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop((others (F := F) c ∗ owns (c : Thread nD τ) scM fullShare ((outsAt V c (n - 1) (by omega)).2)) ∗ (∃ r, prngReg c r)) := by
  cases n with
  | zero => exact absurd rfl hz
  | succ n => rfl

/-! ## The proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = (outsAt V c t.val t.isLt).1 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d

theorem leaves0 (c : Dev nD) (t : Fin cfg1.N) :
    (dat V c).leavesExact 0 t = owns (c : Thread nD τ) (ms0 t) fullShare (iblk V c 0 t) := by
  unfold Dat.leavesExact; rw [live_in 0 (by decide) t, after0]
theorem leaves1 (c : Dev nD) (t : Fin cfg1.N) :
    (dat V c).leavesExact 1 t = owns (c : Thread nD τ) (ms1 t) fullShare (iblk V c 1 t) := by
  unfold Dat.leavesExact; rw [live_in 1 (by decide) t, after1]
theorem leaves2 (c : Dev nD) (t : Fin cfg1.N) :
    (dat V c).leavesExact 2 t = owns (c : Thread nD τ) (ms2 t) fullShare (iblk V c 2 t) := by
  unfold Dat.leavesExact; rw [live_in 2 (by decide) t, after2]
theorem leaves3 (c : Dev nD) (t : Fin cfg1.N) :
    (dat V c).leavesExact 3 t = owns (c : Thread nD τ) (ms3 t) fullShare (iblk V c 3 t) := by
  unfold Dat.leavesExact; rw [live_in 3 (by decide) t, after3]
theorem leaves4 (c : Dev nD) (t : Fin cfg1.N) :
    (dat V c).leavesExact 4 t = owns (c : Thread nD τ) (ms4 t) fullShare (iblk V c 4 t) := by
  unfold Dat.leavesExact; rw [live_in 4 (by decide) t, after4]
theorem leaves5 (c : Dev nD) (t : Fin cfg1.N) :
    (dat V c).leavesExact 5 t = owns (c : Thread nD τ) (ms5 t) fullShare (iblk V c 5 t) := by
  unfold Dat.leavesExact; rw [live_in 5 (by decide) t, after5]
theorem leaves6 (c : Dev nD) (t : Fin cfg1.N) :
    (dat V c).leavesExact 6 t = owns (c : Thread nD τ) (ms6 t) fullShare (iblk V c 6 t) := by
  unfold Dat.leavesExact; rw [live_in 6 (by decide) t, after6]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The body at any point: the inputs' memrefs hold their blocks; the closed forms say which case the point is in;
    the invariant hands the body the accumulator at what the point before left (at anything at the first point) and
    takes it back at this point's contents, the pieces covering it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5, leaves6]
  have hN : t.val < 8 := lt_of_lt_of_eq t.isLt (show cfg1.N = 8 from N_1)
  by_cases h0 : t.val = 0
  · have h1 : ¬t.val = 7 := by omega
    rw [Dat.leavesExact_idle (dat V c) 7 t (idle_out t (fun h => h1 ((isLast_iff t).mp h))) (noFlush_out t (fun h => h1 ((isLast_iff t).mp h)))]
    rw [outsAt_first V c t h0 h1]
    unfold accFirst; (try dsimp only)
    rw [Phi_castSucc V c t, PhiS_zero V c _ _ h0]
    iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid1.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [R HS Hg]
    · isplitl [R HS]
      · isplitl [R]; · iexact R
        unfold owns; iexists _; isplitr
        swap; · iexact HS
        ipureintro; exact View.read_writes_of_cover _ _ _ _ _ (cover_first c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 7
    · rw [show (dat V c).leavesExact 7 t = owns (c : Thread nD τ) (ms7 t) fullShare ((dat V c).after 7 t) from by
        unfold Dat.leavesExact; rw [live_out t ((isLast_iff t).mpr h1)], after7]
      rw [outsAt_last V c t h0 h1]
      unfold outLast accLast; (try dsimp only)
      rw [Phi_castSucc V c t, PhiS_pos V c _ _ h0]
      iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [R HS Hg]
      · isplitl [R HS]
        · isplitl [R]; · iexact R
          unfold owns; iexists _; isplitr
          swap; · iexact HS
          ipureintro; exact View.read_writes_of_cover _ _ _ _ _ (cover_last c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out c _ _ _ _ _ _ _ _ _ _ _ _ _ _ _ _ _ _ _ _ _ _ _ _ _ _ _ _ _)
    · rw [Dat.leavesExact_idle (dat V c) 7 t (idle_out t (fun h => h1 ((isLast_iff t).mp h))) (noFlush_out t (fun h => h1 ((isLast_iff t).mp h)))]
      rw [outsAt_mid V c t h0 h1]
      unfold accMid; (try dsimp only)
      rw [Phi_castSucc V c t, PhiS_pos V c _ _ h0]
      iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [R HS Hg]
      · isplitl [R HS]
        · isplitl [R]; · iexact R
          unfold owns; iexists _; isplitr
          swap; · iexact HS
          ipureintro; exact View.read_writes_of_cover _ _ _ _ _ (cover_mid c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  exact PhiA_open c

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 8 := N_1; omega)]
  refine BIBase.Entails.trans ?_ (PhiA_close c)
  iintro ⟨⟨R, HS⟩, Hg⟩
  isplitr [Hg]
  · isplitl [R]; · iexact R
    iexists _; iexact HS
  iexact Hg

end Cert.Kernel.Edge

end
-- ==== Proof.KAssembly.lean ====
import proofs.«168662_g27230092657223_cont_9to1_1126_2_alg».proof.Proof.Gen.Kernel.Launch
import proofs.«168662_g27230092657223_cont_9to1_1126_2_alg».proof.Proof.LibRegionRecord
import proofs.«168662_g27230092657223_cont_9to1_1126_2_alg».proof.Proof.KNodeFrame
import proofs.«168662_g27230092657223_cont_9to1_1126_2_alg».proof.Proof.KEdgeFrame
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# The whole program: two host stretches and two kernel regions, from the launch to the return

Between two items every unscoped buffer of a core is held whole at a valuation: the launch memory, then each host
stretch's operations applied, then each region's arrays at what its write-backs leave and every other buffer as
the region found it. The run ends with every unscoped buffer at the last valuation, from which both the arguments
(no item writes one) and the result are read.
-/

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch: the node region's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the node region's exit: its arrays at what the write-backs leave, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the edge region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the edge region's exit. -/
def W4 (c : Dev nD) : Valuation τ sig (Elt F) :=
  Pipeline.withArrays spec1 c (W3 m c) fun w => (Edge.dat (V3 m) c).arrAt w cfg1.N
theorem W4_arr (c : Dev nD) (w : Fin cfg1.W) :
    W4 m c (Proc.devRef .tc (Pipeline.arrRef spec1 w)) = (Edge.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Edge.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the regions' records -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Node.dat (V1 m) c
  | ⟨1, _⟩ => fun c => Edge.dat (V3 m) c
abbrev 𝒱₀ : Variants := Variants.none
abbrev L : GSem nD τ sig → Finset Unit := fun _ => ∅
abbrev lv : GSem nD τ sig → Unit → ℕ := fun _ _ => 0

/-- The tables' part of a region's invariant is empty here. -/
theorem prefHeld_emp (p : Fin 2) (c : Dev nD) :
    (BI.emp : sProp 𝕄) ⊢ Pipeline.prefHeld (Ix := Unit) (Name := ℕ) (U := UR sig nD τ) (Lvl := ℕ) (pcfgs (F := F) p).pre c (fun _ => fullShare) (adm p).1 := by
  unfold Pipeline.prefHeld; rw [show (Finset.univ : Finset (Fin 0)) = ∅ from rfl, BI.bigSep_empty]

set_option backward.isDefEq.respectTransparency.types false in
/-- The node region between the valuations `W1` and `W2`. -/
def reg0 : Pipeline.RegionSeg (pcfgs (F := F)) adm (pdats m) () defs₀ 𝒱₀ L lv 0 :=
  RegionRecord.regionSeg (U := UR sig nD τ) (pcfgs (F := F)) adm (pdats m) 0 (launch0.toP) defs₀ 𝒱₀ (W1 m) (W2 m)
    (fun c => (Node.body_obligation (V1 m) c).loose)
    (fun c => (pdats m 0 c).share_full fun _ => rfl) (fun _ _ => rfl) (fun _ => rfl)
    (fun c w => Node.A_eq (V1 m) c w) (fun c k => k.elim0)
    (fun c w => hF0 m c w) (fun c b hb => hrest0 m c b hb)
    (fun c => (show iprop(Pipeline.ΦA (U := UR sig nD τ) spec0 c ∗ Pipeline.prefHeld (Ix := Unit) (Name := ℕ) (U := UR sig nD τ) (Lvl := ℕ) (pcfgs (F := F) 0).pre c (fun _ => fullShare) (adm 0).1) ⊢ (Pipeline.ΦA spec0 c : sProp 𝕄) from by
        iintro ⟨H, -⟩; iexact H).trans (Node.hin (V1 m) c))
    (fun c => (Node.hout (V1 m) c).trans (by
      iintro H
      isplitl [H]
      · iexact H
      · iapply (prefHeld_emp 0 c); iempintro))

set_option backward.isDefEq.respectTransparency.types false in
/-- The edge region between the valuations `W3` and `W4`. -/
def reg1 : Pipeline.RegionSeg (pcfgs (F := F)) adm (pdats m) () defs₀ 𝒱₀ L lv 1 :=
  RegionRecord.regionSeg (U := UR sig nD τ) (pcfgs (F := F)) adm (pdats m) 1 (launch1.toP) defs₀ 𝒱₀ (W3 m) (W4 m)
    (fun c => (Edge.body_obligation (V3 m) c).loose)
    (fun c => (pdats m 1 c).share_full fun _ => rfl) (fun _ _ => rfl) (fun _ => rfl)
    (fun c w => Edge.A_eq (V3 m) c w) (fun c k => k.elim0)
    (fun c w => hF1 m c w) (fun c b hb => hrest1 m c b hb)
    (fun c => (show iprop(Pipeline.ΦA (U := UR sig nD τ) spec1 c ∗ Pipeline.prefHeld (Ix := Unit) (Name := ℕ) (U := UR sig nD τ) (Lvl := ℕ) (pcfgs (F := F) 1).pre c (fun _ => fullShare) (adm 1).1) ⊢ (Pipeline.ΦA spec1 c : sProp 𝕄) from by
        iintro ⟨H, -⟩; iexact H).trans (Edge.hin (V3 m) c))
    (fun c => (Edge.hout (V3 m) c).trans (by
      iintro H
      isplitl [H]
      · iexact H
      · iapply (prefHeld_emp 1 c); iempintro))

/-! ## The host stretches as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A host stretch over the unscoped buffers from the contents `W`, the generator register and the (empty) debt
    riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RegionRecord.rider (U := UR sig nD τ) (Val := Elt F))

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
/-- From any memory with zero counters every weakly fair execution of @main terminates, nothing faulting, and every
    final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RegionRecord.rider (U := UR sig nD τ) (Val := Elt F) c)) (Tₙ := Tₙ m)
    (hch := ⟨fun _ => .rfl, fun _ => .rfl, fun _ => .rfl, fun _ => .rfl, fun c => (show RegionRecord.threadState (U := UR sig nD τ) (W4 m) c ⊢ _ from by
      iintro ⟨Hh, Hp, HO⟩
      isplitl [Hh Hp]
      · isplitl [Hh] <;> iassumption
      · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last valuation holds at the arguments and at the result -/

/-- The first host stretch writes the transposed incidence matrix and the reshaped bias only. -/
theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The second host stretch writes the second reshaped bias only. -/
theorem hostOps1_writes : (hostOps1 : List (HloOp τ sig (Elt F))).Forall fun op => op.writes ⊆ (([main_v3] : List (Ref sig .tc)).map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_keep (c : Dev nD) (b : Ref sig .tc) (h : b ∉ ([main_v0, main_v1] : List (Ref sig .tc))) :
    W1 m c (Proc.devRef .tc b) = W0 m c (Proc.devRef .tc b) :=
  StableHlo.after_of_writes_sub hostOps0 _ hostOps0_writes h
theorem W3_keep (c : Dev nD) (b : Ref sig .tc) (h : b ∉ ([main_v3] : List (Ref sig .tc))) :
    W3 m c (Proc.devRef .tc b) = W2 m c (Proc.devRef .tc b) :=
  StableHlo.after_of_writes_sub hostOps1 _ hostOps1_writes h

/-- The node region changes only its result array. -/
theorem W2_keep (c : Dev nD) (b : Ref sig .tc) (hb : b ≠ main_v2) : W2 m c (Proc.devRef .tc b) = W1 m c (Proc.devRef .tc b) := by
  by_cases h : ∃ w, Pipeline.arrRef spec0 w = b
  · obtain ⟨w, rfl⟩ := h
    rw [W2_arr]
    fin_cases w
    all_goals first
      | exact absurd rfl hb
      | exact ((Node.dat (V1 m) c).arrAt_in _ rfl _).trans (Node.A_eq (V1 m) c _)
  · exact W2_of_ne m c b (fun w e => h ⟨w, e⟩)

/-- The edge region changes only its result array. -/
theorem W4_keep (c : Dev nD) (b : Ref sig .tc) (hb : b ≠ main_v4) : W4 m c (Proc.devRef .tc b) = W3 m c (Proc.devRef .tc b) := by
  by_cases h : ∃ w, Pipeline.arrRef spec1 w = b
  · obtain ⟨w, rfl⟩ := h
    rw [W4_arr]
    fin_cases w
    all_goals first
      | exact absurd rfl hb
      | exact ((Edge.dat (V3 m) c).arrAt_in _ rfl _).trans (Edge.A_eq (V3 m) c _)
  · exact W4_of_ne m c b (fun w e => h ⟨w, e⟩)

/-- A buffer no item writes ends as launched. -/
theorem W4_launch (c : Dev nD) (b : Ref sig .tc) (h0 : b ∉ ([main_v0, main_v1] : List (Ref sig .tc))) (h2 : b ≠ main_v2)
    (h3 : b ∉ ([main_v3] : List (Ref sig .tc))) (h4 : b ≠ main_v4) :
    W4 m c (Proc.devRef .tc b) = m ((c : Thread nD τ).loc b) :=
  (W4_keep m c b h4).trans <| (W3_keep m c b h3).trans <| (W2_keep m c b h2).trans <| (W1_keep m c b h0).trans rfl

/-- The result array ends at what the edge region's write-backs leave. -/
theorem W4_result (c : Dev nD) : W4 m c (Proc.devRef .tc main_v4) = (Edge.dat (V3 m) c).arrAt 7 cfg1.N :=
  W4_arr m c 7
/-- The edge region finds the node region's result in its seventh window's array. -/
theorem V3_node_result (c : Dev nD) : V3 m c main_v2 = (Node.dat (V1 m) c).arrAt 9 cfg0.N :=
  (W3_keep m c main_v2 (by decide)).trans (W2_arr m c 9)
/-- The edge region finds every buffer but the node region's result and the second reshaped bias as the node region
    found it. -/
theorem V3_keep (c : Dev nD) (b : Ref sig .tc) (h2 : b ≠ main_v2) (h3 : b ∉ ([main_v3] : List (Ref sig .tc))) :
    V3 m c b = V1 m c b :=
  (W3_keep m c b h3).trans (W2_keep m c b h2)

/-- The run read at the arguments and the result: every argument as launched, the result at what the edge region
    leaves. -/
theorem run_result : θ_run defs (onTc (τ := τ) (main (F := F))) ⟨m, fun _ => 0, ρ⟩ (fun r => ∀ c : Dev nD,
      r.2.mem ((c.tc : Thread nD τ).loc main_v4) = (Edge.dat (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v4 (by decide))).trans (W4_result m c),
     (h c _ (mem_uc main_arg0 (by decide))).trans (W4_launch m c main_arg0 (by decide) (by decide) (by decide) (by decide)),
     (h c _ (mem_uc main_arg1 (by decide))).trans (W4_launch m c main_arg1 (by decide) (by decide) (by decide) (by decide)),
     (h c _ (mem_uc main_arg2 (by decide))).trans (W4_launch m c main_arg2 (by decide) (by decide) (by decide) (by decide)),
     (h c _ (mem_uc main_arg3 (by decide))).trans (W4_launch m c main_arg3 (by decide) (by decide) (by decide) (by decide)),
     (h c _ (mem_uc main_arg4 (by decide))).trans (W4_launch m c main_arg4 (by decide) (by decide) (by decide) (by decide)),
     (h c _ (mem_uc main_arg5 (by decide))).trans (W4_launch m c main_arg5 (by decide) (by decide) (by decide) (by decide)),
     (h c _ (mem_uc main_arg6 (by decide))).trans (W4_launch m c main_arg6 (by decide) (by decide) (by decide) (by decide)),
     (h c _ (mem_uc main_arg7 (by decide))).trans (W4_launch m c main_arg7 (by decide) (by decide) (by decide) (by decide)),
     (h c _ (mem_uc main_arg8 (by decide))).trans (W4_launch m c main_arg8 (by decide) (by decide) (by decide) (by decide)),
     (h c _ (mem_uc main_arg9 (by decide))).trans (W4_launch m c main_arg9 (by decide) (by decide) (by decide) (by decide)),
     (h c _ (mem_uc main_arg10 (by decide))).trans (W4_launch m c main_arg10 (by decide) (by decide) (by decide) (by decide))⟩)
    (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.Kernel.Whole

end
-- ==== Proof.NodeRuns.lean ====
import proofs.«168662_g27230092657223_cont_9to1_1126_2_alg».proof.Proof.Gen.KernelIdeal.Launch
import proofs.«168662_g27230092657223_cont_9to1_1126_2_alg».proof.Proof.Gen.KernelIdeal.Skeleton
import proofs.«168662_g27230092657223_cont_9to1_1126_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, read off the arrays as the region finds them -/

/-- Window `w`'s block at grid point `t`, read off the window's array at the region-entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds the window's block at every point, whether the block was
    fetched at this point or kept from an earlier one (the block index has not moved since, the window is uncut and
    never idle), for any proof data over the arrays `V` whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1: its current staging buffer holds the window's block at every point, whether the block was
    fetched at this point or kept from an earlier one (the block index has not moved since, the window is uncut and
    never idle), for any proof data over the arrays `V` whose body leaves the block in place. -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2: its current staging buffer holds the window's block at every point, whether the block was
    fetched at this point or kept from an earlier one (the block index has not moved since, the window is uncut and
    never idle), for any proof data over the arrays `V` whose body leaves the block in place. -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3: its current staging buffer holds the window's block at every point, whether the block was
    fetched at this point or kept from an earlier one (the block index has not moved since, the window is uncut and
    never idle), for any proof data over the arrays `V` whose body leaves the block in place. -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4: its current staging buffer holds the window's block at every point, whether the block was
    fetched at this point or kept from an earlier one (the block index has not moved since, the window is uncut and
    never idle), for any proof data over the arrays `V` whose body leaves the block in place. -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5: its current staging buffer holds the window's block at every point, whether the block was
    fetched at this point or kept from an earlier one (the block index has not moved since, the window is uncut and
    never idle), for any proof data over the arrays `V` whose body leaves the block in place. -/
theorem before_of_5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6: its current staging buffer holds the window's block at every point, whether the block was
    fetched at this point or kept from an earlier one (the block index has not moved since, the window is uncut and
    never idle), for any proof data over the arrays `V` whose body leaves the block in place. -/
theorem before_of_6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7: its current staging buffer holds the window's block at every point, whether the block was
    fetched at this point or kept from an earlier one (the block index has not moved since, the window is uncut and
    never idle), for any proof data over the arrays `V` whose body leaves the block in place. -/
theorem before_of_7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8: its current staging buffer holds the window's block at every point, whether the block was
    fetched at this point or kept from an earlier one (the block index has not moved since, the window is uncut and
    never idle), for any proof data over the arrays `V` whose body leaves the block in place. -/
theorem before_of_8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, as predicates of the grid point -/

/-- The first conditional (initialise the two scratch buffers) tests whether the grid coordinate is 0. -/
abbrev cond0 (i : grid0.Coords) : Prop := (Scalar.cmpi .ne (Scalar.extui (Scalar.cmpi .eq (BitVec.ofNat 32 (i 0).val) 0#32)) 0#32) = 1#1
/-- It holds exactly at the first point. -/
theorem hcond0 : ∀ t : Fin cfg0.N, cond0 (grid0.coords t) ↔ t.val % 4 = 0 :=
  (by decide +kernel : ∀ t : Fin grid0.N, cond0 (grid0.coords t) ↔ t.val % 4 = 0)

/-- The second conditional (write the output) tests whether the grid coordinate is 3. -/
abbrev cond1 (i : grid0.Coords) : Prop := k0_cond2 i = 1#1
/-- It holds exactly at the last point. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

/-- Window 0 is an input: never idle. -/
theorem liveAt_0 : ∀ t : Fin cfg0.N, cfg0.idle 0 (grid0.coords t) = false := by decide +kernel
/-- Window 1 is an input: never idle. -/
theorem liveAt_1 : ∀ t : Fin cfg0.N, cfg0.idle 1 (grid0.coords t) = false := by decide +kernel
/-- Window 2 is an input: never idle. -/
theorem liveAt_2 : ∀ t : Fin cfg0.N, cfg0.idle 2 (grid0.coords t) = false := by decide +kernel
/-- Window 3 is an input: never idle. -/
theorem liveAt_3 : ∀ t : Fin cfg0.N, cfg0.idle 3 (grid0.coords t) = false := by decide +kernel
/-- Window 4 is an input: never idle. -/
theorem liveAt_4 : ∀ t : Fin cfg0.N, cfg0.idle 4 (grid0.coords t) = false := by decide +kernel
/-- Window 5 is an input: never idle. -/
theorem liveAt_5 : ∀ t : Fin cfg0.N, cfg0.idle 5 (grid0.coords t) = false := by decide +kernel
/-- Window 6 is an input: never idle. -/
theorem liveAt_6 : ∀ t : Fin cfg0.N, cfg0.idle 6 (grid0.coords t) = false := by decide +kernel
/-- Window 7 is an input: never idle. -/
theorem liveAt_7 : ∀ t : Fin cfg0.N, cfg0.idle 7 (grid0.coords t) = false := by decide +kernel
/-- Window 8 is an input: never idle. -/
theorem liveAt_8 : ∀ t : Fin cfg0.N, cfg0.idle 8 (grid0.coords t) = false := by decide +kernel
/-- At the first point the output window is idle (nothing is stored into it) -/
theorem idleAt9_A : ∀ t : Fin cfg0.N, cond0 (grid0.coords t) → ¬cond1 (grid0.coords t) → cfg0.idle 9 (grid0.coords t) = true := by decide +kernel
/-- and its block is not written back there. -/
theorem noFlush9_A : ∀ t : Fin cfg0.N, cond0 (grid0.coords t) → ¬cond1 (grid0.coords t) → (cfg0.win 9).flush t = false := by decide +kernel
/-- At the middle points the output window is idle -/
theorem idleAt9_B : ∀ t : Fin cfg0.N, ¬cond0 (grid0.coords t) → ¬cond1 (grid0.coords t) → cfg0.idle 9 (grid0.coords t) = true := by decide +kernel
/-- and not written back. -/
theorem noFlush9_B : ∀ t : Fin cfg0.N, ¬cond0 (grid0.coords t) → ¬cond1 (grid0.coords t) → (cfg0.win 9).flush t = false := by decide +kernel
/-- At the last point the output window is live: the body stores its whole block. -/
theorem liveAt9_C : ∀ t : Fin cfg0.N, ¬cond0 (grid0.coords t) → cond1 (grid0.coords t) → cfg0.idle 9 (grid0.coords t) = false := by decide +kernel

/-! ## The memrefs the body is called with -/

abbrev ms_0 (t : Fin cfg0.N) : Memref sig .tc .vmem S1024x4096 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S4096x16 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x16 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1024x1 .f32 := win0_9.stage (cfg0.slots t 9)
abbrev hs_9 (t : Fin cfg0.N) : (ms_9 t).IsWhole := hstage0_9 ((cfg0.slots t 9).cast nbuf0_9)
/-- One staging buffer of the output window, as a view: what the window holds is stated through it. -/
abbrev VO9 : View sig .tc .vmem S1024x1 .f32 := (Memref.whole cc0_stg9_0 : Memref sig .tc .vmem S1024x1 .f32).view
/-- The two scratch operands, whole buffers of the kernel's own: the accumulator and the product computed at the first point. -/
abbrev scM0 : Memref sig .tc .vmem S1024x64 .f32 := Memref.whole cc0_scratch0
abbrev scM1 : Memref sig .tc .vmem S1024x64 .f32 := Memref.whole cc0_scratch1
/-- The same as views. -/
abbrev VS0 : View sig .tc .vmem S1024x64 .f32 := scM0.view
abbrev VS1 : View sig .tc .vmem S1024x64 .f32 := scM1.view

/-- The core's other scoped buffers (the second kernel's staging buffers and scratch), each whole at some contents:
    this kernel never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f))

/-- What the launch hands the region, with the two scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ otherScoped (F := F) c) ∗ (∃ r, prngReg c r)) := by
  unfold Pipeline.ΦA otherScoped; rw [scopedRest0_eq]; simp only [scM0, scM1, owns_whole]; try rfl

end Cert.KernelIdeal.Node

end
-- ==== Proof.NodeRunA.lean ====
import proofs.«168662_g27230092657223_cont_9to1_1126_2_alg».proof.Proof.NodeRuns

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE FIRST POINT (the initialising branch taken, the output branch not). On whole memrefs — the nine inputs at their
    contents, the output window's buffer at contents handed back untouched, the two scratch buffers at anything — the body
    runs to a continuation that holds the inputs and the output buffer as they were, and each scratch buffer with the
    stores the body made written into it: the accumulator first zeroed and then overwritten by the first partial
    product, the other buffer by the product of inputs 3 and 5. The stores, as lists of pieces (last first), are the
    witness the proof of the triple determines. -/
noncomputable def runA (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) :
    Σ' (LS0 : List (View.Piece (Elt F) S1024x64 .f32)), { LS1 : List (View.Piece (Elt F) S1024x64 .f32) //
      ∀ (xi10 : Vec F S1024x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ d, owns (c : Thread nD τ) arg11 fullShare d) ∗ (∃ d, owns (c : Thread nD τ) arg12 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, ?_, fun xi10 E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; iexact H12

end Cert.KernelIdeal.Node

end
-- ==== Proof.NodeRunB.lean ====
import proofs.«168662_g27230092657223_cont_9to1_1126_2_alg».proof.Proof.NodeRuns

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE MIDDLE POINTS (neither branch taken). On whole memrefs — the nine inputs at their contents, the output window's
    buffer at contents handed back untouched, the accumulator at what the point before left (`xs0`), the second scratch
    buffer at what the first point stored (`xs1`) — the body runs to a continuation that holds the inputs, the output
    buffer and the second scratch buffer as they were, and the accumulator with the body's one store written into it.
    The store, as a list of pieces, is the witness the proof of the triple determines. -/
noncomputable def runB (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : ¬cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 : Vec F S1024x64 .f32) (xs1 : Vec F S1024x64 .f32) :
    { LS0 : List (View.Piece (Elt F) S1024x64 .f32) //
      ∀ (xi10 : Vec F S1024x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ owns (c : Thread nD τ) arg11 fullShare xs0 ∗ owns (c : Thread nD τ) arg12 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare xi10 ∗ (∃ f, arg11.view.loc (c : Thread nD τ) ↦[arg11.view.set]{fullShare} arg11.view.writes (Elt F) f LS0) ∗ owns (c : Thread nD τ) arg12 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, fun xi10 E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _; isplitr; · ipureintro; exact harg12.read_unread _
    iexact H12

end Cert.KernelIdeal.Node

end
-- ==== Proof.NodeRunC.lean ====
import proofs.«168662_g27230092657223_cont_9to1_1126_2_alg».proof.Proof.NodeRuns

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the proof term of the triple is large: the definition's epilogue walks it past the default budget)
set_option maxHeartbeats 4000000 in
/-- THE LAST POINT (the output branch taken, the initialising branch not). On whole memrefs — the nine inputs at their
    contents, the output window's buffer at anything, the accumulator at what the point before left (`xs0`), the second
    scratch buffer at what the first point stored (`xs1`) — the body runs to a continuation that holds the inputs and the
    second scratch buffer as they were, the accumulator with the body's store written into it, and the output buffer
    with the final store written. The stores, as lists of pieces, are the witness the proof of the triple determines. -/
noncomputable def runC (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i)
    (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 : Vec F S1024x64 .f32) (xs1 : Vec F S1024x64 .f32) :
    Σ' (L10 : List (View.Piece (Elt F) S1024x1 .f32)), { LS0 : List (View.Piece (Elt F) S1024x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare xs0 ∗ owns (c : Thread nD τ) arg12 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f LS0) ∗ owns (c : Thread nD τ) arg12 fullShare xs1) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__node_kernel_eq_skeleton]; unfold cc0__node_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; isplitr; · ipureintro; exact harg12.read_unread _
    iexact H12

end Cert.KernelIdeal.Node

end
-- ==== Proof.NodeFrame.lean ====
import proofs.«168662_g27230092657223_cont_9to1_1126_2_alg».proof.Proof.NodeRunA
import proofs.«168662_g27230092657223_cont_9to1_1126_2_alg».proof.Proof.NodeRunB
import proofs.«168662_g27230092657223_cont_9to1_1126_2_alg».proof.Proof.NodeRunC

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point: the body's triple at the point's memrefs and input blocks -/

/-- The first-point triple at point `t`: the staging memrefs the pipeline passes there, the two scratch buffers, the input blocks. -/
abbrev ptA (c : Dev nD) (t : Fin cfg0.N) (h0 : cond0 (grid0.coords t)) (h1 : ¬cond1 (grid0.coords t)) :=
  runA (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t)
/-- The middle-point triple at point `t`, over what the scratch buffers held before. -/
abbrev ptB (c : Dev nD) (t : Fin cfg0.N) (h0 : ¬cond0 (grid0.coords t)) (h1 : ¬cond1 (grid0.coords t)) (xs0 xs1 : Vec F S1024x64 .f32) :=
  runB (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1
/-- The last-point triple at point `t`, over what the scratch buffers held before. -/
abbrev ptC (c : Dev nD) (t : Fin cfg0.N) (h0 : ¬cond0 (grid0.coords t)) (h1 : cond1 (grid0.coords t)) (xs0 xs1 : Vec F S1024x64 .f32) :=
  runC (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1

/-! ## What each case stores: the stores cover the buffer, so its contents are the stores read back -/

/-- At the first point the accumulator's stores (zeros, then the first partial product; each the whole buffer) cover it. -/
theorem scoverA_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (y : S1024x64.Idx) :
    ∃ pc ∈ (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).1 S1024x64.size (by sl_kernel_rfl) y
/-- At the first point the second scratch buffer's one store covers it. -/
theorem scoverA_1 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (y : S1024x64.Idx) :
    ∃ pc ∈ (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9).2.1 S1024x64.size (by sl_kernel_rfl) y
/-- At a middle point the accumulator's one store covers it. -/
theorem scoverB_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : ¬cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x64.Idx) :
    ∃ pc ∈ (runB (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1 S1024x64.size (by sl_kernel_rfl) y
/-- At the last point the output window's one store covers its block, -/
theorem coverC_9 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x1.Idx) :
    ∃ pc ∈ (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1, y ∈ pc.1.set :=
  View.cover_of_tiledL (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).1 S1024x1.size (by sl_kernel_rfl) y
/-- and the accumulator's one store covers it. -/
theorem scoverC_0 (c : Dev nD) (i : grid0.Coords) (arg1 : Memref sig .tc .vmem S1024x4096 .f32) (harg1 : arg1.IsWhole) (arg2 : Memref sig .tc .vmem S4096x256 .f32) (harg2 : arg2.IsWhole) (arg3 : Memref sig .tc .vmem S1024x256 .f32) (harg3 : arg3.IsWhole) (arg4 : Memref sig .tc .vmem S1024x128 .f32) (harg4 : arg4.IsWhole) (arg5 : Memref sig .tc .vmem S4096x16 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1x16 .f32) (harg8 : arg8.IsWhole) (arg9 : Memref sig .tc .vmem S1x64 .f32) (harg9 : arg9.IsWhole) (arg10 : Memref sig .tc .vmem S1024x1 .f32) (harg10 : arg10.IsWhole) (arg11 : Memref sig .tc .vmem S1024x64 .f32) (harg11 : arg11.IsWhole) (arg12 : Memref sig .tc .vmem S1024x64 .f32) (harg12 : arg12.IsWhole) (hc0 : ¬cond0 i) (hc1 : cond1 i) (x1 : Vec F S1024x4096 .f32) (x2 : Vec F S4096x256 .f32) (x3 : Vec F S1024x256 .f32) (x4 : Vec F S1024x128 .f32) (x5 : Vec F S4096x16 .f32) (x6 : Vec F S128x64 .f32) (x7 : Vec F S1x64 .f32) (x8 : Vec F S1x16 .f32) (x9 : Vec F S1x64 .f32) (xs0 xs1 : Vec F S1024x64 .f32) (y : S1024x64.Idx) :
    ∃ pc ∈ (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).2.1, y ∈ pc.1.set :=
  View.cover_of_tiledL (runC (F := F) c i arg1 harg1 arg2 harg2 arg3 harg3 arg4 harg4 arg5 harg5 arg6 harg6 arg7 harg7 arg8 harg8 arg9 harg9 arg10 harg10 arg11 harg11 arg12 harg12 hc0 hc1 x1 x2 x3 x4 x5 x6 x7 x8 x9 xs0 xs1).2.1 S1024x64.size (by sl_kernel_rfl) y

/-- What the first point leaves in the accumulator: its stores read back (over anything). -/
def soutA_0 (c : Dev nD) (t : Fin cfg0.N) (h0 : cond0 (grid0.coords t)) (h1 : ¬cond1 (grid0.coords t)) : Vec F S1024x64 .f32 :=
  VS0.read (Elt F) (VS0.writes (Elt F) VS0.junk (ptA V c t h0 h1).1)
/-- What the first point leaves in the second scratch buffer. -/
def soutA_1 (c : Dev nD) (t : Fin cfg0.N) (h0 : cond0 (grid0.coords t)) (h1 : ¬cond1 (grid0.coords t)) : Vec F S1024x64 .f32 :=
  VS1.read (Elt F) (VS1.writes (Elt F) VS1.junk (ptA V c t h0 h1).2.1)
/-- What a middle point leaves in the accumulator, over what the scratch buffers held. -/
def soutB_0 (c : Dev nD) (t : Fin cfg0.N) (h0 : ¬cond0 (grid0.coords t)) (h1 : ¬cond1 (grid0.coords t)) (xs0 xs1 : Vec F S1024x64 .f32) : Vec F S1024x64 .f32 :=
  VS0.read (Elt F) (VS0.writes (Elt F) VS0.junk (ptB V c t h0 h1 xs0 xs1).1)
/-- What the last point leaves in the output window's buffer, -/
def outC_9 (c : Dev nD) (t : Fin cfg0.N) (h0 : ¬cond0 (grid0.coords t)) (h1 : cond1 (grid0.coords t)) (xs0 xs1 : Vec F S1024x64 .f32) : Vec F S1024x1 .f32 :=
  VO9.read (Elt F) (VO9.writes (Elt F) VO9.junk (ptC V c t h0 h1 xs0 xs1).1)
/-- and in the accumulator. -/
def soutC_0 (c : Dev nD) (t : Fin cfg0.N) (h0 : ¬cond0 (grid0.coords t)) (h1 : cond1 (grid0.coords t)) (xs0 xs1 : Vec F S1024x64 .f32) : Vec F S1024x64 .f32 :=
  VS0.read (Elt F) (VS0.writes (Elt F) VS0.junk (ptC V c t h0 h1 xs0 xs1).2.1)
/-- The output window at a point that stores nothing into it: a placeholder nothing consults (the window is neither
    written back there nor read at the next point). -/
def idleOut : Vec F S1024x1 .f32 := VO9.read (Elt F) VO9.junk

/-! ## What the output window and the two scratch buffers hold after each point -/

theorem lt4 {n : ℕ} (hn : n < cfg0.N) : n < 4 := lt_of_lt_of_eq hn (show cfg0.N = 4 from N_0)

/-- THE ACCUMULATION: after the body at position `n`, the output window's buffer, the accumulator and the second scratch
    buffer. The first point initialises both scratch buffers; every later point adds its partial product to the
    accumulator the point before left and leaves the second buffer alone; the last point also stores the output. -/
def outsAt (c : Dev nD) : (n : ℕ) → n < cfg0.N → Vec F S1024x1 .f32 × Vec F S1024x64 .f32 × Vec F S1024x64 .f32
  | 0, hn => (idleOut,
      soutA_0 V c ⟨0, hn⟩ ((hcond0 ⟨0, hn⟩).mpr (Nat.zero_mod _)) (fun h => (fun h => by (try dsimp only at h); omega) ((hcond1 ⟨0, hn⟩).mp h)),
      soutA_1 V c ⟨0, hn⟩ ((hcond0 ⟨0, hn⟩).mpr (Nat.zero_mod _)) (fun h => (fun h => by (try dsimp only at h); omega) ((hcond1 ⟨0, hn⟩).mp h)))
  | n + 1, hn =>
    if h1 : (n + 1) % 4 = 3 then
      (outC_9 V c ⟨n + 1, hn⟩ (fun h => (fun h => by have := lt4 hn; (try dsimp only at h); omega) ((hcond0 ⟨n + 1, hn⟩).mp h)) ((hcond1 ⟨n + 1, hn⟩).mpr h1) (outsAt c n (Nat.lt_of_succ_lt hn)).2.1 (outsAt c n (Nat.lt_of_succ_lt hn)).2.2,
       soutC_0 V c ⟨n + 1, hn⟩ (fun h => (fun h => by have := lt4 hn; (try dsimp only at h); omega) ((hcond0 ⟨n + 1, hn⟩).mp h)) ((hcond1 ⟨n + 1, hn⟩).mpr h1) (outsAt c n (Nat.lt_of_succ_lt hn)).2.1 (outsAt c n (Nat.lt_of_succ_lt hn)).2.2,
       (outsAt c n (Nat.lt_of_succ_lt hn)).2.2)
    else
      (idleOut,
       soutB_0 V c ⟨n + 1, hn⟩ (fun h => (fun h => by have := lt4 hn; (try dsimp only at h); omega) ((hcond0 ⟨n + 1, hn⟩).mp h)) (fun h => h1 ((hcond1 ⟨n + 1, hn⟩).mp h)) (outsAt c n (Nat.lt_of_succ_lt hn)).2.1 (outsAt c n (Nat.lt_of_succ_lt hn)).2.2,
       (outsAt c n (Nat.lt_of_succ_lt hn)).2.2)

/-- `outsAt` at the first point. -/
theorem outsAt_A (c : Dev nD) (t : Fin cfg0.N) (h0 : t.val % 4 = 0) (h1 : ¬t.val % 4 = 3) :
    outsAt V c t.val t.isLt = (idleOut, soutA_0 V c t ((hcond0 t).mpr h0) (fun h => h1 ((hcond1 t).mp h)), soutA_1 V c t ((hcond0 t).mpr h0) (fun h => h1 ((hcond1 t).mp h))) := by
  obtain ⟨n, hn⟩ := t
  cases n with
  | zero => exact rfl
  | succ n => exact (by exfalso; have := lt4 hn; (try dsimp only at h0); omega)

/-- `outsAt` at a middle point, over what the point before left. -/
theorem outsAt_B (c : Dev nD) (t : Fin cfg0.N) (h0 : ¬t.val % 4 = 0) (h1 : ¬t.val % 4 = 3) :
    outsAt V c t.val t.isLt = (idleOut, soutB_0 V c t (fun h => h0 ((hcond0 t).mp h)) (fun h => h1 ((hcond1 t).mp h)) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h1).trans rfl

/-- `outsAt` at the last point, over what the point before left. -/
theorem outsAt_C (c : Dev nD) (t : Fin cfg0.N) (h0 : ¬t.val % 4 = 0) (h1 : t.val % 4 = 3) :
    outsAt V c t.val t.isLt = (outC_9 V c t (fun h => h0 ((hcond0 t).mp h)) ((hcond1 t).mpr h1) (outsAt V c (t.val - 1) (Nat.lt_of_le_of_lt (Nat.sub_le _ _) t.isLt)).2.1 (outsAt V c (t.val - 1) (Nat.lt_of_le_of_lt (Nat.sub_le _ _) t.isLt)).2.2,
      soutC_0 V c t (fun h => h0 ((hcond0 t).mp h)) ((hcond1 t).mpr h1) (outsAt V c (t.val - 1) (Nat.lt_of_le_of_lt (Nat.sub_le _ _) t.isLt)).2.1 (outsAt V c (t.val - 1) (Nat.lt_of_le_of_lt (Nat.sub_le _ _) t.isLt)).2.2,
      (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_pos h1).trans rfl

/-! ## The region invariant -/

/-- Before position `n`: before the first point what the launch hands over (every scoped buffer at anything); afterwards
    the accumulator and the second scratch buffer at what the point before left in them, the core's other scoped buffers
    at anything, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt V c n hn).2.1) ∗ owns (c : Thread nD τ) scM1 fullShare ((outsAt V c n hn).2.2) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt V c n hn).2.1) ∗ owns (c : Thread nD τ) scM1 fullShare ((outsAt V c n hn).2.2) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt V c (n - 1) (by omega)).2.1) ∗ owns (c : Thread nD τ) scM1 fullShare ((outsAt V c (n - 1) (by omega)).2.2) ∗ otherScoped (F := F) c) ∗ (∃ r, prngReg c r)) := by
  cases n with
  | zero => exact absurd rfl hz
  | succ n => rfl

/-! ## The pipeline's proof data -/

/-- The proof data on core `c`: the arrays at the region-entry contents `V`; after the body at point `t` each input's
    buffer at its block and the output's at `outsAt`'s first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = (outsAt V c t.val t.isLt).1 := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d
theorem before_5 (c : Dev nD) (t : Fin cfg0.N) (d) : (dat V c).before 5 t d = iblk V c 5 t :=
  before_of_5 V (dat V c) (A_eq V c 5) (after_5 V c) t d
theorem before_6 (c : Dev nD) (t : Fin cfg0.N) (d) : (dat V c).before 6 t d = iblk V c 6 t :=
  before_of_6 V (dat V c) (A_eq V c 6) (after_6 V c) t d
theorem before_7 (c : Dev nD) (t : Fin cfg0.N) (d) : (dat V c).before 7 t d = iblk V c 7 t :=
  before_of_7 V (dat V c) (A_eq V c 7) (after_7 V c) t d
theorem before_8 (c : Dev nD) (t : Fin cfg0.N) (d) : (dat V c).before 8 t d = iblk V c 8 t :=
  before_of_8 V (dat V c) (A_eq V c 8) (after_8 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
/-- The body at any point. The inputs' memrefs hold their blocks; the closed forms of the two conditions say which of
    the three cases the point is in; the invariant hands the body the two scratch buffers — at anything before the
    first point, at what the point before left afterwards — and takes them back at this point's contents (the stores
    cover each buffer, so its contents are the stores read back); the output window's buffer is handed back untouched
    where the point stores nothing into it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8]
  rw [show (dat V c).owesAt () t.succ = (dat V c).owesAt () t.castSucc from rfl]
  rw [show (dat V c).Φ t.succ = PhiS V c (t.val + 1) t.isLt from rfl, PhiS_succ]
  have hN : t.val < 4 := lt4 t.isLt
  by_cases h0 : t.val % 4 = 0
  · by_cases h1 : t.val % 4 = 3
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [Dat.leavesExact_idle (dat V c) 9 t (idleAt9_A t ((hcond0 t).mpr h0) (fun h => h1 ((hcond1 t).mp h))) (noFlush9_A t ((hcond0 t).mpr h0) (fun h => h1 ((hcond1 t).mp h)))]
      rw [outsAt_A V c t h0 h1]
      unfold soutA_0 soutA_1; (try dsimp only)
      have hz : t.val = 0 := by omega
      rw [PhiS_castSucc V c t, PhiS_zero V c _ _ hz, PhiA_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptA V c t ((hcond0 t).mpr h0) (fun h => h1 ((hcond1 t).mp h))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitr [Hg]
        · isplitl [HS0]
          · unfold owns; iexists _; isplitr
            swap; · iexact HS0
            ipureintro; exact View.read_writes_of_cover _ _ _ _ _ (scoverA_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_1 c _ _ _ _ _ _ _ _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := by omega
    by_cases h1 : t.val % 4 = 3
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [show (dat V c).leavesExact 9 t = owns (c : Thread nD τ) (ms_9 t) fullShare ((dat V c).after 9 t) from by
        unfold Dat.leavesExact; rw [liveAt9_C t (fun h => h0 ((hcond0 t).mp h)) ((hcond1 t).mpr h1)], after_9]
      rw [outsAt_C V c t h0 h1]
      unfold outC_9 soutC_0; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptC V c t (fun h => h0 ((hcond0 t).mp h)) ((hcond1 t).mpr h1) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, HS1⟩
      isplitl [HS0 HS1 Hrest Hg]
      · isplitr [Hg]
        · isplitl [HS0]
          · unfold owns; iexists _; isplitr
            swap; · iexact HS0
            ipureintro; exact View.read_writes_of_cover _ _ _ _ _ (scoverC_0 c _ _ _ _ _ _ _ _ _ _ _ _ _ _ _ _ _ _ _ _ _ _ _ _ _ _ _ _ _ _ _ _ _ _ _ _ _ _)
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC_9 c _ _ _ _ _ _ _ _ _ _ _ _ _ _ _ _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3 t], after_3]
      rw [show (dat V c).leavesExact 4 t = owns (c : Thread nD τ) (ms_4 t) fullShare ((dat V c).after 4 t) from by
        unfold Dat.leavesExact; rw [liveAt_4 t], after_4]
      rw [show (dat V c).leavesExact 5 t = owns (c : Thread nD τ) (ms_5 t) fullShare ((dat V c).after 5 t) from by
        unfold Dat.leavesExact; rw [liveAt_5 t], after_5]
      rw [show (dat V c).leavesExact 6 t = owns (c : Thread nD τ) (ms_6 t) fullShare ((dat V c).after 6 t) from by
        unfold Dat.leavesExact; rw [liveAt_6 t], after_6]
      rw [show (dat V c).leavesExact 7 t = owns (c : Thread nD τ) (ms_7 t) fullShare ((dat V c).after 7 t) from by
        unfold Dat.leavesExact; rw [liveAt_7 t], after_7]
      rw [show (dat V c).leavesExact 8 t = owns (c : Thread nD τ) (ms_8 t) fullShare ((dat V c).after 8 t) from by
        unfold Dat.leavesExact; rw [liveAt_8 t], after_8]
      rw [Dat.leavesExact_idle (dat V c) 9 t (idleAt9_B t (fun h => h0 ((hcond0 t).mp h)) (fun h => h1 ((hcond1 t).mp h))) (noFlush9_B t (fun h => h0 ((hcond0 t).mp h)) (fun h => h1 ((hcond1 t).mp h)))]
      rw [outsAt_B V c t h0 h1]
      unfold soutB_0; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((ptB V c t (fun h => h0 ((hcond0 t).mp h)) (fun h => h1 ((hcond1 t).mp h)) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, HS1⟩
      isplitl [HS0 HS1 Hrest Hg]
      · isplitr [Hg]
        · isplitl [HS0]
          · unfold owns; iexists _; isplitr
            swap; · iexact HS0
            ipureintro; exact View.read_writes_of_cover _ _ _ _ _ (scoverB_0 c _ _ _ _ _ _ _ _ _ _ _ _ _ _ _ _ _ _ _ _ _ _ _ _ _ _ _ _ _ _ _ _ _ _ _ _ _ _)
          isplitl [HS1]; · iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives the launch's form back: the scratch buffers' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hrest⟩, Hg⟩
  isplitr [Hg]
  · isplitl [HS0]
    · iexists _; iexact HS0
    isplitl [HS1]
    · iexists _; iexact HS1
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 4 := N_0; omega)

end Cert.KernelIdeal.Node

end
-- ==== Proof.EdgeRuns.lean ====
import proofs.«168662_g27230092657223_cont_9to1_1126_2_alg».proof.Proof.Gen.KernelIdeal.Launch
import proofs.«168662_g27230092657223_cont_9to1_1126_2_alg».proof.Proof.Gen.KernelIdeal.Skeleton
import proofs.«168662_g27230092657223_cont_9to1_1126_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! What the three whole-body runs of the edge kernel (region 1) share: the input blocks read off the
    region-entry contents, the two branch conditions in closed form over the grid, where the output window is
    idle, the staging and scratch memrefs, and the class invariant split into the accumulator and the rest. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: the
    window is uncut and never idle, and the body leaves the block in place. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The condition of the initialising branch (taken at the first point), the scalar chain substituted. -/
abbrev isFirst (i : grid1.Coords) : Prop := (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The condition of the finalising branch (taken at the last point). -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

/-! ## Where the output window is idle -/

theorem live_in : ∀ (w : Fin cfg1.W), w ≠ 7 → ∀ t : Fin cfg1.N, cfg1.idle w (grid1.coords t) = false := by decide +kernel
/-- Away from the last point the output window is idle (nothing is stored into it) -/
theorem idle_out : ∀ t : Fin cfg1.N, ¬isLast (grid1.coords t) → cfg1.idle 7 (grid1.coords t) = true := by decide +kernel
/-- and its block is not written back there. -/
theorem noFlush_out : ∀ t : Fin cfg1.N, ¬isLast (grid1.coords t) → (cfg1.win 7).flush t = false := by decide +kernel
/-- At the last point it is live. -/
theorem live_out : ∀ t : Fin cfg1.N, isLast (grid1.coords t) → cfg1.idle 7 (grid1.coords t) = false := by decide +kernel

/-! ## The memrefs the body is called with -/

/-- The output window's one staging buffer, as a view: its contents are stated through it. -/
abbrev VO : View sig .tc .vmem S4096x8 .f32 := (Memref.whole cc1_stg7_0 : Memref sig .tc .vmem S4096x8 .f32).view
abbrev ms0 (t : Fin cfg1.N) : Memref sig .tc .vmem S4096x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S4096x512 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S4096x16 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S16x8 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x8 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S4096x8 .f32 := win1_7.stage (cfg1.slots t 7)
abbrev hs7 (t : Fin cfg1.N) : (ms7 t).IsWhole := hstage1_7 ((cfg1.slots t 7).cast nbuf1_7)
/-- The accumulator: a whole scoped buffer of the kernel's own, passed beside the windows. -/
abbrev scM : Memref sig .tc .vmem S4096x8 .f32 := Memref.whole cc1_scratch0
abbrev VS : View sig .tc .vmem S4096x8 .f32 := scM.view

/-! ## The class invariant, split -/

/-- The core's scoped buffers other than this region's staging buffers and its accumulator, each at some contents. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg7_0), ((c : Thread nD τ).loc cc0_stg7_0) ↦{fullShare} f)
      ∗ (∃ f : Buf (Elt F) ((c : Thread nD τ).loc cc0_stg8_0), ((c : Thread nD τ).loc cc0_stg8_0) ↦{fullShare} f)
      ∗ (∃ f : Buf (Elt F) ((c : Thread nD τ).loc cc0_stg9_0), ((c : Thread nD τ).loc cc0_stg9_0) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))

/-- The class invariant hands out the accumulator at some contents, -/
theorem PhiA_open (c : Dev nD) :
    (Pipeline.ΦA spec1 c : sProp 𝕄) ⊢ iprop((others (F := F) c ∗ (∃ d, owns (c : Thread nD τ) scM fullShare d)) ∗ (∃ r, prngReg c r)) := by
  unfold Pipeline.ΦA others; rw [scopedRest1_eq]; simp only [scM, owns_whole]
  iintro ⟨⟨R0, R1, R2, R3, R4, R5, R6, R7, R8, R9, R10, R11, R12, R13, HS⟩, Hg⟩
  iframe

/-- and takes it back at any contents. -/
theorem PhiA_close (c : Dev nD) :
    iprop((others (F := F) c ∗ (∃ d, owns (c : Thread nD τ) scM fullShare d)) ∗ (∃ r, prngReg c r)) ⊢ (Pipeline.ΦA spec1 c : sProp 𝕄) := by
  unfold Pipeline.ΦA others; rw [scopedRest1_eq]; simp only [scM, owns_whole]
  iintro ⟨⟨⟨R0, R1, R2, R3, R4, R5, R6, R7, R8, R9, R10, R11, R12, R13⟩, HS⟩, Hg⟩
  iframe

end Cert.KernelIdeal.Edge

end
-- ==== Proof.EdgeRunB.lean ====
import proofs.«168662_g27230092657223_cont_9to1_1126_2_alg».proof.Proof.EdgeRuns

/-! The whole-body run of the edge kernel in case B. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at a MIDDLE point (neither branch taken): as at the first point, but the accumulator comes in at
    the contents `xs` the point before left, and the pieces may read them. -/
noncomputable def runMid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    Σ' (L7 : List (View.Piece (Elt F) S4096x8 .f32)), { LS : List (View.Piece (Elt F) S4096x8 .f32) //
      ∀ (xi7 : Vec F S4096x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨[], ?_, fun xi7 E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.KernelIdeal.Edge

end
-- ==== Proof.EdgeRunA.lean ====
import proofs.«168662_g27230092657223_cont_9to1_1126_2_alg».proof.Proof.EdgeRunB

/-! The whole-body run of the edge kernel in case A. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at the FIRST point (the initialising branch taken, the finalising one not): the pieces its stores leave
    in the accumulator (the witness the symbolic run finds), with the proof that on whole staging memrefs — the
    inputs at their contents, the idle output at contents handed back untouched, the accumulator at anything — it
    runs to the continuation holding the inputs as they were and the accumulator with those pieces written. -/
noncomputable def runFirst (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) :
    Σ' (L7 : List (View.Piece (Elt F) S4096x8 .f32)), { LS : List (View.Piece (Elt F) S4096x8 .f32) //
      ∀ (xi7 : Vec F S4096x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨[], ?_, fun xi7 E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS

end Cert.KernelIdeal.Edge

end
-- ==== Proof.EdgeRunC.lean ====
import proofs.«168662_g27230092657223_cont_9to1_1126_2_alg».proof.Proof.EdgeRunA

/-! The whole-body run of the edge kernel in case C. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- (the run's proof term is large: the definition's epilogue walks it past the default budget)
set_option maxHeartbeats 4000000 in
/-- The body at the LAST point (the finalising branch taken): the accumulator comes in at `xs`; the output window's
    buffer comes in at anything and leaves with its pieces written. -/
noncomputable def runLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    Σ' (L7 : List (View.Piece (Elt F) S4096x8 .f32)), { LS : List (View.Piece (Elt F) S4096x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc1__edge_kernel i arg1 harg1 arg2 harg2 arg3 harg3 arg4 harg4 arg5 harg5 arg6 harg6 arg7 harg7 arg8 harg8 arg9 harg9) K } := by
  refine ⟨?_, ?_, fun E K => ?run⟩
  case run =>
    rw [cc1__edge_kernel_eq_skeleton]; unfold cc1__edge_kernel_skel
    rw [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs
    sl_exec (disch := first | exact hc0 | exact hc1 | exact k1_off1_inb i)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS

end Cert.KernelIdeal.Edge

end
-- ==== Proof.EdgeFrame.lean ====
import proofs.«168662_g27230092657223_cont_9to1_1126_2_alg».proof.Proof.EdgeRunC

/-! The frame proof data of the edge kernel (region 1), parametrised by the region-entry contents `V`: what the
    accumulator and the output window hold after each point, the invariant, the proof data, the body obligation
    and the two ends of the invariant. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, from the pieces its run found -/

/-- The pieces the first point stores into the accumulator cover it. -/
theorem cover_first (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (y : S4096x8.Idx) :
    ∃ pc ∈ (runFirst c i arg1 harg1 arg2 harg2 arg3 harg3 arg4 harg4 arg5 harg5 arg6 harg6 arg7 harg7 arg8 harg8 arg9 harg9 hc0 hc1 x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 hc0 hc1 x0 x1 x2 x3 x4 x5 x6).2.1 S4096x8.size (by sl_kernel_rfl) y

/-- What the first point leaves in the accumulator: its pieces read back over junk. -/
def accFirst (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) : Vec F S4096x8 .f32 :=
  VS.read (Elt F) (VS.writes (Elt F) VS.junk (runFirst c i arg1 harg1 arg2 harg2 arg3 harg3 arg4 harg4 arg5 harg5 arg6 harg6 arg7 harg7 arg8 harg8 arg9 harg9 hc0 hc1 x0 x1 x2 x3 x4 x5 x6).2.1)

/-- The pieces a middle point stores into the accumulator cover it. -/
theorem cover_mid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runMid c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runMid c i arg1 harg1 arg2 harg2 arg3 harg3 arg4 harg4 arg5 harg5 arg6 harg6 arg7 harg7 arg8 harg8 arg9 harg9 hc0 hc1 x0 x1 x2 x3 x4 x5 x6 xs).2.1 S4096x8.size (by sl_kernel_rfl) y

/-- What a middle point leaves in the accumulator. -/
def accMid (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VS.read (Elt F) (VS.writes (Elt F) VS.junk (runMid c i arg1 harg1 arg2 harg2 arg3 harg3 arg4 harg4 arg5 harg5 arg6 harg6 arg7 harg7 arg8 harg8 arg9 harg9 hc0 hc1 x0 x1 x2 x3 x4 x5 x6 xs).2.1)

/-- The pieces the last point stores into the accumulator cover it. -/
theorem cover_last (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).2.1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).2.1 S4096x8.size (by sl_kernel_rfl) y

/-- What the last point leaves in the accumulator. -/
def accLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VS.read (Elt F) (VS.writes (Elt F) VS.junk (runLast c i arg1 harg1 arg2 harg2 arg3 harg3 arg4 harg4 arg5 harg5 arg6 harg6 arg7 harg7 arg8 harg8 arg9 harg9 hc0 hc1 x0 x1 x2 x3 x4 x5 x6 xs).2.1)

/-- The pieces the last point stores into the output window's buffer cover it. -/
theorem cover_out (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) (y : S4096x8.Idx) :
    ∃ pc ∈ (runLast c i arg1 harg1 arg2 harg2 arg3 harg3 arg4 harg4 arg5 harg5 arg6 harg6 arg7 harg7 arg8 harg8 arg9 harg9 hc0 hc1 x0 x1 x2 x3 x4 x5 x6 xs).1, y ∈ pc.1.set :=
  View.cover_of_tiledL (runLast c i arg1 harg1 arg2 harg2 arg3 harg3 arg4 harg4 arg5 harg5 arg6 harg6 arg7 harg7 arg8 harg8 arg9 harg9 hc0 hc1 x0 x1 x2 x3 x4 x5 x6 xs).1 S4096x8.size (by sl_kernel_rfl) y

/-- What the last point leaves in the output window's buffer. -/
def outLast (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) : Vec F S4096x8 .f32 :=
  VO.read (Elt F) (VO.writes (Elt F) VO.junk (runLast c i arg1 harg1 arg2 harg2 arg3 harg3 arg4 harg4 arg5 harg5 arg6 harg6 arg7 harg7 arg8 harg8 arg9 harg9 hc0 hc1 x0 x1 x2 x3 x4 x5 x6 xs).1)

/-- At the other points nothing is stored into the output window: a placeholder nothing consults (the window is
    neither written back there nor read at the next point). -/
def outIdle : Vec F S4096x8 .f32 := VO.read (Elt F) (VO.writes (Elt F) VO.junk [])

/-! ## Point by point -/

/-- What the output window's buffer and the accumulator hold after the body at position `n`: the case of `n`, run
    at the point's memrefs and input blocks, the accumulator coming in at what position `n - 1` left. -/
def outsAt (c : Dev nD) : (n : ℕ) → n < cfg1.N → Vec F S4096x8 .f32 × Vec F S4096x8 .f32
  | 0, hn => (outIdle, accFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) scM (Memref.isWhole_whole _) ((isFirst_iff ⟨0, hn⟩).mpr rfl) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩))
  | n + 1, hn =>
    if h1 : n + 1 = 7 then
      (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2,
       accLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)
    else
      (outIdle, accMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) scM (Memref.isWhole_whole _) (fun h => absurd ((isFirst_iff ⟨n + 1, hn⟩).mp h) (Nat.succ_ne_zero n)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (outsAt c n (Nat.lt_of_succ_lt hn)).2)

theorem outsAt_first (c : Dev nD) (t : Fin cfg1.N) (h0 : t.val = 0) (h1 : ¬t.val = 7) :
    outsAt V c t.val t.isLt = (outIdle, accFirst c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((isFirst_iff t).mpr h0) (fun h => h1 ((isLast_iff t).mp h)) (iblk V c 0 t) (iblk V c 1 t) (iblk V c 2 t) (iblk V c 3 t) (iblk V c 4 t) (iblk V c 5 t) (iblk V c 6 t)) := by
  obtain ⟨n, hn⟩ := t
  cases n with
  | zero => exact rfl
  | succ n => exact absurd h0 (Nat.succ_ne_zero n)

theorem outsAt_mid (c : Dev nD) (t : Fin cfg1.N) (h0 : ¬t.val = 0) (h1 : ¬t.val = 7) :
    outsAt V c t.val t.isLt = (outIdle, accMid c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact (dif_neg h1).trans rfl

theorem outsAt_last (c : Dev nD) (t : Fin cfg1.N) (h0 : ¬t.val = 0) (h1 : t.val = 7) :
    outsAt V c t.val t.isLt = (outLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2,
       accLast c (grid1.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (outsAt V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: before the first point the accumulator at anything; afterwards at what the point before
    left in it; the other scoped buffers and the generator register at some state throughout. -/
def PhiS (c : Dev nD) : (n : ℕ) → n ≤ cfg1.N → sProp 𝕄
  | 0, _ => iprop((others (F := F) c ∗ (∃ d, owns (c : Thread nD τ) scM fullShare d)) ∗ (∃ r, prngReg c r))
  | n + 1, hn => iprop((others (F := F) c ∗ owns (c : Thread nD τ) scM fullShare ((outsAt V c n hn).2)) ∗ (∃ r, prngReg c r))

theorem PhiS_zero (c : Dev nD) (n : ℕ) (h : n ≤ cfg1.N) (hz : n = 0) :
    PhiS V c n h = iprop((others (F := F) c ∗ (∃ d, owns (c : Thread nD τ) scM fullShare d)) ∗ (∃ r, prngReg c r)) := by
  subst hz; rfl

theorem PhiS_succ (c : Dev nD) (n : ℕ) (hn : n < cfg1.N) :
    PhiS V c (n + 1) hn = iprop((others (F := F) c ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop((others (F := F) c ∗ owns (c : Thread nD τ) scM fullShare ((outsAt V c (n - 1) (by omega)).2)) ∗ (∃ r, prngReg c r)) := by
  cases n with
  | zero => exact absurd rfl hz
  | succ n => rfl

/-! ## The proof data -/

/-- The proof data of the region on core `c`: the arrays as the region finds them; after the body at point `t` each
    input's buffer at its block and the output's at `outsAt`'s first component; the invariant `PhiS`; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = (outsAt V c t.val t.isLt).1 := by dsimp only [dat]

theorem before0 (c : Dev nD) (t : Fin cfg1.N) (d) : (dat V c).before 0 t d = iblk V c 0 t :=
  before_in0 V (dat V c) (A_eq V c 0) (after0 V c) t d
theorem before1 (c : Dev nD) (t : Fin cfg1.N) (d) : (dat V c).before 1 t d = iblk V c 1 t :=
  before_in1 V (dat V c) (A_eq V c 1) (after1 V c) t d
theorem before2 (c : Dev nD) (t : Fin cfg1.N) (d) : (dat V c).before 2 t d = iblk V c 2 t :=
  before_in2 V (dat V c) (A_eq V c 2) (after2 V c) t d
theorem before3 (c : Dev nD) (t : Fin cfg1.N) (d) : (dat V c).before 3 t d = iblk V c 3 t :=
  before_in3 V (dat V c) (A_eq V c 3) (after3 V c) t d
theorem before4 (c : Dev nD) (t : Fin cfg1.N) (d) : (dat V c).before 4 t d = iblk V c 4 t :=
  before_in4 V (dat V c) (A_eq V c 4) (after4 V c) t d
theorem before5 (c : Dev nD) (t : Fin cfg1.N) (d) : (dat V c).before 5 t d = iblk V c 5 t :=
  before_in5 V (dat V c) (A_eq V c 5) (after5 V c) t d
theorem before6 (c : Dev nD) (t : Fin cfg1.N) (d) : (dat V c).before 6 t d = iblk V c 6 t :=
  before_in6 V (dat V c) (A_eq V c 6) (after6 V c) t d

theorem leaves0 (c : Dev nD) (t : Fin cfg1.N) :
    (dat V c).leavesExact 0 t = owns (c : Thread nD τ) (ms0 t) fullShare (iblk V c 0 t) := by
  unfold Dat.leavesExact; rw [live_in 0 (by decide) t, after0]
theorem leaves1 (c : Dev nD) (t : Fin cfg1.N) :
    (dat V c).leavesExact 1 t = owns (c : Thread nD τ) (ms1 t) fullShare (iblk V c 1 t) := by
  unfold Dat.leavesExact; rw [live_in 1 (by decide) t, after1]
theorem leaves2 (c : Dev nD) (t : Fin cfg1.N) :
    (dat V c).leavesExact 2 t = owns (c : Thread nD τ) (ms2 t) fullShare (iblk V c 2 t) := by
  unfold Dat.leavesExact; rw [live_in 2 (by decide) t, after2]
theorem leaves3 (c : Dev nD) (t : Fin cfg1.N) :
    (dat V c).leavesExact 3 t = owns (c : Thread nD τ) (ms3 t) fullShare (iblk V c 3 t) := by
  unfold Dat.leavesExact; rw [live_in 3 (by decide) t, after3]
theorem leaves4 (c : Dev nD) (t : Fin cfg1.N) :
    (dat V c).leavesExact 4 t = owns (c : Thread nD τ) (ms4 t) fullShare (iblk V c 4 t) := by
  unfold Dat.leavesExact; rw [live_in 4 (by decide) t, after4]
theorem leaves5 (c : Dev nD) (t : Fin cfg1.N) :
    (dat V c).leavesExact 5 t = owns (c : Thread nD τ) (ms5 t) fullShare (iblk V c 5 t) := by
  unfold Dat.leavesExact; rw [live_in 5 (by decide) t, after5]
theorem leaves6 (c : Dev nD) (t : Fin cfg1.N) :
    (dat V c).leavesExact 6 t = owns (c : Thread nD τ) (ms6 t) fullShare (iblk V c 6 t) := by
  unfold Dat.leavesExact; rw [live_in 6 (by decide) t, after6]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The body at any point: the inputs' memrefs hold their blocks; the closed forms say which case the point is in;
    the invariant hands the body the accumulator at what the point before left (at anything at the first point) and
    takes it back at this point's contents, the pieces covering it; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4, leaves5, leaves6]
  have hN : t.val < 8 := lt_of_lt_of_eq t.isLt (show cfg1.N = 8 from N_1)
  by_cases h0 : t.val = 0
  · have h1 : ¬t.val = 7 := by omega
    rw [Dat.leavesExact_idle (dat V c) 7 t (idle_out t (fun h => h1 ((isLast_iff t).mp h))) (noFlush_out t (fun h => h1 ((isLast_iff t).mp h)))]
    rw [outsAt_first V c t h0 h1]
    unfold accFirst; (try dsimp only)
    rw [Phi_castSucc V c t, PhiS_zero V c _ _ h0]
    iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid1.coords t) _ _ _ _ _ _ _ _ _ _ _ _ _ _ _ _ _ _ ((isFirst_iff t).mpr h0) (fun h => h1 ((isLast_iff t).mp h)) (iblk V c 0 t) (iblk V c 1 t) (iblk V c 2 t) (iblk V c 3 t) (iblk V c 4 t) (iblk V c 5 t) (iblk V c 6 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, ⟨%es, HS⟩⟩
    isplitl [R HS Hg]
    · isplitl [R HS]
      · isplitl [R]; · iexact R
        unfold owns; iexists _; isplitr
        swap; · iexact HS
        ipureintro; exact View.read_writes_of_cover _ _ _ _ _ (cover_first c _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 7
    · rw [show (dat V c).leavesExact 7 t = owns (c : Thread nD τ) (ms7 t) fullShare ((dat V c).after 7 t) from by
        unfold Dat.leavesExact; rw [live_out t ((isLast_iff t).mpr h1)], after7]
      rw [outsAt_last V c t h0 h1]
      unfold outLast accLast; (try dsimp only)
      rw [Phi_castSucc V c t, PhiS_pos V c _ _ h0]
      iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runLast c (grid1.coords t) _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [R HS Hg]
      · isplitl [R HS]
        · isplitl [R]; · iexact R
          unfold owns; iexists _; isplitr
          swap; · iexact HS
          ipureintro; exact View.read_writes_of_cover _ _ _ _ _ (cover_last c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover_out c _ _ _ _ _ _ _ _ _ _ _ _ _ _ _ _ _ _ _ _ _ _ _ _ _ _ _ _ _)
    · rw [Dat.leavesExact_idle (dat V c) 7 t (idle_out t (fun h => h1 ((isLast_iff t).mp h))) (noFlush_out t (fun h => h1 ((isLast_iff t).mp h)))]
      rw [outsAt_mid V c t h0 h1]
      unfold accMid; (try dsimp only)
      rw [Phi_castSucc V c t, PhiS_pos V c _ _ h0]
      iintro ⟨⟨⟨R, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runMid c (grid1.coords t) _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [R HS Hg]
      · isplitl [R HS]
        · isplitl [R]; · iexact R
          unfold owns; iexists _; isplitr
          swap; · iexact HS
          ipureintro; exact View.read_writes_of_cover _ _ _ _ _ (cover_mid c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  exact PhiA_open c

/-- After the last point the invariant gives the class's back: the accumulator's named contents are forgotten. -/
theorem hout (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 8 := N_1; omega)]
  refine BIBase.Entails.trans ?_ (PhiA_close c)
  iintro ⟨⟨R, HS⟩, Hg⟩
  isplitr [Hg]
  · isplitl [R]; · iexact R
    iexists _; iexact HS
  iexact Hg

end Cert.KernelIdeal.Edge

end
-- ==== Proof.Assembly.lean ====
import proofs.«168662_g27230092657223_cont_9to1_1126_2_alg».proof.Proof.Gen.KernelIdeal.Launch
import proofs.«168662_g27230092657223_cont_9to1_1126_2_alg».proof.Proof.LibRegionRecord
import proofs.«168662_g27230092657223_cont_9to1_1126_2_alg».proof.Proof.NodeFrame
import proofs.«168662_g27230092657223_cont_9to1_1126_2_alg».proof.Proof.EdgeFrame
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# The whole program: two host stretches and two kernel regions, from the launch to the return

Between two items every unscoped buffer of a core is held whole at a valuation: the launch memory, then each host
stretch's operations applied, then each region's arrays at what its write-backs leave and every other buffer as
the region found it. The run ends with every unscoped buffer at the last valuation, from which both the arguments
(no item writes one) and the result are read.
-/

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch: the node region's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the node region's exit: its arrays at what the write-backs leave, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the edge region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the edge region's exit. -/
def W4 (c : Dev nD) : Valuation τ sig (Elt F) :=
  Pipeline.withArrays spec1 c (W3 m c) fun w => (Edge.dat (V3 m) c).arrAt w cfg1.N
theorem W4_arr (c : Dev nD) (w : Fin cfg1.W) :
    W4 m c (Proc.devRef .tc (Pipeline.arrRef spec1 w)) = (Edge.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Edge.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the regions' records -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Node.dat (V1 m) c
  | ⟨1, _⟩ => fun c => Edge.dat (V3 m) c
abbrev 𝒱₀ : Variants := Variants.none
abbrev L : GSem nD τ sig → Finset Unit := fun _ => ∅
abbrev lv : GSem nD τ sig → Unit → ℕ := fun _ _ => 0

/-- The tables' part of a region's invariant is empty here. -/
theorem prefHeld_emp (p : Fin 2) (c : Dev nD) :
    (BI.emp : sProp 𝕄) ⊢ Pipeline.prefHeld (Ix := Unit) (Name := ℕ) (U := UR sig nD τ) (Lvl := ℕ) (pcfgs (F := F) p).pre c (fun _ => fullShare) (adm p).1 := by
  unfold Pipeline.prefHeld; rw [show (Finset.univ : Finset (Fin 0)) = ∅ from rfl, BI.bigSep_empty]

set_option backward.isDefEq.respectTransparency.types false in
/-- The node region between the valuations `W1` and `W2`. -/
def reg0 : Pipeline.RegionSeg (pcfgs (F := F)) adm (pdats m) () defs₀ 𝒱₀ L lv 0 :=
  RegionRecord.regionSeg (U := UR sig nD τ) (pcfgs (F := F)) adm (pdats m) 0 (launch0.toP) defs₀ 𝒱₀ (W1 m) (W2 m)
    (fun c => (Node.body_obligation (V1 m) c).loose)
    (fun c => (pdats m 0 c).share_full fun _ => rfl) (fun _ _ => rfl) (fun _ => rfl)
    (fun c w => Node.A_eq (V1 m) c w) (fun c k => k.elim0)
    (fun c w => hF0 m c w) (fun c b hb => hrest0 m c b hb)
    (fun c => (show iprop(Pipeline.ΦA (U := UR sig nD τ) spec0 c ∗ Pipeline.prefHeld (Ix := Unit) (Name := ℕ) (U := UR sig nD τ) (Lvl := ℕ) (pcfgs (F := F) 0).pre c (fun _ => fullShare) (adm 0).1) ⊢ (Pipeline.ΦA spec0 c : sProp 𝕄) from by
        iintro ⟨H, -⟩; iexact H).trans (Node.hin (V1 m) c))
    (fun c => (Node.hout (V1 m) c).trans (by
      iintro H
      isplitl [H]
      · iexact H
      · iapply (prefHeld_emp 0 c); iempintro))

set_option backward.isDefEq.respectTransparency.types false in
/-- The edge region between the valuations `W3` and `W4`. -/
def reg1 : Pipeline.RegionSeg (pcfgs (F := F)) adm (pdats m) () defs₀ 𝒱₀ L lv 1 :=
  RegionRecord.regionSeg (U := UR sig nD τ) (pcfgs (F := F)) adm (pdats m) 1 (launch1.toP) defs₀ 𝒱₀ (W3 m) (W4 m)
    (fun c => (Edge.body_obligation (V3 m) c).loose)
    (fun c => (pdats m 1 c).share_full fun _ => rfl) (fun _ _ => rfl) (fun _ => rfl)
    (fun c w => Edge.A_eq (V3 m) c w) (fun c k => k.elim0)
    (fun c w => hF1 m c w) (fun c b hb => hrest1 m c b hb)
    (fun c => (show iprop(Pipeline.ΦA (U := UR sig nD τ) spec1 c ∗ Pipeline.prefHeld (Ix := Unit) (Name := ℕ) (U := UR sig nD τ) (Lvl := ℕ) (pcfgs (F := F) 1).pre c (fun _ => fullShare) (adm 1).1) ⊢ (Pipeline.ΦA spec1 c : sProp 𝕄) from by
        iintro ⟨H, -⟩; iexact H).trans (Edge.hin (V3 m) c))
    (fun c => (Edge.hout (V3 m) c).trans (by
      iintro H
      isplitl [H]
      · iexact H
      · iapply (prefHeld_emp 1 c); iempintro))

/-! ## The host stretches as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A host stretch over the unscoped buffers from the contents `W`, the generator register and the (empty) debt
    riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RegionRecord.rider (U := UR sig nD τ) (Val := Elt F))

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

set_option backward.isDefEq.respectTransparency.types false in
/-- From any memory with zero counters every weakly fair execution of @main terminates, nothing faulting, and every
    final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RegionRecord.rider (U := UR sig nD τ) (Val := Elt F) c)) (Tₙ := Tₙ m)
    (hch := ⟨fun _ => .rfl, fun _ => .rfl, fun _ => .rfl, fun _ => .rfl, fun c => (show RegionRecord.threadState (U := UR sig nD τ) (W4 m) c ⊢ _ from by
      iintro ⟨Hh, Hp, HO⟩
      isplitl [Hh Hp]
      · isplitl [Hh] <;> iassumption
      · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last valuation holds at the arguments and at the result -/

/-- The first host stretch writes the transposed incidence matrix and the reshaped bias only. -/
theorem hostOps0_writes : (hostOps0 : List (HloOp τ sig (Elt F))).Forall fun op => op.writes ⊆ (([main_v0, main_v1] : List (Ref sig .tc)).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- The second host stretch writes the second reshaped bias only. -/
theorem hostOps1_writes : (hostOps1 : List (HloOp τ sig (Elt F))).Forall fun op => op.writes ⊆ (([main_v3] : List (Ref sig .tc)).map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem W1_keep (c : Dev nD) (b : Ref sig .tc) (h : b ∉ ([main_v0, main_v1] : List (Ref sig .tc))) :
    W1 m c (Proc.devRef .tc b) = W0 m c (Proc.devRef .tc b) :=
  StableHlo.after_of_writes_sub hostOps0 _ hostOps0_writes h
theorem W3_keep (c : Dev nD) (b : Ref sig .tc) (h : b ∉ ([main_v3] : List (Ref sig .tc))) :
    W3 m c (Proc.devRef .tc b) = W2 m c (Proc.devRef .tc b) :=
  StableHlo.after_of_writes_sub hostOps1 _ hostOps1_writes h

/-- The node region changes only its result array. -/
theorem W2_keep (c : Dev nD) (b : Ref sig .tc) (hb : b ≠ main_v2) : W2 m c (Proc.devRef .tc b) = W1 m c (Proc.devRef .tc b) := by
  by_cases h : ∃ w, Pipeline.arrRef spec0 w = b
  · obtain ⟨w, rfl⟩ := h
    rw [W2_arr]
    fin_cases w
    all_goals first
      | exact absurd rfl hb
      | exact ((Node.dat (V1 m) c).arrAt_in _ rfl _).trans (Node.A_eq (V1 m) c _)
  · exact W2_of_ne m c b (fun w e => h ⟨w, e⟩)

/-- The edge region changes only its result array. -/
theorem W4_keep (c : Dev nD) (b : Ref sig .tc) (hb : b ≠ main_v4) : W4 m c (Proc.devRef .tc b) = W3 m c (Proc.devRef .tc b) := by
  by_cases h : ∃ w, Pipeline.arrRef spec1 w = b
  · obtain ⟨w, rfl⟩ := h
    rw [W4_arr]
    fin_cases w
    all_goals first
      | exact absurd rfl hb
      | exact ((Edge.dat (V3 m) c).arrAt_in _ rfl _).trans (Edge.A_eq (V3 m) c _)
  · exact W4_of_ne m c b (fun w e => h ⟨w, e⟩)

/-- A buffer no item writes ends as launched. -/
theorem W4_launch (c : Dev nD) (b : Ref sig .tc) (h0 : b ∉ ([main_v0, main_v1] : List (Ref sig .tc))) (h2 : b ≠ main_v2)
    (h3 : b ∉ ([main_v3] : List (Ref sig .tc))) (h4 : b ≠ main_v4) :
    W4 m c (Proc.devRef .tc b) = m ((c : Thread nD τ).loc b) :=
  (W4_keep m c b h4).trans <| (W3_keep m c b h3).trans <| (W2_keep m c b h2).trans <| (W1_keep m c b h0).trans rfl

/-- The result array ends at what the edge region's write-backs leave. -/
theorem W4_result (c : Dev nD) : W4 m c (Proc.devRef .tc main_v4) = (Edge.dat (V3 m) c).arrAt 7 cfg1.N :=
  W4_arr m c 7
/-- The edge region finds the node region's result in its seventh window's array. -/
theorem V3_node_result (c : Dev nD) : V3 m c main_v2 = (Node.dat (V1 m) c).arrAt 9 cfg0.N :=
  (W3_keep m c main_v2 (by decide)).trans (W2_arr m c 9)
/-- The edge region finds every buffer but the node region's result and the second reshaped bias as the node region
    found it. -/
theorem V3_keep (c : Dev nD) (b : Ref sig .tc) (h2 : b ≠ main_v2) (h3 : b ∉ ([main_v3] : List (Ref sig .tc))) :
    V3 m c b = V1 m c b :=
  (W3_keep m c b h3).trans (W2_keep m c b h2)

/-- The run read at the arguments and the result: every argument as launched, the result at what the edge region
    leaves. -/
theorem run_result : θ_run defs (onTc (τ := τ) (main (F := F))) ⟨m, fun _ => 0, ρ⟩ (fun r => ∀ c : Dev nD,
      r.2.mem ((c.tc : Thread nD τ).loc main_v4) = (Edge.dat (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v4 (by decide))).trans (W4_result m c),
     (h c _ (mem_uc main_arg0 (by decide))).trans (W4_launch m c main_arg0 (by decide) (by decide) (by decide) (by decide)),
     (h c _ (mem_uc main_arg1 (by decide))).trans (W4_launch m c main_arg1 (by decide) (by decide) (by decide) (by decide)),
     (h c _ (mem_uc main_arg2 (by decide))).trans (W4_launch m c main_arg2 (by decide) (by decide) (by decide) (by decide)),
     (h c _ (mem_uc main_arg3 (by decide))).trans (W4_launch m c main_arg3 (by decide) (by decide) (by decide) (by decide)),
     (h c _ (mem_uc main_arg4 (by decide))).trans (W4_launch m c main_arg4 (by decide) (by decide) (by decide) (by decide)),
     (h c _ (mem_uc main_arg5 (by decide))).trans (W4_launch m c main_arg5 (by decide) (by decide) (by decide) (by decide)),
     (h c _ (mem_uc main_arg6 (by decide))).trans (W4_launch m c main_arg6 (by decide) (by decide) (by decide) (by decide)),
     (h c _ (mem_uc main_arg7 (by decide))).trans (W4_launch m c main_arg7 (by decide) (by decide) (by decide) (by decide)),
     (h c _ (mem_uc main_arg8 (by decide))).trans (W4_launch m c main_arg8 (by decide) (by decide) (by decide) (by decide)),
     (h c _ (mem_uc main_arg9 (by decide))).trans (W4_launch m c main_arg9 (by decide) (by decide) (by decide) (by decide)),
     (h c _ (mem_uc main_arg10 (by decide))).trans (W4_launch m c main_arg10 (by decide) (by decide) (by decide) (by decide))⟩)
    (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_result m ρ)

end Cert.KernelIdeal.Whole

end
-- ==== Proof.NodeValues.lean ====
import proofs.«168662_g27230092657223_cont_9to1_1126_2_alg».proof.Proof.NodeFrame
import Idealize.ShloMosaic.Lib.Pipeline.Value
import Idealize.ShloMosaic.Lib.Tactic

-- membership of an index in a rectangle of full extents is checked structurally, once per coordinate of the long axes
set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The values: what the two scratch buffers and the output window hold, as terms over the input blocks -/

theorem hz : (![0, 0] : Fin 2 → Nat) = fun _ => 0 := funext fun a => by fin_cases a <;> rfl

theorem N_pos : 0 < cfg0.N := by rw [show cfg0.N = 4 from N_0]; decide
theorem three_lt : 3 < cfg0.N := by rw [show cfg0.N = 4 from N_0]; decide

/-- The 256 rows of the second scratch buffer the body reads at grid coordinate `i`: rows `256·i … 256·i + 255`, all 64 columns. -/
abbrev sliceRect (i : grid0.Coords) : Rect S1024x64 := Rect.unit (s := S1024x64) (k0_off1 i) S256x64.size (k0_off1_inb i)

/-- Its row: the offset plus the row inside the slice. -/
theorem sliceRect_row (i : grid0.Coords) (y : S256x64.Idx) : (((sliceRect i).idx y 0 : Fin _) : ℕ) = k0_off1 i 0 + (y 0).val := by
  show k0_off1 i 0 + 1 * (y 0).val = _; rw [Nat.one_mul]
/-- Its column: the column inside the slice (the column offset is 0). -/
theorem sliceRect_col (i : grid0.Coords) (y : S256x64.Idx) : (((sliceRect i).idx y 1 : Fin _) : ℕ) = (y 1).val := by
  show k0_off1 i 1 + 1 * (y 1).val = _; rw [k0_off1_eq, Nat.one_mul]; show 0 + (y 1).val = _; rw [Nat.zero_add]

/-- What the second scratch buffer holds after every point: the product of input blocks 3 and 5, computed once at the first point. -/
def hw (c : Dev nD) : Vec F S1024x64 .f32 := k0_pay3 (iblk V c 3 ⟨0, N_pos⟩) (iblk V c 5 ⟨0, N_pos⟩)

/-- The slice of it the body reads at point `t`. -/
def hwSlice (c : Dev nD) (t : Fin cfg0.N) : Vec F S256x64 .f32 := View.ld (hw V c) (sliceRect (grid0.coords t))

/-- Read at an index: the entry of `hw` at row (offset + row), the same column (`sliceRect_row`, `sliceRect_col`). -/
theorem hwSlice_apply (c : Dev nD) (t : Fin cfg0.N) (y : S256x64.Idx) : hwSlice V c t y = hw V c ((sliceRect (grid0.coords t)).idx y) := rfl

/-- The point's mask-selected block, from the blocks of windows 4, 7, 1, 0, 2. -/
abbrev pay5At (c : Dev nD) (t : Fin cfg0.N) : Vec F S1024x256 .f32 := k0_pay5 (grid0.coords t) (iblk V c 4 t) (iblk V c 7 t) (iblk V c 1 t) (iblk V c 0 t) (iblk V c 2 t) (iblk V c 2 t)
/-- The point's scaled slice of `hw`. -/
abbrev pay6At (c : Dev nD) (t : Fin cfg0.N) : FVec F S256x64 .f32 := k0_pay6 (grid0.coords t) (iblk V c 4 t) (iblk V c 7 t) (iblk V c 1 t) (iblk V c 0 t) (iblk V c 2 t) (iblk V c 2 t) (hwSlice V c t)

/-- What the accumulator holds after point `n`: zeros plus the first point's partial product, then each later point's added. -/
def acc (c : Dev nD) : (n : ℕ) → n < cfg0.N → Vec F S1024x64 .f32
  | 0, h => k0_pay1 (pay5At V c ⟨0, h⟩) (pay6At V c ⟨0, h⟩) (k0_pay4 (F := F))
  | n + 1, h => k0_pay1 (pay5At V c ⟨n + 1, h⟩) (pay6At V c ⟨n + 1, h⟩) (acc c n (Nat.lt_of_succ_lt h))

theorem acc_zero (c : Dev nD) (h : 0 < cfg0.N) :
    acc V c 0 h = k0_pay1 (k0_pay5 (grid0.coords ⟨0, h⟩) (iblk V c 4 ⟨0, h⟩) (iblk V c 7 ⟨0, h⟩) (iblk V c 1 ⟨0, h⟩) (iblk V c 0 ⟨0, h⟩) (iblk V c 2 ⟨0, h⟩) (iblk V c 2 ⟨0, h⟩)) (k0_pay6 (grid0.coords ⟨0, h⟩) (iblk V c 4 ⟨0, h⟩) (iblk V c 7 ⟨0, h⟩) (iblk V c 1 ⟨0, h⟩) (iblk V c 0 ⟨0, h⟩) (iblk V c 2 ⟨0, h⟩) (iblk V c 2 ⟨0, h⟩) (hwSlice V c ⟨0, h⟩)) (k0_pay4 (F := F)) := rfl

theorem acc_succ (c : Dev nD) (n : ℕ) (h : n + 1 < cfg0.N) :
    acc V c (n + 1) h = k0_pay1 (k0_pay5 (grid0.coords ⟨n + 1, h⟩) (iblk V c 4 ⟨n + 1, h⟩) (iblk V c 7 ⟨n + 1, h⟩) (iblk V c 1 ⟨n + 1, h⟩) (iblk V c 0 ⟨n + 1, h⟩) (iblk V c 2 ⟨n + 1, h⟩) (iblk V c 2 ⟨n + 1, h⟩)) (k0_pay6 (grid0.coords ⟨n + 1, h⟩) (iblk V c 4 ⟨n + 1, h⟩) (iblk V c 7 ⟨n + 1, h⟩) (iblk V c 1 ⟨n + 1, h⟩) (iblk V c 0 ⟨n + 1, h⟩) (iblk V c 2 ⟨n + 1, h⟩) (iblk V c 2 ⟨n + 1, h⟩) (hwSlice V c ⟨n + 1, h⟩)) (acc V c n (Nat.lt_of_succ_lt h)) := rfl

/-! ## Reading a whole buffer back -/

/-- The accumulator's memref reads back the contents it was given. -/
theorem read_sc0 (h : (scM0 : Memref sig .tc .vmem S1024x64 .f32).IsWhole) (x : Vec F S1024x64 .f32) :
    View.read (Elt F) (View.whole cc0_scratch0) (h.unread x) = x := h.read_unread x
/-- So does the second scratch buffer's. -/
theorem read_sc1 (h : (scM1 : Memref sig .tc .vmem S1024x64 .f32).IsWhole) (x : Vec F S1024x64 .f32) :
    View.read (Elt F) (View.whole cc0_scratch1) (h.unread x) = x := h.read_unread x

/-- One store of a whole buffer, read back through any view of the shape, is its payload. -/
theorem read_writes_unit_zero {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-! ## One lemma per case: what the case's stores leave, read off the stores found -/

/-- A middle point leaves in the accumulator its one store's payload: the partial product of this point added to what the
    accumulator held, the slice read off what the second buffer held. -/
theorem soutB_0_eq (c : Dev nD) (t : Fin cfg0.N) (h0 : ¬cond0 (grid0.coords t)) (h1 : ¬cond1 (grid0.coords t)) (xs0 xs1 : Vec F S1024x64 .f32) :
    soutB_0 V c t h0 h1 xs0 xs1 = k0_pay1 (pay5At V c t) (k0_pay6 (grid0.coords t) (iblk V c 4 t) (iblk V c 7 t) (iblk V c 1 t) (iblk V c 0 t) (iblk V c 2 t) (iblk V c 2 t) (View.ld xs1 (sliceRect (grid0.coords t)))) xs0 := by
  unfold soutB_0
  rw [View.read_writes_eq_canon _ _ _ (scoverB_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1)]
  unfold runB
  dsimp only
  rw [View.canon_unit_zero hz]
  simp only [View.readAt_eq_ld, (hs_4 t).read_unread, (hs_7 t).read_unread, (hs_1 t).read_unread, (hs_0 t).read_unread, (hs_2 t).read_unread, read_sc0, read_sc1, View.ld_unit_zero (S := S4096x16) hz, View.ld_unit_zero (S := S1x16) hz, View.ld_unit_zero (S := S4096x256) hz, View.ld_unit_zero (S := S1024x4096) hz, View.ld_unit_zero (S := S1024x256) hz, View.ld_unit_zero (S := S1024x64) hz]

/-- The last point leaves in the accumulator the same, -/
theorem soutC_0_eq (c : Dev nD) (t : Fin cfg0.N) (h0 : ¬cond0 (grid0.coords t)) (h1 : cond1 (grid0.coords t)) (xs0 xs1 : Vec F S1024x64 .f32) :
    soutC_0 V c t h0 h1 xs0 xs1 = k0_pay1 (pay5At V c t) (k0_pay6 (grid0.coords t) (iblk V c 4 t) (iblk V c 7 t) (iblk V c 1 t) (iblk V c 0 t) (iblk V c 2 t) (iblk V c 2 t) (View.ld xs1 (sliceRect (grid0.coords t)))) xs0 := by
  unfold soutC_0
  rw [View.read_writes_eq_canon _ _ _ (scoverC_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1)]
  unfold runC
  dsimp only
  sl_unfold_run_names
  rw [View.canon_unit_zero hz]
  simp only [View.readAt_eq_ld, (hs_4 t).read_unread, (hs_7 t).read_unread, (hs_1 t).read_unread, (hs_0 t).read_unread, (hs_2 t).read_unread, read_sc0, read_sc1, View.ld_unit_zero (S := S4096x16) hz, View.ld_unit_zero (S := S1x16) hz, View.ld_unit_zero (S := S4096x256) hz, View.ld_unit_zero (S := S1024x4096) hz, View.ld_unit_zero (S := S1024x256) hz, View.ld_unit_zero (S := S1024x64) hz]

/-- and in the output window the final store's payload, over the accumulator just stored and the blocks of windows 6 and 8. -/
theorem outC_9_eq (c : Dev nD) (t : Fin cfg0.N) (h0 : ¬cond0 (grid0.coords t)) (h1 : cond1 (grid0.coords t)) (xs0 xs1 : Vec F S1024x64 .f32) :
    outC_9 V c t h0 h1 xs0 xs1 = k0_pay2 (k0_pay1 (pay5At V c t) (k0_pay6 (grid0.coords t) (iblk V c 4 t) (iblk V c 7 t) (iblk V c 1 t) (iblk V c 0 t) (iblk V c 2 t) (iblk V c 2 t) (View.ld xs1 (sliceRect (grid0.coords t)))) xs0) (iblk V c 6 t) (iblk V c 8 t) := by
  unfold outC_9
  rw [View.read_writes_eq_canon _ _ _ (coverC_9 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t) xs0 xs1)]
  unfold runC
  dsimp only
  sl_unfold_run_names
  rw [View.canon_unit_zero hz, View.readCov_unit_zero (S := S1024x64) _ hz]
  simp only [View.readAt_eq_ld, (hs_4 t).read_unread, (hs_7 t).read_unread, (hs_1 t).read_unread, (hs_0 t).read_unread, (hs_2 t).read_unread, (hs_6 t).read_unread, (hs_8 t).read_unread, read_sc0, read_sc1, View.ld_unit_zero (S := S4096x16) hz, View.ld_unit_zero (S := S1x16) hz, View.ld_unit_zero (S := S4096x256) hz, View.ld_unit_zero (S := S1024x4096) hz, View.ld_unit_zero (S := S1024x256) hz, View.ld_unit_zero (S := S1024x64) hz, View.ld_unit_zero (S := S1x64) hz]

/-- The first point leaves in the second scratch buffer the product of the blocks of windows 3 and 5, -/
theorem soutA_1_eq (c : Dev nD) (t : Fin cfg0.N) (h0 : cond0 (grid0.coords t)) (h1 : ¬cond1 (grid0.coords t)) :
    soutA_1 V c t h0 h1 = k0_pay3 (iblk V c 3 t) (iblk V c 5 t) := by
  unfold soutA_1
  rw [View.read_writes_eq_canon _ _ _ (scoverA_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t))]
  unfold runA
  dsimp only
  sl_unfold_run_names
  rw [View.canon_unit_zero hz]
  simp only [View.readAt_eq_ld, (hs_3 t).read_unread, (hs_5 t).read_unread, View.ld_unit_zero (S := S1024x128) hz, View.ld_unit_zero (S := S128x64) hz]

/-- and in the accumulator the first partial product added to zeros, the slice read off the product just stored. -/
theorem soutA_0_eq (c : Dev nD) (t : Fin cfg0.N) (h0 : cond0 (grid0.coords t)) (h1 : ¬cond1 (grid0.coords t)) :
    soutA_0 V c t h0 h1 = k0_pay1 (pay5At V c t) (k0_pay6 (grid0.coords t) (iblk V c 4 t) (iblk V c 7 t) (iblk V c 1 t) (iblk V c 0 t) (iblk V c 2 t) (iblk V c 2 t) (View.ld (k0_pay3 (iblk V c 3 t) (iblk V c 5 t)) (sliceRect (grid0.coords t)))) (k0_pay4 (F := F)) := by
  unfold soutA_0
  rw [View.read_writes_eq_canon _ _ _ (scoverA_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM0 (Memref.isWhole_whole _) scM1 (Memref.isWhole_whole _) h0 h1 (iblk V c 0 t) (iblk V c 1 t) (iblk V c 2 t) (iblk V c 3 t) (iblk V c 4 t) (iblk V c 5 t) (iblk V c 6 t) (iblk V c 7 t) (iblk V c 8 t))]
  unfold runA
  dsimp only
  sl_unfold_run_names
  rw [View.canon_cons_unit_zero (S := S1024x64) hz, View.readCov_unit_zero (S := S1024x64) _ hz]
  simp only [View.readAt_eq_ld, (hs_4 t).read_unread, (hs_7 t).read_unread, (hs_1 t).read_unread, (hs_0 t).read_unread, (hs_2 t).read_unread, (hs_3 t).read_unread, (hs_5 t).read_unread, View.ld_unit_zero (S := S4096x16) hz, View.ld_unit_zero (S := S1x16) hz, View.ld_unit_zero (S := S4096x256) hz, View.ld_unit_zero (S := S1024x4096) hz, View.ld_unit_zero (S := S1024x256) hz, View.ld_unit_zero (S := S1024x128) hz, View.ld_unit_zero (S := S128x64) hz]
  rw [read_writes_unit_zero (S := S1024x64) _ _ hz]

/-! ## The scratch buffers after each point, by induction on the point -/

/-- After point `n` the accumulator holds `acc` and the second scratch buffer `hw`. -/
theorem scratch_eq (c : Dev nD) : ∀ (n : ℕ) (hn : n < cfg0.N), (outsAt V c n hn).2.1 = acc V c n hn ∧ (outsAt V c n hn).2.2 = hw V c := by
  intro n
  induction n with
  | zero =>
    intro hn
    have e := outsAt_A V c ⟨0, hn⟩ (Nat.zero_mod _) (by show ¬(0 % 4 = 3); decide)
    dsimp only at e
    rw [e]; dsimp only
    rw [soutA_0_eq, soutA_1_eq]
    exact ⟨rfl, rfl⟩
  | succ n ih =>
    intro hn
    obtain ⟨ih0, ih1⟩ := ih (Nat.lt_of_succ_lt hn)
    have h4 : n + 1 < 4 := lt4 hn
    have h0 : ¬(n + 1) % 4 = 0 := by omega
    by_cases h1 : (n + 1) % 4 = 3
    · have e := outsAt_C V c ⟨n + 1, hn⟩ h0 h1
      dsimp only at e
      rw [e]; dsimp only
      rw [soutC_0_eq]
      try simp only [Nat.add_sub_cancel] at *
      rw [ih0, ih1]
      exact ⟨rfl, rfl⟩
    · have e := outsAt_B V c ⟨n + 1, hn⟩ h0 h1
      dsimp only at e
      rw [e]; dsimp only
      rw [soutB_0_eq]
      try simp only [Nat.add_sub_cancel] at *
      rw [ih0, ih1]
      exact ⟨rfl, rfl⟩

/-- THE OUTPUT: after the last point the output window's buffer holds the final store's payload over the accumulated
    sum and the blocks of windows 6 and 8. -/
theorem after_out (c : Dev nD) :
    (dat V c).after 9 ⟨3, three_lt⟩ = k0_pay2 (acc V c 3 three_lt) (iblk V c 6 ⟨3, three_lt⟩) (iblk V c 8 ⟨3, three_lt⟩) := by
  rw [after_9]
  have e := outsAt_C V c ⟨3, three_lt⟩ (by show ¬(3 % 4 = 0); decide) (by show 3 % 4 = 3; decide)
  dsimp only at e
  rw [e]; dsimp only
  rw [outC_9_eq]
  obtain ⟨ih0, ih1⟩ := scratch_eq V c 2 (Nat.lt_of_succ_lt three_lt)
  try simp only [Nat.add_sub_cancel] at *
  rw [ih0, ih1]
  rfl

end Cert.KernelIdeal.Node

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«168662_g27230092657223_cont_9to1_1126_2_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.PayLib.lean ====
/-
  General readings, at coordinates, of the operations the two kernel bodies apply to whole vectors: a plain matrix
  product, the comparison of a row number with a shifted column number (the mask of a block's diagonal), and the two
  reductions over the first axis of a matrix (sum, maximum), read at column q as the sum, or the fold of max, over
  the column's entries.  Stated over arbitrary extents.
-/
import Idealize.ShloMosaic.Lib.ValueIdx
import Idealize.ShloMosaic.Lib.ValueLayout
import Idealize.ShloMosaic.Lib.Pipeline.Value
import Idealize.ShloMosaic.PureOps.Ideal.Laws
import proofs.«168662_g27230092657223_cont_9to1_1126_2_alg».proof.Proof.LibPlainDot

noncomputable section

namespace Cert.KernelIdeal.Pay

open Idealize.ShloMosaic ValueIdx
open scoped BigOperators

/-- A plain matrix product read at coordinates: the sum over the shared axis. -/
theorem mm_ix2 {R K C : Nat} (x : (⟨2, ![R, K]⟩ : Shape).Idx → EReal) (w : (⟨2, ![K, C]⟩ : Shape).Idx → EReal)
    (r : Fin R) (c : Fin C) :
    Cert.Lib.PlainDot.mm x w (ix2 r c) = ∑ k : Fin K, x (ix2 r k) * w (ix2 k c) := by
  unfold Cert.Lib.PlainDot.mm
  refine Finset.sum_congr rfl fun k _ => ?_
  have el : Cert.Lib.PlainDot.rowIdx (K := K) (ix2 r c) k = ix2 r k :=
    funext fun a => Fin.ext (by match a with | ⟨0, _⟩ => rfl | ⟨1, _⟩ => rfl)
  have er : Cert.Lib.PlainDot.colIdx (K := K) (ix2 r c) k = ix2 k c :=
    funext fun a => Fin.ext (by match a with | ⟨0, _⟩ => rfl | ⟨1, _⟩ => rfl)
  rw [el, er]

/-- The mask "row number = column number + shift", read at (r, q): one bit, the comparison of the two 32-bit words. -/
theorem diag_mask_apply {R C : Nat} (h0 : (⟨2, ![R, C]⟩ : Shape).Iotas .tc 32 [(0 : Fin 2)])
    (h1 : (⟨2, ![R, C]⟩ : Shape).Iotas .tc 32 [(1 : Fin 2)]) (k : BitVec 32) (r : Fin R) (q : Fin C) :
    cmpi .eq (iota .tc ⟨2, ![R, C]⟩ 32 [(0 : Fin 2)] h0)
        (addi (iota .tc ⟨2, ![R, C]⟩ 32 [(1 : Fin 2)] h1) (broadcast ⟨2, ![R, C]⟩ k)) (ix2 r q)
      = BitVec.ofBool (BitVec.ofNat 32 r.val == BitVec.ofNat 32 q.val + k) := by
  show IntOp.cmpi .eq (iota .tc ⟨2, ![R, C]⟩ 32 [(0 : Fin 2)] h0 (ix2 r q))
      (IntOp.addi (iota .tc ⟨2, ![R, C]⟩ 32 [(1 : Fin 2)] h1 (ix2 r q)) k) = _
  rw [iota_single_apply, iota_single_apply]
  rfl

/-- With every number below 2^32, the 32-bit comparison of r with q + p·m answers the comparison of the numbers. -/
theorem diag_bit_iff (r q p m : Nat) (hr : r < 4294967296) (hs : q + m * p < 4294967296) :
    BitVec.ofBool (BitVec.ofNat 32 r == BitVec.ofNat 32 q + Scalar.muli (BitVec.ofNat 32 p) (BitVec.ofNat 32 m)) = 1
      ↔ r = q + m * p := by
  have e : BitVec.ofNat 32 q + Scalar.muli (BitVec.ofNat 32 p) (BitVec.ofNat 32 m) = BitVec.ofNat 32 (q + m * p) := by
    show BitVec.ofNat 32 q + BitVec.ofNat 32 p * BitVec.ofNat 32 m = _
    rw [BitVec.ofNat_mul_ofNat, BitVec.ofNat_add_ofNat, Nat.mul_comm p m]
  rw [e]
  constructor
  · intro h
    cases hb : (BitVec.ofNat 32 r == BitVec.ofNat 32 (q + m * p)) with
    | false => rw [hb] at h; exact absurd h (by decide)
    | true =>
      have h2 := congrArg BitVec.toNat (eq_of_beq hb)
      rw [BitVec.toNat_ofNat, BitVec.toNat_ofNat, Nat.mod_eq_of_lt hr, Nat.mod_eq_of_lt hs] at h2
      exact h2
  · intro h
    rw [h, beq_self_eq_true]
    rfl

variable {φ : FTy}

/-- The sum over the first axis of an [a, b] matrix, read at column q: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The maximum over the first axis of an [a, b] matrix, read at column q: the fold of max, from the accumulator's
    value, over the column's entries. -/
theorem multiReduction_max_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ src acc h hφ hacc (ix1 q)
      = (Finset.univ : Finset (Fin a)).fold max (Ideal.ofBits φ acc) (fun r => src (ix2 r q)) :=
  (Ideal.multiReduction_maximumf_single src acc h hφ hacc (ix1 q)).trans
    (congrArg (fun f => (Finset.univ : Finset (Fin a)).fold max (Ideal.ofBits φ acc) f) (funext fun k =>
      congrArg src (funext fun ax => Fin.ext (by
        match ax with
        | ⟨0, _⟩ => rfl
        | ⟨1, _⟩ => rfl))))

/-- The word of -inf denotes -∞. -/
theorem ofBits_neg_inf : Ideal.ofBits .f32 0xFF800000#32 = ⊥ := by
  simp [Ideal.ofBits, Ideal.ieee]

end Cert.KernelIdeal.Pay

end
-- ==== Proof.PayNode.lean ====
/-
  The node kernel's stored and passed-on values read at an index, at the exact reals: each is a plain formula over
  the loaded vectors at indices.
-/
import proofs.«168662_g27230092657223_cont_9to1_1126_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«168662_g27230092657223_cont_9to1_1126_2_alg».proof.Proof.LibPlainDot
import proofs.«168662_g27230092657223_cont_9to1_1126_2_alg».proof.Proof.LibRowsDot
import proofs.«168662_g27230092657223_cont_9to1_1126_2_alg».proof.Proof.LibRowLayout
import proofs.«168662_g27230092657223_cont_9to1_1126_2_alg».proof.Proof.LibRealScalars
import proofs.«168662_g27230092657223_cont_9to1_1126_2_alg».proof.Proof.PayLib

noncomputable section

namespace Cert.KernelIdeal.Pay

open Idealize.ShloMosaic Cert.KernelIdeal Cert.KernelIdeal.Gen ValueIdx
open scoped BigOperators

/-- The zero block the first grid step stores: zero at every entry. -/
theorem k0_pay4_apply (r : Fin 1024) (c : Fin 64) : k0_pay4 (F := Ideal) (ix2 r c) = 0 := by
  unfold k0_pay4
  rw [shapeCast_self]
  exact Ideal.ofBits_zero_f32

/-- The dense feature map: the product of the features with the weights, at (r, c). -/
theorem k0_pay3_apply (v42 : Vec Ideal S1024x128 .f32) (v43 : Vec Ideal S128x64 .f32) (r : Fin 1024) (c : Fin 64) :
    k0_pay3 (F := Ideal) v42 v43 (ix2 r c) = ∑ a : Fin 128, v42 (ix2 r a) * v43 (ix2 a c) := by
  unfold k0_pay3
  rw [shapeCast_self]
  refine (Cert.Lib.PlainDot.matmul_zero_apply (R := 1024) (K := 128) (C := 64) _ rfl none v42 v43 (ix2 r c)).trans ?_
  exact mm_ix2 _ _ r c

/-- The accumulation step: the old accumulator plus the block's product, at (r, c). -/
theorem k0_pay1_apply (v21 : Vec Ideal S1024x256 .f32) (v32 : FVec Ideal S256x64 .f32) (v33 : Vec Ideal S1024x64 .f32)
    (r : Fin 1024) (c : Fin 64) :
    k0_pay1 (F := Ideal) v21 v32 v33 (ix2 r c) = v33 (ix2 r c) + ∑ q : Fin 256, v21 (ix2 r q) * v32 (ix2 q c) := by
  unfold k0_pay1
  rw [shapeCast_self]
  refine (addf_apply _ _ _).trans ?_
  refine congrArg (fun z => v33 (ix2 r c) + z) ?_
  refine (Cert.Lib.PlainDot.matmul_zero_apply (R := 1024) (K := 256) (C := 64) _ rfl none v21 v32 (ix2 r c)).trans ?_
  exact mm_ix2 _ _ r c

/-- The edge weight of node r: the biased output clamped below at zero, contracted with the weight row. -/
theorem k0_pay2_apply (v42 : Vec Ideal S1024x64 .f32) (v43 : Vec Ideal S1x64 .f32) (v49 : Vec Ideal S1x64 .f32)
    (r : Fin 1024) :
    k0_pay2 (F := Ideal) v42 v43 v49 (ix2 r (0 : Fin 1))
      = ∑ c : Fin 64, max (v42 (ix2 r c) + v43 (ix2 (0 : Fin 1) c)) 0 * v49 (ix2 (0 : Fin 1) c) := by
  unfold k0_pay2
  refine (Cert.Lib.RowsDot.matmul_zero_apply (R := 1024) (K := 64) (C := 1) _ rfl none _ v49 (ix2 r (0 : Fin 1))).trans ?_
  refine (Cert.Lib.RowsDot.rowsDot_ix2 _ _ r (0 : Fin 1)).trans ?_
  refine Finset.sum_congr rfl fun k _ => ?_
  refine congrArg (fun z => z * v49 (ix2 (0 : Fin 1) k)) ?_
  refine (maximumf_apply _ _ _).trans ?_
  refine congrArg₂ max ?_ Ideal.ofBits_zero_f32
  refine (addf_apply _ _ _).trans ?_
  refine congrArg (fun z => v42 (ix2 r k) + z) ?_
  rw [shapeCast_self]
  exact broadcastTo_1b_ab_apply v43 _ r k

/-- The adjusted, scaled adjacency block at (r, q): the adjacency itself on the block's diagonal, elsewhere the
    product of the weighted incidence with its transpose, times the adjacency. -/
theorem k0_pay5_apply (i : grid0.Coords) (v3 : Vec Ideal S4096x16 .f32) (v4 : Vec Ideal S1x16 .f32)
    (v6 : Vec Ideal S4096x256 .f32) (v10 : Vec Ideal S1024x4096 .f32) (v18 : Vec Ideal S1024x256 .f32)
    (v19 : Vec Ideal S1024x256 .f32) (r : Fin 1024) (q : Fin 256) :
    k0_pay5 (F := Ideal) i v3 v4 v6 v10 v18 v19 (ix2 r q)
      = if r.val = q.val + 256 * (i 0).val then v18 (ix2 r q)
        else (∑ e : Fin 4096, v10 (ix2 r e) * (v6 (ix2 e q) * ∑ a : Fin 16, v3 (ix2 e a) * v4 (ix2 (0 : Fin 1) a)))
          * v19 (ix2 r q) := by
  have hi : (i 0).val < 4 := (i 0).isLt
  unfold k0_pay5
  refine (select_apply _ _ _ _).trans ?_
  unfold Scalar.select
  refine if_congr ?_ rfl ?_
  · rw [diag_mask_apply]
    exact diag_bit_iff r.val q.val (i 0).val 256 (by have := r.isLt; omega) (by have := q.isLt; omega)
  · refine (mulf_apply _ _ _).trans ?_
    refine congrArg (fun z => z * v19 (ix2 r q)) ?_
    refine (Cert.Lib.PlainDot.matmul_zero_apply (R := 1024) (K := 4096) (C := 256) _ rfl none v10 _ (ix2 r q)).trans ?_
    refine (mm_ix2 _ _ r q).trans ?_
    refine Finset.sum_congr rfl fun e _ => ?_
    refine congrArg (fun z => v10 (ix2 r e) * z) ?_
    refine (mulf_apply _ _ _).trans ?_
    rw [shapeCast_self]
    refine congrArg (fun z => v6 (ix2 e q) * z) ?_
    refine (Cert.KernelIdeal.MvnKernel.broadcastTo_a1_ab_apply _ _ e q).trans ?_
    refine (Cert.Lib.RowsDot.matmul_zero_apply (R := 4096) (K := 16) (C := 1) _ rfl none v3 v4 (ix2 e (0 : Fin 1))).trans ?_
    exact Cert.Lib.RowsDot.rowsDot_ix2 _ _ e (0 : Fin 1)

/-- The dense block scaled by the reciprocal of the adjusted block's column sums plus the small constant, at (q, c). -/
theorem k0_pay6_apply (i : grid0.Coords) (v3 : Vec Ideal S4096x16 .f32) (v4 : Vec Ideal S1x16 .f32)
    (v6 : Vec Ideal S4096x256 .f32) (v10 : Vec Ideal S1024x4096 .f32) (v18 : Vec Ideal S1024x256 .f32)
    (v19 : Vec Ideal S1024x256 .f32) (v29 : Vec Ideal S256x64 .f32) (q : Fin 256) (c : Fin 64) :
    k0_pay6 (F := Ideal) i v3 v4 v6 v10 v18 v19 v29 (ix2 q c)
      = v29 (ix2 q c) * Ideal.div 1 ((∑ r : Fin 1024, k0_pay5 (F := Ideal) i v3 v4 v6 v10 v18 v19 (ix2 r q))
          + Ideal.ofBits .f32 0x2EDBE6FF#32) := by
  unfold k0_pay6
  refine (mulf_apply _ _ _).trans ?_
  refine congrArg (fun z => v29 (ix2 q c) * z) ?_
  refine (Cert.KernelIdeal.MvnKernel.broadcastTo_a1_ab_apply _ _ q c).trans ?_
  refine (Cert.KernelIdeal.MvnKernel.shapeCast_a_a1_apply _ _ q (0 : Fin 1)).trans ?_
  refine (divf_apply _ _ _).trans ?_
  refine congrArg₂ Ideal.div ?_ ?_
  · refine (broadcast_apply _ _).trans ?_
    exact Cert.Lib.RealScalars.ofBits_one.trans EReal.coe_one
  · refine (addf_apply _ _ _).trans ?_
    refine congrArg₂ (fun x y : EReal => x + y) ?_ rfl
    exact multiReduction_add_col (a := 1024) (b := 256) _ _ _ _ _ q

end Cert.KernelIdeal.Pay

end
-- ==== Proof.Spec.lean ====
import Mathlib.Data.EReal.Basic
import Mathlib.Algebra.BigOperators.Fin
import Idealize.ShloMosaic.PureOps.Ideal

/-!
# Two stacked graph-convolution layers over the extended reals, as plain index-level formulas

Nodes `Fin 1024`, edges `Fin 4096`. A layer scales the incidence matrix by a weight vector, multiplies it with
its transpose, replaces the diagonal by one, scales by an adjacency matrix entrywise, divides each column by its
sum plus a small constant, and multiplies the result with a dense feature map plus a bias. The node layer's
output, clamped below at zero and contracted with a vector, is the weight vector of the edge layer; the edge
layer's output goes through a column-wise log-softmax.

The same quantities are written twice: in the association the plain formulation uses (`Ref`), and in the one
the tiled formulation uses (`Ker`): the column scale folded into the dense factor. The two agree because
multiplication and addition of extended reals are commutative and associative; nothing here needs an entry to
be finite.
-/

noncomputable section

namespace GcnSpec

open Idealize.ShloMosaic
open scoped BigOperators

/-- The adjusted adjacency: the adjacency itself on the diagonal, the product with the multiplier elsewhere. -/
def adjusted {n : ℕ} (mult adj : Fin n → Fin n → EReal) (i j : Fin n) : EReal :=
  if i = j then adj i j else mult i j * adj i j

/-- The reciprocal of a column's sum plus a constant. -/
def colScale {n : ℕ} (one eps : EReal) (A : Fin n → Fin n → EReal) (j : Fin n) : EReal :=
  Ideal.div one ((∑ i, A i j) + eps)

/-- The normalised aggregation, scaling the adjacency's columns first. -/
def aggRef {n h : ℕ} (one eps : EReal) (A : Fin n → Fin n → EReal) (hw : Fin n → Fin h → EReal)
    (b : Fin h → EReal) (i : Fin n) (c : Fin h) : EReal :=
  (∑ j, (A i j * colScale one eps A j) * hw j c) + b c

/-- The normalised aggregation, scaling the dense factor's rows first. -/
def aggKer {n h : ℕ} (one eps : EReal) (A : Fin n → Fin n → EReal) (hw : Fin n → Fin h → EReal)
    (b : Fin h → EReal) (i : Fin n) (c : Fin h) : EReal :=
  (∑ j, A i j * (hw j c * colScale one eps A j)) + b c

theorem aggRef_eq_aggKer {n h : ℕ} (one eps : EReal) (A : Fin n → Fin n → EReal) (hw : Fin n → Fin h → EReal)
    (b : Fin h → EReal) : aggRef one eps A hw b = aggKer one eps A hw b := by
  funext i c
  unfold aggRef aggKer
  refine congrArg (· + b c) (Finset.sum_congr rfl fun j _ => ?_)
  rw [mul_assoc, mul_comm (colScale one eps A j)]

/-- A dense product. -/
def dense {n k h : ℕ} (x : Fin n → Fin k → EReal) (w : Fin k → Fin h → EReal) (i : Fin n) (c : Fin h) : EReal :=
  ∑ a, x i a * w a c

/-- A matrix contracted with a vector. -/
def contract {n k : ℕ} (x : Fin n → Fin k → EReal) (p : Fin k → EReal) (i : Fin n) : EReal :=
  ∑ a, x i a * p a

/-- Clamping below at zero. -/
def relu {n k : ℕ} (x : Fin n → Fin k → EReal) (i : Fin n) (a : Fin k) : EReal := max (x i a) 0

/-- The node multiplier, weights applied to the left factor: Σₑ (T i e · d e) · T j e. -/
def nodeMultRef (T : Fin 1024 → Fin 4096 → EReal) (d : Fin 4096 → EReal) (i j : Fin 1024) : EReal :=
  ∑ e, (T i e * d e) * T j e
/-- The node multiplier, weights applied to the right factor: Σₑ T i e · (T j e · d e). -/
def nodeMultKer (T : Fin 1024 → Fin 4096 → EReal) (d : Fin 4096 → EReal) (i j : Fin 1024) : EReal :=
  ∑ e, T i e * (T j e * d e)
theorem nodeMultRef_eq_ker (T : Fin 1024 → Fin 4096 → EReal) (d : Fin 4096 → EReal) :
    nodeMultRef T d = nodeMultKer T d := by
  funext i j; unfold nodeMultRef nodeMultKer
  refine Finset.sum_congr rfl fun e _ => ?_
  rw [mul_assoc, mul_comm (d e)]

/-- The edge multiplier, weights applied to the left factor: Σₙ (T n i · d n) · T n j. -/
def edgeMultRef (T : Fin 1024 → Fin 4096 → EReal) (d : Fin 1024 → EReal) (i j : Fin 4096) : EReal :=
  ∑ n, (T n i * d n) * T n j
/-- The edge multiplier, weights applied to the right factor: Σₙ T n i · (T n j · d n). -/
def edgeMultKer (T : Fin 1024 → Fin 4096 → EReal) (d : Fin 1024 → EReal) (i j : Fin 4096) : EReal :=
  ∑ n, T n i * (T n j * d n)
theorem edgeMultRef_eq_ker (T : Fin 1024 → Fin 4096 → EReal) (d : Fin 1024 → EReal) :
    edgeMultRef T d = edgeMultKer T d := by
  funext i j; unfold edgeMultRef edgeMultKer
  refine Finset.sum_congr rfl fun e _ => ?_
  rw [mul_assoc, mul_comm (d e)]

/-- The column-wise log-softmax: each entry minus its column's maximum (from −∞), minus the logarithm of the
    column's sum of exponentials of those differences. -/
def logSoftmaxCol {n k : ℕ} (x : Fin n → Fin k → EReal) (i : Fin n) (c : Fin k) : EReal :=
  (x i c - (Finset.univ : Finset (Fin n)).fold max ⊥ (fun r => x r c))
    - Ideal.log (∑ r, Ideal.exp (x r c - (Finset.univ : Finset (Fin n)).fold max ⊥ (fun r' => x r' c)))

section Net

variable (one eps : EReal)
variable (X : Fin 1024 → Fin 128 → EReal) (Z : Fin 4096 → Fin 16 → EReal)
  (adjE : Fin 4096 → Fin 4096 → EReal) (adjV : Fin 1024 → Fin 1024 → EReal) (T : Fin 1024 → Fin 4096 → EReal)
  (w1 : Fin 128 → Fin 64 → EReal) (b1 : Fin 64 → EReal) (p1 : Fin 16 → EReal)
  (w2 : Fin 16 → Fin 8 → EReal) (b2 : Fin 8 → EReal) (p2 : Fin 64 → EReal)

/-- The node layer's output, plain association. -/
def nodeOutRef : Fin 1024 → Fin 64 → EReal :=
  aggRef one eps (adjusted (nodeMultRef T (contract Z p1)) adjV) (dense X w1) b1
/-- The edge layer's weight vector, plain association. -/
def edgeWeightRef : Fin 1024 → EReal := contract (relu (nodeOutRef one eps X Z adjV T w1 b1 p1)) p2
/-- The edge layer's output, plain association. -/
def edgeOutRef : Fin 4096 → Fin 8 → EReal :=
  aggRef one eps (adjusted (edgeMultRef T (edgeWeightRef one eps X Z adjV T w1 b1 p1 p2)) adjE)
    (dense (relu Z) w2) b2
/-- The network's result, plain association. -/
def resultRef : Fin 4096 → Fin 8 → EReal :=
  logSoftmaxCol (edgeOutRef one eps X Z adjE adjV T w1 b1 p1 w2 b2 p2)

/-- The node layer's output, tiled association. -/
def nodeOutKer : Fin 1024 → Fin 64 → EReal :=
  aggKer one eps (adjusted (nodeMultKer T (contract Z p1)) adjV) (dense X w1) b1
/-- The edge layer's weight vector, tiled association. -/
def edgeWeightKer : Fin 1024 → EReal := contract (relu (nodeOutKer one eps X Z adjV T w1 b1 p1)) p2
/-- The edge layer's output, tiled association. -/
def edgeOutKer : Fin 4096 → Fin 8 → EReal :=
  aggKer one eps (adjusted (edgeMultKer T (edgeWeightKer one eps X Z adjV T w1 b1 p1 p2)) adjE)
    (dense (relu Z) w2) b2
/-- The network's result, tiled association. -/
def resultKer : Fin 4096 → Fin 8 → EReal :=
  logSoftmaxCol (edgeOutKer one eps X Z adjE adjV T w1 b1 p1 w2 b2 p2)

/-- The two associations compute one function. -/
theorem resultRef_eq_resultKer :
    resultRef one eps X Z adjE adjV T w1 b1 p1 w2 b2 p2 = resultKer one eps X Z adjE adjV T w1 b1 p1 w2 b2 p2 := by
  unfold resultRef resultKer edgeOutRef edgeOutKer edgeWeightRef edgeWeightKer nodeOutRef nodeOutKer
  rw [nodeMultRef_eq_ker, aggRef_eq_aggKer, edgeMultRef_eq_ker, aggRef_eq_aggKer]

end Net

end GcnSpec

end
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.LibAccChunks.lean ====
/-
  An accumulator that adds one chunk's sum per step.

  Starting from a value z and adding, at step n, the sum of the d terms at positions n · d, …, n · d + d − 1, the
  accumulator after N steps holds z plus the sum of all N · d terms. Only commutativity and associativity of addition
  are used, so the statements hold on the extended reals with no finiteness assumption. Stated for terms indexed by the
  naturals, for terms indexed below N · d, and for sixteen chunks of 512 terms indexed below 8192.
-/
import Mathlib.Algebra.BigOperators.Fin
import Mathlib.Algebra.BigOperators.Intervals
import proofs.«168662_g27230092657223_cont_9to1_1126_2_alg».proof.Proof.LibBlockSum
import proofs.«168662_g27230092657223_cont_9to1_1126_2_alg».proof.Proof.LibRealSums

namespace Cert.Lib.AccChunks

open Finset Cert.Lib.BlockSum

/-- An accumulator that starts at `z` and adds the term `B n` at each step `n < N` holds, after `N` steps, `z` plus
    the sum of the terms. -/
theorem acc_steps {M : Type*} [AddCommMonoid M] (N : ℕ) (B : ℕ → M) (z : M) (acc : ℕ → M) (h0 : acc 0 = z)
    (hs : ∀ n, n < N → acc (n + 1) = acc n + B n) : acc N = z + ∑ n ∈ range N, B n := by
  have h : ∀ n, n ≤ N → acc n = z + ∑ j ∈ range n, B j := by
    intro n
    induction n with
    | zero => intro _; rw [h0, sum_range_zero, add_zero]
    | succ n ih =>
      intro hn
      rw [hs n (Nat.lt_of_succ_le hn), ih (Nat.le_of_succ_le hn), sum_range_succ, add_assoc]
  exact h N le_rfl

/-- Terms indexed by the naturals: after `N` steps, each adding the `d` terms at positions `n * d + q`, the
    accumulator holds `z` plus the sum of the first `N * d` terms. -/
theorem acc_chunks {M : Type*} [AddCommMonoid M] (N d : ℕ) (f : ℕ → M) (z : M) (acc : ℕ → M) (h0 : acc 0 = z)
    (hs : ∀ n, n < N → acc (n + 1) = acc n + ∑ q : Fin d, f (n * d + q.val)) :
    acc N = z + ∑ k : Fin (N * d), f k.val := by
  rw [acc_steps N (fun n => ∑ q : Fin d, f (n * d + q.val)) z acc h0 hs,
    Cert.Lib.RealSums.sum_fin_eq_range (N * d) f, Cert.Lib.RealSums.sum_range_mul N d f]
  exact congrArg (z + ·) (sum_congr rfl fun n _ => Cert.Lib.RealSums.sum_fin_eq_range d (fun i => f (n * d + i)))

/-- Terms indexed below `N * d`: term `q` of chunk `n` is the term at position `n * d + q`. -/
theorem acc_chunks_fin {M : Type*} [AddCommMonoid M] (N d : ℕ) (g : Fin (N * d) → M) (z : M) (acc : ℕ → M)
    (h0 : acc 0 = z)
    (hs : ∀ (n : ℕ) (hn : n < N), acc (n + 1) = acc n + ∑ q : Fin d, g (pos N d ⟨n, hn⟩ q)) :
    acc N = z + ∑ k : Fin (N * d), g k := by
  have hf : ∀ k : Fin (N * d), (fun k : ℕ => if h : k < N * d then g ⟨k, h⟩ else 0) k.val = g k :=
    fun k => dif_pos k.isLt
  rw [acc_chunks N d (fun k => if h : k < N * d then g ⟨k, h⟩ else 0) z acc h0 (fun n hn => by
    rw [hs n hn]
    exact congrArg (acc n + ·) (sum_congr rfl fun q _ => (hf (pos N d ⟨n, hn⟩ q)).symm))]
  exact congrArg (z + ·) (sum_congr rfl fun k _ => hf k)

/-- Sixteen chunks of 512 terms indexed below 8192. -/
theorem acc_sixteen_chunks {M : Type*} [AddCommMonoid M] (g : Fin 8192 → M) (z : M) (acc : ℕ → M) (h0 : acc 0 = z)
    (hs : ∀ (n : ℕ) (hn : n < 16), acc (n + 1)
      = acc n + ∑ q : Fin 512, g ⟨n * 512 + q.val, by have := q.isLt; omega⟩) :
    acc 16 = z + ∑ k : Fin 8192, g k :=
  acc_chunks_fin 16 512 g z acc h0 hs

/-- The same with the sixteen chunk sums written as one sum over the chunks. -/
theorem sum_sixteen_chunks {M : Type*} [AddCommMonoid M] (g : Fin 8192 → M) :
    ∑ b : Fin 16, ∑ q : Fin 512, g ⟨b.val * 512 + q.val, by have := b.isLt; have := q.isLt; omega⟩
      = ∑ k : Fin 8192, g k :=
  (sum_blocks 16 512 g).symm

end Cert.Lib.AccChunks
-- ==== Proof.TileMath.lean ====
import proofs.«168662_g27230092657223_cont_9to1_1126_2_alg».proof.Proof.Spec
import proofs.«168662_g27230092657223_cont_9to1_1126_2_alg».proof.Proof.LibAccChunks

/-!
# A normalised aggregation accumulated tile by tile

The columns `Fin (nb * bs)` are cut into `nb` tiles of `bs` consecutive columns. An accumulator that starts at
zero and adds, at step `n`, the tile's partial sum Σ_q A i (n·bs+q) · (hw (n·bs+q) c · scale (n·bs+q)) holds after
`nb` steps the whole sum over the columns; adding the bias gives the aggregation.
-/

noncomputable section

namespace GcnSpec

open Cert.Lib.BlockSum Cert.Lib.AccChunks
open scoped BigOperators

theorem aggKer_of_tiles (nb bs h : ℕ) (one eps : EReal) (A : Fin (nb * bs) → Fin (nb * bs) → EReal)
    (hw : Fin (nb * bs) → Fin h → EReal) (b : Fin h → EReal) (i : Fin (nb * bs)) (c : Fin h)
    (acc : ℕ → EReal) (h0 : acc 0 = 0)
    (hs : ∀ (n : ℕ) (hn : n < nb), acc (n + 1) = acc n + ∑ q : Fin bs,
      A i (pos nb bs ⟨n, hn⟩ q) * (hw (pos nb bs ⟨n, hn⟩ q) c * colScale one eps A (pos nb bs ⟨n, hn⟩ q))) :
    acc nb + b c = aggKer one eps A hw b i c := by
  unfold aggKer
  rw [acc_chunks_fin nb bs (fun j => A i j * (hw j c * colScale one eps A j)) 0 acc h0 hs, zero_add]

end GcnSpec

end
-- ==== Proof.NodeMath.lean ====
import proofs.«168662_g27230092657223_cont_9to1_1126_2_alg».proof.Proof.PayNode
import proofs.«168662_g27230092657223_cont_9to1_1126_2_alg».proof.Proof.Spec
import proofs.«168662_g27230092657223_cont_9to1_1126_2_alg».proof.Proof.TileMath

/-!
# The node kernel's arithmetic against the plain formulas

The vectors the body loads at a grid point are blocks of the arrays; stated here over vectors that agree with
coordinate functions of the arrays, so that this file never meets a window. The point's adjusted block is the
adjusted adjacency at the tile's columns, the scaled dense block is the dense map's rows of the tile times the
columns' scales, one accumulation step adds the tile's partial sum, and four steps from zero give the aggregation.
-/

noncomputable section

namespace Cert.KernelIdeal.NodeMath

open Idealize.ShloMosaic Cert.KernelIdeal Cert.KernelIdeal.Gen ValueIdx GcnSpec Cert.KernelIdeal.Pay Cert.Lib.BlockSum
open scoped BigOperators

variable (T : Fin 1024 → Fin 4096 → EReal) (Z : Fin 4096 → Fin 16 → EReal) (adjV : Fin 1024 → Fin 1024 → EReal)
  (X : Fin 1024 → Fin 128 → EReal) (w1 : Fin 128 → Fin 64 → EReal) (b1 : Fin 64 → EReal) (p1 : Fin 16 → EReal)
  (p2 : Fin 64 → EReal)

/-- The small constant added to a column's sum. -/
abbrev ε : EReal := Ideal.ofBits .f32 0x2EDBE6FF#32

/-- The node layer's adjusted adjacency. -/
abbrev A1 : Fin 1024 → Fin 1024 → EReal := adjusted (nodeMultKer T (contract Z p1)) adjV

/-- Column `q` of tile `t`. -/
def col (t : Fin 4) (q : Fin 256) : Fin 1024 := ⟨256 * t.val + q.val, by have := t.isLt; have := q.isLt; omega⟩

theorem col_eq_pos (t : Fin 4) (q : Fin 256) : col t q = pos 4 256 t q :=
  Fin.ext (by show 256 * t.val + q.val = t.val * 256 + q.val; omega)

section Point

variable (t : Fin 4) (i : grid0.Coords) (hi : (i 0).val = t.val)
  (v3 : Vec Ideal S4096x16 .f32) (h3 : ∀ e a, v3 (ix2 e a) = Z e a)
  (v4 : Vec Ideal S1x16 .f32) (h4 : ∀ a, v4 (ix2 (0 : Fin 1) a) = p1 a)
  (v6 : Vec Ideal S4096x256 .f32) (h6 : ∀ e q, v6 (ix2 e q) = T (col t q) e)
  (v10 : Vec Ideal S1024x4096 .f32) (h10 : ∀ r e, v10 (ix2 r e) = T r e)
  (v18 : Vec Ideal S1024x256 .f32) (h18 : ∀ r q, v18 (ix2 r q) = adjV r (col t q))
  (v29 : Vec Ideal S256x64 .f32) (h29 : ∀ q c, v29 (ix2 q c) = dense X w1 (col t q) c)

include hi h3 h4 h6 h10 h18 in
/-- The point's adjusted block is the adjusted adjacency at the tile's columns. -/
theorem tile_adjusted (r : Fin 1024) (q : Fin 256) :
    k0_pay5 (F := Ideal) i v3 v4 v6 v10 v18 v18 (ix2 r q) = A1 T Z adjV p1 r (col t q) := by
  rw [k0_pay5_apply]
  unfold A1 adjusted nodeMultKer contract
  have hd : (r.val = q.val + 256 * (i 0).val) ↔ r = col t q := by
    rw [hi]
    constructor
    · intro h; exact Fin.ext (by show r.val = 256 * t.val + q.val; omega)
    · intro h; rw [h]; show 256 * t.val + q.val = q.val + 256 * t.val; omega
  refine (if_congr hd (h18 r q) ?_)
  rw [h18 r q]
  refine congrArg (fun z => z * adjV r (col t q)) (Finset.sum_congr rfl fun e _ => ?_)
  rw [h10 r e, h6 e q]
  refine congrArg (fun z => T r e * (T (col t q) e * z)) (Finset.sum_congr rfl fun a _ => ?_)
  rw [h3 e a, h4 a]

include hi h3 h4 h6 h10 h18 h29 in
/-- The point's scaled dense block: the dense map at the tile's rows times those columns' scales. -/
theorem tile_scaled (q : Fin 256) (c : Fin 64) :
    k0_pay6 (F := Ideal) i v3 v4 v6 v10 v18 v18 v29 (ix2 q c)
      = dense X w1 (col t q) c * colScale 1 ε (A1 T Z adjV p1) (col t q) := by
  rw [k0_pay6_apply, h29 q c]
  unfold colScale
  refine congrArg (fun z => dense X w1 (col t q) c * Ideal.div 1 (z + ε)) (Finset.sum_congr rfl fun r _ => ?_)
  exact tile_adjusted T Z adjV p1 t i hi v3 h3 v4 h4 v6 h6 v10 h10 v18 h18 r q

include hi h3 h4 h6 h10 h18 h29 in
/-- One accumulation step adds the tile's partial sum of the aggregation. -/
theorem tile_step (v33 : Vec Ideal S1024x64 .f32) (r : Fin 1024) (c : Fin 64) :
    k0_pay1 (F := Ideal) (k0_pay5 (F := Ideal) i v3 v4 v6 v10 v18 v18) (k0_pay6 (F := Ideal) i v3 v4 v6 v10 v18 v18 v29) v33 (ix2 r c)
      = v33 (ix2 r c) + ∑ q : Fin 256, A1 T Z adjV p1 r (col t q)
          * (dense X w1 (col t q) c * colScale 1 ε (A1 T Z adjV p1) (col t q)) := by
  rw [k0_pay1_apply]
  refine congrArg (fun z => v33 (ix2 r c) + z) (Finset.sum_congr rfl fun q _ => ?_)
  rw [tile_adjusted T Z adjV p1 t i hi v3 h3 v4 h4 v6 h6 v10 h10 v18 h18 r q,
    tile_scaled T Z adjV X w1 p1 t i hi v3 h3 v4 h4 v6 h6 v10 h10 v18 h18 v29 h29 q c]

end Point

/-- Four accumulation steps from zero, each adding its tile's partial sum, then the bias: the node layer's output. -/
theorem node_out (acc : ℕ → EReal) (r : Fin 1024) (c : Fin 64) (h0 : acc 0 = 0)
    (hs : ∀ (n : ℕ) (hn : n < 4), acc (n + 1) = acc n + ∑ q : Fin 256, A1 T Z adjV p1 r (col ⟨n, hn⟩ q)
      * (dense X w1 (col ⟨n, hn⟩ q) c * colScale 1 ε (A1 T Z adjV p1) (col ⟨n, hn⟩ q))) :
    acc 4 + b1 c = nodeOutKer 1 ε X Z adjV T w1 b1 p1 r c := by
  unfold nodeOutKer
  refine aggKer_of_tiles 4 256 64 1 ε (A1 T Z adjV p1) (dense X w1) b1 r c acc h0 fun n hn => ?_
  rw [hs n hn]
  refine congrArg (fun z => acc n + z) (Finset.sum_congr rfl fun q _ => ?_)
  rw [col_eq_pos]

/-- The final step: the biased output clamped below at zero and contracted with the weight row. -/
theorem node_weight (v42 : Vec Ideal S1024x64 .f32) (v43 : Vec Ideal S1x64 .f32) (v49 : Vec Ideal S1x64 .f32)
    (h42 : ∀ r c, v42 (ix2 r c) + b1 c = nodeOutKer 1 ε X Z adjV T w1 b1 p1 r c)
    (h43 : ∀ c, v43 (ix2 (0 : Fin 1) c) = b1 c) (h49 : ∀ c, v49 (ix2 (0 : Fin 1) c) = p2 c) (r : Fin 1024) :
    k0_pay2 (F := Ideal) v42 v43 v49 (ix2 r (0 : Fin 1)) = edgeWeightKer 1 ε X Z adjV T w1 b1 p1 p2 r := by
  rw [k0_pay2_apply]
  unfold edgeWeightKer contract relu
  refine Finset.sum_congr rfl fun c _ => ?_
  rw [h43 c, h49 c, h42 r c]

end Cert.KernelIdeal.NodeMath

end
-- ==== Proof.Blocks.lean ====
import proofs.«168662_g27230092657223_cont_9to1_1126_2_alg».proof.Proof.Gen.KernelIdeal.Launch
import proofs.«168662_g27230092657223_cont_9to1_1126_2_alg».proof.Proof.Gen.KernelIdeal.Points
import Idealize.ShloMosaic.Lib.Pipeline.Value
import Idealize.ShloMosaic.Lib.ValueIdx

/-!
# The windows' blocks read at coordinates

A window's block at a grid point sits in its array, on each axis, at the block index times the block's extent plus
the coordinate inside the block. Every window here has block index (0, 0) but the two column-tiled ones of each
region, whose second block index is the point's number.
-/

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable {F : FTy → Type} [FloatOps F]

theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- Window 0 of region 0: the block at point `t` read at (p, q) is the array at (p, q). -/
theorem blk0_0 (c : Dev nD) (t : Fin cfg0.N) (A : Buf (Elt F) ((cfg0.win 0).arr.view.loc (c.tc : Thread nD τ))) (p : Fin 1024) (q : Fin 4096) :
    ((cfg0.win 0).blk t).view.read (Elt F) A (ix2 p q) = A (ix2 p q) := by
  rw [View.read_apply]
  refine congrArg A ?_
  funext a
  refine Fin.ext ?_
  match a with
  | ⟨0, _⟩ =>
    show win0_0.index t 0 * 1024 + 1 * p.val = p.val
    rw [(idx0_0 t).1]; omega
  | ⟨1, _⟩ =>
    show win0_0.index t 1 * 4096 + 1 * q.val = q.val
    rw [(idx0_0 t).2]; omega

theorem idx0_1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Window 1 of region 0: the block at point `t` read at (p, q) is the array at (p, 256·t + q). -/
theorem blk0_1 (c : Dev nD) (t : Fin cfg0.N) (A : Buf (Elt F) ((cfg0.win 1).arr.view.loc (c.tc : Thread nD τ))) (p : Fin 4096) (q : Fin 256) :
    ((cfg0.win 1).blk t).view.read (Elt F) A (ix2 p q) = A (ix2 p ⟨256 * t.val + q.val, by have := t.isLt; have h : cfg0.N = 4 := N_0; have := q.isLt; omega⟩) := by
  rw [View.read_apply]
  refine congrArg A ?_
  funext a
  refine Fin.ext ?_
  match a with
  | ⟨0, _⟩ =>
    show win0_1.index t 0 * 4096 + 1 * p.val = p.val
    rw [(idx0_1 t).1]; omega
  | ⟨1, _⟩ =>
    show win0_1.index t 1 * 256 + 1 * q.val = 256 * t.val + q.val
    rw [(idx0_1 t).2]; omega

theorem idx0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Window 2 of region 0: the block at point `t` read at (p, q) is the array at (p, 256·t + q). -/
theorem blk0_2 (c : Dev nD) (t : Fin cfg0.N) (A : Buf (Elt F) ((cfg0.win 2).arr.view.loc (c.tc : Thread nD τ))) (p : Fin 1024) (q : Fin 256) :
    ((cfg0.win 2).blk t).view.read (Elt F) A (ix2 p q) = A (ix2 p ⟨256 * t.val + q.val, by have := t.isLt; have h : cfg0.N = 4 := N_0; have := q.isLt; omega⟩) := by
  rw [View.read_apply]
  refine congrArg A ?_
  funext a
  refine Fin.ext ?_
  match a with
  | ⟨0, _⟩ =>
    show win0_2.index t 0 * 1024 + 1 * p.val = p.val
    rw [(idx0_2 t).1]; omega
  | ⟨1, _⟩ =>
    show win0_2.index t 1 * 256 + 1 * q.val = 256 * t.val + q.val
    rw [(idx0_2 t).2]; omega

theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 3 of region 0: the block at point `t` read at (p, q) is the array at (p, q). -/
theorem blk0_3 (c : Dev nD) (t : Fin cfg0.N) (A : Buf (Elt F) ((cfg0.win 3).arr.view.loc (c.tc : Thread nD τ))) (p : Fin 1024) (q : Fin 128) :
    ((cfg0.win 3).blk t).view.read (Elt F) A (ix2 p q) = A (ix2 p q) := by
  rw [View.read_apply]
  refine congrArg A ?_
  funext a
  refine Fin.ext ?_
  match a with
  | ⟨0, _⟩ =>
    show win0_3.index t 0 * 1024 + 1 * p.val = p.val
    rw [(idx0_3 t).1]; omega
  | ⟨1, _⟩ =>
    show win0_3.index t 1 * 128 + 1 * q.val = q.val
    rw [(idx0_3 t).2]; omega

theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 4 of region 0: the block at point `t` read at (p, q) is the array at (p, q). -/
theorem blk0_4 (c : Dev nD) (t : Fin cfg0.N) (A : Buf (Elt F) ((cfg0.win 4).arr.view.loc (c.tc : Thread nD τ))) (p : Fin 4096) (q : Fin 16) :
    ((cfg0.win 4).blk t).view.read (Elt F) A (ix2 p q) = A (ix2 p q) := by
  rw [View.read_apply]
  refine congrArg A ?_
  funext a
  refine Fin.ext ?_
  match a with
  | ⟨0, _⟩ =>
    show win0_4.index t 0 * 4096 + 1 * p.val = p.val
    rw [(idx0_4 t).1]; omega
  | ⟨1, _⟩ =>
    show win0_4.index t 1 * 16 + 1 * q.val = q.val
    rw [(idx0_4 t).2]; omega

theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 5 of region 0: the block at point `t` read at (p, q) is the array at (p, q). -/
theorem blk0_5 (c : Dev nD) (t : Fin cfg0.N) (A : Buf (Elt F) ((cfg0.win 5).arr.view.loc (c.tc : Thread nD τ))) (p : Fin 128) (q : Fin 64) :
    ((cfg0.win 5).blk t).view.read (Elt F) A (ix2 p q) = A (ix2 p q) := by
  rw [View.read_apply]
  refine congrArg A ?_
  funext a
  refine Fin.ext ?_
  match a with
  | ⟨0, _⟩ =>
    show win0_5.index t 0 * 128 + 1 * p.val = p.val
    rw [(idx0_5 t).1]; omega
  | ⟨1, _⟩ =>
    show win0_5.index t 1 * 64 + 1 * q.val = q.val
    rw [(idx0_5 t).2]; omega

theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 6 of region 0: the block at point `t` read at (p, q) is the array at (p, q). -/
theorem blk0_6 (c : Dev nD) (t : Fin cfg0.N) (A : Buf (Elt F) ((cfg0.win 6).arr.view.loc (c.tc : Thread nD τ))) (p : Fin 1) (q : Fin 64) :
    ((cfg0.win 6).blk t).view.read (Elt F) A (ix2 p q) = A (ix2 p q) := by
  rw [View.read_apply]
  refine congrArg A ?_
  funext a
  refine Fin.ext ?_
  match a with
  | ⟨0, _⟩ =>
    show win0_6.index t 0 * 1 + 1 * p.val = p.val
    rw [(idx0_6 t).1]; omega
  | ⟨1, _⟩ =>
    show win0_6.index t 1 * 64 + 1 * q.val = q.val
    rw [(idx0_6 t).2]; omega

theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 7 of region 0: the block at point `t` read at (p, q) is the array at (p, q). -/
theorem blk0_7 (c : Dev nD) (t : Fin cfg0.N) (A : Buf (Elt F) ((cfg0.win 7).arr.view.loc (c.tc : Thread nD τ))) (p : Fin 1) (q : Fin 16) :
    ((cfg0.win 7).blk t).view.read (Elt F) A (ix2 p q) = A (ix2 p q) := by
  rw [View.read_apply]
  refine congrArg A ?_
  funext a
  refine Fin.ext ?_
  match a with
  | ⟨0, _⟩ =>
    show win0_7.index t 0 * 1 + 1 * p.val = p.val
    rw [(idx0_7 t).1]; omega
  | ⟨1, _⟩ =>
    show win0_7.index t 1 * 16 + 1 * q.val = q.val
    rw [(idx0_7 t).2]; omega

theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 8 of region 0: the block at point `t` read at (p, q) is the array at (p, q). -/
theorem blk0_8 (c : Dev nD) (t : Fin cfg0.N) (A : Buf (Elt F) ((cfg0.win 8).arr.view.loc (c.tc : Thread nD τ))) (p : Fin 1) (q : Fin 64) :
    ((cfg0.win 8).blk t).view.read (Elt F) A (ix2 p q) = A (ix2 p q) := by
  rw [View.read_apply]
  refine congrArg A ?_
  funext a
  refine Fin.ext ?_
  match a with
  | ⟨0, _⟩ =>
    show win0_8.index t 0 * 1 + 1 * p.val = p.val
    rw [(idx0_8 t).1]; omega
  | ⟨1, _⟩ =>
    show win0_8.index t 1 * 64 + 1 * q.val = q.val
    rw [(idx0_8 t).2]; omega

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 9 of region 0: the block at point `t` read at (p, q) is the array at (p, q). -/
theorem blk0_9 (c : Dev nD) (t : Fin cfg0.N) (A : Buf (Elt F) ((cfg0.win 9).arr.view.loc (c.tc : Thread nD τ))) (p : Fin 1024) (q : Fin 1) :
    ((cfg0.win 9).blk t).view.read (Elt F) A (ix2 p q) = A (ix2 p q) := by
  rw [View.read_apply]
  refine congrArg A ?_
  funext a
  refine Fin.ext ?_
  match a with
  | ⟨0, _⟩ =>
    show win0_9.index t 0 * 1024 + 1 * p.val = p.val
    rw [(idx0_9 t).1]; omega
  | ⟨1, _⟩ =>
    show win0_9.index t 1 * 1 + 1 * q.val = q.val
    rw [(idx0_9 t).2]; omega

theorem idx1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)

/-- Window 0 of region 1: the block at point `t` read at (p, q) is the array at (p, q). -/
theorem blk1_0 (c : Dev nD) (t : Fin cfg1.N) (A : Buf (Elt F) ((cfg1.win 0).arr.view.loc (c.tc : Thread nD τ))) (p : Fin 4096) (q : Fin 1024) :
    ((cfg1.win 0).blk t).view.read (Elt F) A (ix2 p q) = A (ix2 p q) := by
  rw [View.read_apply]
  refine congrArg A ?_
  funext a
  refine Fin.ext ?_
  match a with
  | ⟨0, _⟩ =>
    show win1_0.index t 0 * 4096 + 1 * p.val = p.val
    rw [(idx1_0 t).1]; omega
  | ⟨1, _⟩ =>
    show win1_0.index t 1 * 1024 + 1 * q.val = q.val
    rw [(idx1_0 t).2]; omega

theorem idx1_1 : ∀ t : Fin cfg1.N, win1_1.index t (0 : Fin 2) = 0 ∧ win1_1.index t (1 : Fin 2) = t.val :=
  (by decide +kernel : ∀ t : Fin grid1.N, win1_1.index t (0 : Fin 2) = 0 ∧ win1_1.index t (1 : Fin 2) = t.val)

/-- Window 1 of region 1: the block at point `t` read at (p, q) is the array at (p, 512·t + q). -/
theorem blk1_1 (c : Dev nD) (t : Fin cfg1.N) (A : Buf (Elt F) ((cfg1.win 1).arr.view.loc (c.tc : Thread nD τ))) (p : Fin 1024) (q : Fin 512) :
    ((cfg1.win 1).blk t).view.read (Elt F) A (ix2 p q) = A (ix2 p ⟨512 * t.val + q.val, by have := t.isLt; have h : cfg1.N = 8 := N_1; have := q.isLt; omega⟩) := by
  rw [View.read_apply]
  refine congrArg A ?_
  funext a
  refine Fin.ext ?_
  match a with
  | ⟨0, _⟩ =>
    show win1_1.index t 0 * 1024 + 1 * p.val = p.val
    rw [(idx1_1 t).1]; omega
  | ⟨1, _⟩ =>
    show win1_1.index t 1 * 512 + 1 * q.val = 512 * t.val + q.val
    rw [(idx1_1 t).2]; omega

theorem idx1_2 : ∀ t : Fin cfg1.N, win1_2.index t (0 : Fin 2) = 0 ∧ win1_2.index t (1 : Fin 2) = t.val :=
  (by decide +kernel : ∀ t : Fin grid1.N, win1_2.index t (0 : Fin 2) = 0 ∧ win1_2.index t (1 : Fin 2) = t.val)

/-- Window 2 of region 1: the block at point `t` read at (p, q) is the array at (p, 512·t + q). -/
theorem blk1_2 (c : Dev nD) (t : Fin cfg1.N) (A : Buf (Elt F) ((cfg1.win 2).arr.view.loc (c.tc : Thread nD τ))) (p : Fin 4096) (q : Fin 512) :
    ((cfg1.win 2).blk t).view.read (Elt F) A (ix2 p q) = A (ix2 p ⟨512 * t.val + q.val, by have := t.isLt; have h : cfg1.N = 8 := N_1; have := q.isLt; omega⟩) := by
  rw [View.read_apply]
  refine congrArg A ?_
  funext a
  refine Fin.ext ?_
  match a with
  | ⟨0, _⟩ =>
    show win1_2.index t 0 * 4096 + 1 * p.val = p.val
    rw [(idx1_2 t).1]; omega
  | ⟨1, _⟩ =>
    show win1_2.index t 1 * 512 + 1 * q.val = 512 * t.val + q.val
    rw [(idx1_2 t).2]; omega

theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- Window 3 of region 1: the block at point `t` read at (p, q) is the array at (p, q). -/
theorem blk1_3 (c : Dev nD) (t : Fin cfg1.N) (A : Buf (Elt F) ((cfg1.win 3).arr.view.loc (c.tc : Thread nD τ))) (p : Fin 4096) (q : Fin 16) :
    ((cfg1.win 3).blk t).view.read (Elt F) A (ix2 p q) = A (ix2 p q) := by
  rw [View.read_apply]
  refine congrArg A ?_
  funext a
  refine Fin.ext ?_
  match a with
  | ⟨0, _⟩ =>
    show win1_3.index t 0 * 4096 + 1 * p.val = p.val
    rw [(idx1_3 t).1]; omega
  | ⟨1, _⟩ =>
    show win1_3.index t 1 * 16 + 1 * q.val = q.val
    rw [(idx1_3 t).2]; omega

theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)

/-- Window 4 of region 1: the block at point `t` read at (p, q) is the array at (p, q). -/
theorem blk1_4 (c : Dev nD) (t : Fin cfg1.N) (A : Buf (Elt F) ((cfg1.win 4).arr.view.loc (c.tc : Thread nD τ))) (p : Fin 16) (q : Fin 8) :
    ((cfg1.win 4).blk t).view.read (Elt F) A (ix2 p q) = A (ix2 p q) := by
  rw [View.read_apply]
  refine congrArg A ?_
  funext a
  refine Fin.ext ?_
  match a with
  | ⟨0, _⟩ =>
    show win1_4.index t 0 * 16 + 1 * p.val = p.val
    rw [(idx1_4 t).1]; omega
  | ⟨1, _⟩ =>
    show win1_4.index t 1 * 8 + 1 * q.val = q.val
    rw [(idx1_4 t).2]; omega

theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)

/-- Window 5 of region 1: the block at point `t` read at (p, q) is the array at (p, q). -/
theorem blk1_5 (c : Dev nD) (t : Fin cfg1.N) (A : Buf (Elt F) ((cfg1.win 5).arr.view.loc (c.tc : Thread nD τ))) (p : Fin 1) (q : Fin 8) :
    ((cfg1.win 5).blk t).view.read (Elt F) A (ix2 p q) = A (ix2 p q) := by
  rw [View.read_apply]
  refine congrArg A ?_
  funext a
  refine Fin.ext ?_
  match a with
  | ⟨0, _⟩ =>
    show win1_5.index t 0 * 1 + 1 * p.val = p.val
    rw [(idx1_5 t).1]; omega
  | ⟨1, _⟩ =>
    show win1_5.index t 1 * 8 + 1 * q.val = q.val
    rw [(idx1_5 t).2]; omega

theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

/-- Window 6 of region 1: the block at point `t` read at (p, q) is the array at (p, q). -/
theorem blk1_6 (c : Dev nD) (t : Fin cfg1.N) (A : Buf (Elt F) ((cfg1.win 6).arr.view.loc (c.tc : Thread nD τ))) (p : Fin 1024) (q : Fin 1) :
    ((cfg1.win 6).blk t).view.read (Elt F) A (ix2 p q) = A (ix2 p q) := by
  rw [View.read_apply]
  refine congrArg A ?_
  funext a
  refine Fin.ext ?_
  match a with
  | ⟨0, _⟩ =>
    show win1_6.index t 0 * 1024 + 1 * p.val = p.val
    rw [(idx1_6 t).1]; omega
  | ⟨1, _⟩ =>
    show win1_6.index t 1 * 1 + 1 * q.val = q.val
    rw [(idx1_6 t).2]; omega

theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- Window 7 of region 1: the block at point `t` read at (p, q) is the array at (p, q). -/
theorem blk1_7 (c : Dev nD) (t : Fin cfg1.N) (A : Buf (Elt F) ((cfg1.win 7).arr.view.loc (c.tc : Thread nD τ))) (p : Fin 4096) (q : Fin 8) :
    ((cfg1.win 7).blk t).view.read (Elt F) A (ix2 p q) = A (ix2 p q) := by
  rw [View.read_apply]
  refine congrArg A ?_
  funext a
  refine Fin.ext ?_
  match a with
  | ⟨0, _⟩ =>
    show win1_7.index t 0 * 4096 + 1 * p.val = p.val
    rw [(idx1_7 t).1]; omega
  | ⟨1, _⟩ =>
    show win1_7.index t 1 * 8 + 1 * q.val = q.val
    rw [(idx1_7 t).2]; omega

end Cert.KernelIdeal.Blocks

end
-- ==== Proof.NodeGlue.lean ====
import proofs.«168662_g27230092657223_cont_9to1_1126_2_alg».proof.Proof.NodeValues
import proofs.«168662_g27230092657223_cont_9to1_1126_2_alg».proof.Proof.NodeMath
import proofs.«168662_g27230092657223_cont_9to1_1126_2_alg».proof.Proof.Blocks
import Idealize.ShloMosaic.Lib.Pipeline.Value

/-!
# The node region's result array, from what its body leaves point by point

Given what the accumulator holds after each point as the body's payloads of the point's blocks (a recursion on the
point) and what the last point stores into the output window, the region's result array — one block, the whole
array, written back once, at the last point — holds the plain formula at every index.
-/

set_option maxRecDepth 16384

noncomputable section

namespace Cert.KernelIdeal.NodeGlue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx GcnSpec Cert.KernelIdeal.Blocks Cert.KernelIdeal.NodeMath

variable (V : (c : Dev nD) → (b : Ref sig .tc) → Buf (Elt Ideal) ((c : Thread nD τ).loc b)) (c : Dev nD)

/-- The grid is one axis: a point's coordinate is its number. -/
theorem coords_val : ∀ t : Fin cfg0.N, ((grid0.coords t) 0).val = t.val :=
  (by decide +kernel : ∀ t : Fin grid0.N, ((grid0.coords t) 0).val = t.val)

theorem ltN {n : ℕ} (hn : n < cfg0.N) : n < 4 := lt_of_lt_of_eq hn (show cfg0.N = 4 from N_0)

/-- The last point. -/
abbrev tl : Fin cfg0.N := ⟨3, by rw [show cfg0.N = 4 from N_0]; decide⟩

/-- The output window's block is its whole array: an index of the array is in the last point's block. -/
theorem mem_out (i : S1024x1.Idx) : i ∈ ((cfg0.win 9).blk tl).view.set := by
  show i ∈ ((View.whole main_v2).slice (win0_9.rect tl)).set
  rw [View.set_slice_whole, Rect.mem_set_unit]
  intro a
  match a with
  | ⟨0, _⟩ =>
    show win0_9.index tl (0 : Fin 2) * 1024 ≤ (i 0).val ∧ (i 0).val < win0_9.index tl (0 : Fin 2) * 1024 + 1024
    rw [(idx0_9 tl).1]; have := idx2_lt0 i; omega
  | ⟨1, _⟩ =>
    show win0_9.index tl (1 : Fin 2) * 1 ≤ (i 1).val ∧ (i 1).val < win0_9.index tl (1 : Fin 2) * 1 + 1
    rw [(idx0_9 tl).2]; have := idx2_lt1 i; omega

/-- The region's result array is what the last point leaves in the output window's buffer. -/
theorem arrAt_out (G : S1024x1.Idx → EReal)
    (hG : ∀ (p : Fin 1024) (q : Fin 1), ((Node.dat V c).after 9 tl : S1024x1.Idx → EReal) (ix2 p q) = G (ix2 p q)) :
    ((Node.dat V c).arrAt 9 cfg0.N : S1024x1.Idx → EReal) = G := by
  refine (Node.dat V c).arrAt_eq_of_cover 9 G (fun t ht => ?_) (fun i => ⟨tl, (flush0_9 tl).mpr (by decide), mem_out i⟩)
  have htl : t = tl := Fin.ext (by have h := (flush0_9 t).mp ht; have := ltN t.isLt; show t.val = 3; omega)
  subst htl
  show (cfg0.win 9).cut (grid0.coords tl) ((Node.dat V c).after 9 tl) = _
  funext y
  obtain ⟨p, q, rfl⟩ : ∃ (p : Fin 1024) (q : Fin 1), y = ix2 p q := ⟨y 0, y 1, eq_ix2 y⟩
  exact (hG p q).trans (blk0_9 (F := Ideal) c tl G p q).symm

section Values

variable (T : Fin 1024 → Fin 4096 → EReal) (Z : Fin 4096 → Fin 16 → EReal) (adjV : Fin 1024 → Fin 1024 → EReal)
  (X : Fin 1024 → Fin 128 → EReal) (w1 : Fin 128 → Fin 64 → EReal) (b1 : Fin 64 → EReal) (p1 : Fin 16 → EReal)
  (p2 : Fin 64 → EReal)
  (hT : ∀ i e, (V c main_arg4 : S1024x4096.Idx → EReal) (ix2 i e) = T i e)
  (hTt : ∀ e n, (V c main_v0 : S4096x1024.Idx → EReal) (ix2 e n) = T n e)
  (hAdj : ∀ i j, (V c main_arg3 : S1024x1024.Idx → EReal) (ix2 i j) = adjV i j)
  (hX : ∀ i a, (V c main_arg0 : S1024x128.Idx → EReal) (ix2 i a) = X i a)
  (hZ : ∀ e a, (V c main_arg1 : S4096x16.Idx → EReal) (ix2 e a) = Z e a)
  (hw1 : ∀ a k, (V c main_arg5 : S128x64.Idx → EReal) (ix2 a k) = w1 a k)
  (hb1 : ∀ k, (V c main_v1 : S1x64.Idx → EReal) (ix2 (0 : Fin 1) k) = b1 k)
  (hp1 : ∀ a, (V c main_arg7 : S1x16.Idx → EReal) (ix2 (0 : Fin 1) a) = p1 a)
  (hp2 : ∀ k, (V c main_arg10 : S1x64.Idx → EReal) (ix2 (0 : Fin 1) k) = p2 k)

/-- The tile of a point. -/
abbrev tileOf (t : Fin cfg0.N) : Fin 4 := ⟨t.val, ltN t.isLt⟩

include hT hTt hAdj hX hZ hw1 hp1 in
/-- One point's accumulation step, at the point's blocks. -/
theorem step_at (t : Fin cfg0.N) (sl : Vec Ideal S256x64 .f32)
    (hsl : ∀ q k, sl (ix2 q k) = dense X w1 (col (tileOf t) q) k) (v33 : Vec Ideal S1024x64 .f32) (r : Fin 1024) (k : Fin 64) :
    k0_pay1 (F := Ideal)
        (k0_pay5 (F := Ideal) (grid0.coords t) (Node.iblk V c 4 t) (Node.iblk V c 7 t) (Node.iblk V c 1 t) (Node.iblk V c 0 t) (Node.iblk V c 2 t) (Node.iblk V c 2 t))
        (k0_pay6 (F := Ideal) (grid0.coords t) (Node.iblk V c 4 t) (Node.iblk V c 7 t) (Node.iblk V c 1 t) (Node.iblk V c 0 t) (Node.iblk V c 2 t) (Node.iblk V c 2 t) sl)
        v33 (ix2 r k)
      = v33 (ix2 r k) + ∑ q : Fin 256, A1 T Z adjV p1 r (col (tileOf t) q)
          * (dense X w1 (col (tileOf t) q) k * colScale 1 ε (A1 T Z adjV p1) (col (tileOf t) q)) :=
  tile_step T Z adjV X w1 p1 (tileOf t) (grid0.coords t) (coords_val t)
    (Node.iblk V c 4 t) (fun e a => (blk0_4 (F := Ideal) c t _ e a).trans (hZ e a))
    (Node.iblk V c 7 t) (fun a => (blk0_7 (F := Ideal) c t _ (0 : Fin 1) a).trans (hp1 a))
    (Node.iblk V c 1 t) (fun e q => (blk0_1 (F := Ideal) c t _ e q).trans (hTt e _))
    (Node.iblk V c 0 t) (fun r e => (blk0_0 (F := Ideal) c t _ r e).trans (hT r e))
    (Node.iblk V c 2 t) (fun r q => (blk0_2 (F := Ideal) c t _ r q).trans (hAdj r _))
    sl hsl v33 r k

include hT hTt hAdj hX hZ hw1 hb1 hp1 hp2 in
/-- THE NODE REGION'S RESULT: given the slice of the dense map each point loads, what the accumulator holds after each
    point and what the last point stores, the result array holds the edge layer's weight vector. -/
theorem node_value_of
    (sl : Fin cfg0.N → Vec Ideal S256x64 .f32)
    (hsl : ∀ t q k, sl t (ix2 q k) = dense X w1 (col (tileOf t) q) k)
    (acc : (n : ℕ) → n < cfg0.N → Vec Ideal S1024x64 .f32)
    (hacc0 : ∀ h : 0 < cfg0.N, acc 0 h = k0_pay1 (F := Ideal)
      (k0_pay5 (F := Ideal) (grid0.coords ⟨0, h⟩) (Node.iblk V c 4 ⟨0, h⟩) (Node.iblk V c 7 ⟨0, h⟩) (Node.iblk V c 1 ⟨0, h⟩) (Node.iblk V c 0 ⟨0, h⟩) (Node.iblk V c 2 ⟨0, h⟩) (Node.iblk V c 2 ⟨0, h⟩))
      (k0_pay6 (F := Ideal) (grid0.coords ⟨0, h⟩) (Node.iblk V c 4 ⟨0, h⟩) (Node.iblk V c 7 ⟨0, h⟩) (Node.iblk V c 1 ⟨0, h⟩) (Node.iblk V c 0 ⟨0, h⟩) (Node.iblk V c 2 ⟨0, h⟩) (Node.iblk V c 2 ⟨0, h⟩) (sl ⟨0, h⟩))
      (k0_pay4 (F := Ideal)))
    (haccS : ∀ (n : ℕ) (h : n + 1 < cfg0.N), acc (n + 1) h = k0_pay1 (F := Ideal)
      (k0_pay5 (F := Ideal) (grid0.coords ⟨n + 1, h⟩) (Node.iblk V c 4 ⟨n + 1, h⟩) (Node.iblk V c 7 ⟨n + 1, h⟩) (Node.iblk V c 1 ⟨n + 1, h⟩) (Node.iblk V c 0 ⟨n + 1, h⟩) (Node.iblk V c 2 ⟨n + 1, h⟩) (Node.iblk V c 2 ⟨n + 1, h⟩))
      (k0_pay6 (F := Ideal) (grid0.coords ⟨n + 1, h⟩) (Node.iblk V c 4 ⟨n + 1, h⟩) (Node.iblk V c 7 ⟨n + 1, h⟩) (Node.iblk V c 1 ⟨n + 1, h⟩) (Node.iblk V c 0 ⟨n + 1, h⟩) (Node.iblk V c 2 ⟨n + 1, h⟩) (Node.iblk V c 2 ⟨n + 1, h⟩) (sl ⟨n + 1, h⟩))
      (acc n (Nat.lt_of_succ_lt h)))
    (hout : ((Node.dat V c).after 9 tl : S1024x1.Idx → EReal)
      = k0_pay2 (F := Ideal) (acc 3 tl.isLt) (Node.iblk V c 6 tl) (Node.iblk V c 8 tl))
    (r : Fin 1024) :
    ((Node.dat V c).arrAt 9 cfg0.N : S1024x1.Idx → EReal) (ix2 r (0 : Fin 1))
      = edgeWeightKer 1 ε X Z adjV T w1 b1 p1 p2 r := by
  have hnode : ∀ (r : Fin 1024) (k : Fin 64), acc 3 tl.isLt (ix2 r k) + b1 k = nodeOutKer 1 ε X Z adjV T w1 b1 p1 r k := by
    intro r k
    let a : ℕ → EReal := fun n => match n with
      | 0 => 0
      | n + 1 => if h : n < cfg0.N then acc n h (ix2 r k) else 0
    have ha : ∀ (n : ℕ) (h : n < cfg0.N), a (n + 1) = acc n h (ix2 r k) := fun n h => dif_pos h
    have h4 : a 4 = acc 3 tl.isLt (ix2 r k) := ha 3 tl.isLt
    rw [← h4]
    refine node_out T Z adjV X w1 b1 p1 a r k rfl fun n hn => ?_
    have hN : n < cfg0.N := lt_of_lt_of_eq hn (show 4 = cfg0.N from N_0.symm)
    rw [ha n hN]
    cases n with
    | zero =>
      rw [hacc0 hN, step_at V c T Z adjV X w1 p1 hT hTt hAdj hX hZ hw1 hp1 ⟨0, hN⟩ (sl ⟨0, hN⟩) (hsl ⟨0, hN⟩) _ r k,
        Cert.KernelIdeal.Pay.k0_pay4_apply]
    | succ n =>
      rw [haccS n hN, step_at V c T Z adjV X w1 p1 hT hTt hAdj hX hZ hw1 hp1 ⟨n + 1, hN⟩ (sl ⟨n + 1, hN⟩) (hsl ⟨n + 1, hN⟩) _ r k,
        ha n (Nat.lt_of_succ_lt hN)]
  have hfin := arrAt_out V c (fun i => edgeWeightKer 1 ε X Z adjV T w1 b1 p1 p2 ⟨(i 0).val, idx2_lt0 i⟩) (fun p q => by
    have hq : q = (0 : Fin 1) := Subsingleton.elim _ _
    subst hq
    rw [hout]
    exact node_weight T Z adjV X w1 b1 p1 p2 (acc 3 tl.isLt) (Node.iblk V c 6 tl) (Node.iblk V c 8 tl) hnode
      (fun k => (blk0_6 (F := Ideal) c tl _ (0 : Fin 1) k).trans (hb1 k))
      (fun k => (blk0_8 (F := Ideal) c tl _ (0 : Fin 1) k).trans (hp2 k)) p)
  exact congrFun hfin (ix2 r (0 : Fin 1))

include hX hw1 in
/-- The slice of the dense map a point loads is the dense map at the tile's rows. -/
theorem slice_dense (t : Fin cfg0.N) (q : Fin 256) (k : Fin 64) :
    Node.hwSlice V c t (ix2 q k) = dense X w1 (col (tileOf t) q) k := by
  rw [Node.hwSlice_apply]
  have hidx : (Node.sliceRect (grid0.coords t)).idx (ix2 q k) = ix2 (col (tileOf t) q) k := by
    funext a
    refine Fin.ext ?_
    match a with
    | ⟨0, _⟩ =>
      refine (Node.sliceRect_row (grid0.coords t) (ix2 q k)).trans ?_
      rw [congrFun (k0_off1_eq (grid0.coords t)) 0]
      show 256 * ((grid0.coords t) 0).val + q.val = 256 * t.val + q.val
      rw [coords_val t]
    | ⟨1, _⟩ => exact Node.sliceRect_col (grid0.coords t) (ix2 q k)
  rw [hidx]
  unfold Node.hw
  rw [Cert.KernelIdeal.Pay.k0_pay3_apply]
  unfold dense
  refine Finset.sum_congr rfl fun a _ => ?_
  exact congrArg₂ (fun x y : EReal => x * y)
    ((blk0_3 (F := Ideal) c ⟨0, Node.N_pos⟩ _ (col (tileOf t) q) a).trans (hX _ a))
    ((blk0_5 (F := Ideal) c ⟨0, Node.N_pos⟩ _ a k).trans (hw1 a k))

include hT hTt hAdj hX hZ hw1 hb1 hp1 hp2 in
/-- THE NODE REGION'S RESULT ARRAY holds the edge layer's weight vector. -/
theorem node_value (r : Fin 1024) :
    ((Node.dat V c).arrAt 9 cfg0.N : S1024x1.Idx → EReal) (ix2 r (0 : Fin 1))
      = edgeWeightKer 1 ε X Z adjV T w1 b1 p1 p2 r :=
  node_value_of V c T Z adjV X w1 b1 p1 p2 hT hTt hAdj hX hZ hw1 hb1 hp1 hp2
    (Node.hwSlice V c) (slice_dense V c X w1 hX hw1)
    (Node.acc V c) (fun h => Node.acc_zero V c h) (fun n h => Node.acc_succ V c n h)
    (Node.after_out V c) r

end Values

end Cert.KernelIdeal.NodeGlue

end
-- ==== Proof.EdgeValue.lean ====
import proofs.«168662_g27230092657223_cont_9to1_1126_2_alg».proof.Proof.EdgeFrame
import Idealize.ShloMosaic.Lib.Pipeline.Value

/-! The VALUES of the edge kernel's frame data: what the accumulator holds after each point and what the output
    window's buffer holds after the last, as pure terms over the skeleton's payloads and the input blocks. -/

-- membership proofs in rectangles with long axes recurse once per coordinate
set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-! ## One lemma per case: the found pieces read back are the payloads -/

/-- A middle point leaves in the accumulator the sum payload over what it found there. -/
theorem accMid_eq (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    accMid c i arg1 harg1 arg2 harg2 arg3 harg3 arg4 harg4 arg5 harg5 arg6 harg6 arg7 harg7 arg8 harg8 arg9 harg9 hc0 hc1 x0 x1 x2 x3 x4 x5 x6 xs = k1_pay1 (k1_pay4 i x1 x6 x0 x2 x2) (k1_pay5 (View.ld (Val := Elt F) x3 (Rect.unit (s := S4096x16) (k1_off1 i) S512x16.size (k1_off1_inb i))) x4) (k1_pay6 i x1 x6 x0 x2 x2) xs := by
  unfold accMid
  rw [View.read_writes_eq_canon _ _ _ (cover_mid c i arg1 harg1 arg2 harg2 arg3 harg3 arg4 harg4 arg5 harg5 arg6 harg6 arg7 harg7 arg8 harg8 arg9 harg9 hc0 hc1 x0 x1 x2 x3 x4 x5 x6 xs)]
  unfold runMid
  dsimp only
  rw [View.canon_unit_zero hz2]
  simp only [View.readAt_eq_ld, harg1.read_unread, harg2.read_unread, harg3.read_unread, harg4.read_unread, harg5.read_unread, harg6.read_unread, harg7.read_unread, harg9.read_unread,
    View.ld_unit_zero (S := S4096x1024) hz2, View.ld_unit_zero (S := S1024x512) hz2, View.ld_unit_zero (S := S4096x512) hz2, View.ld_unit_zero (S := S16x8) hz2, View.ld_unit_zero (S := S1x8) hz2, View.ld_unit_zero (S := S1024x1) hz2, View.ld_unit_zero (S := S4096x8) hz2]
  try rfl

/-- The first point zeroes the accumulator, reads the zeros back and leaves the sum payload over them. -/
theorem accFirst_eq (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : isFirst i) (hc1 : ¬isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) :
    accFirst c i arg1 harg1 arg2 harg2 arg3 harg3 arg4 harg4 arg5 harg5 arg6 harg6 arg7 harg7 arg8 harg8 arg9 harg9 hc0 hc1 x0 x1 x2 x3 x4 x5 x6 = k1_pay1 (k1_pay4 i x1 x6 x0 x2 x2) (k1_pay5 (View.ld (Val := Elt F) x3 (Rect.unit (s := S4096x16) (k1_off1 i) S512x16.size (k1_off1_inb i))) x4) (k1_pay6 i x1 x6 x0 x2 x2) (k1_pay3 (F := F)) := by
  unfold accFirst
  rw [View.read_writes_eq_canon _ _ _ (cover_first c i arg1 harg1 arg2 harg2 arg3 harg3 arg4 harg4 arg5 harg5 arg6 harg6 arg7 harg7 arg8 harg8 arg9 harg9 hc0 hc1 x0 x1 x2 x3 x4 x5 x6)]
  unfold runFirst
  dsimp only
  sl_unfold_words
  rw [View.canon_cons_unit_zero (S := S4096x8) hz2, View.readCov_unit_zero (S := S4096x8) _ hz2]
  simp only [View.readAt_eq_ld, harg1.read_unread, harg2.read_unread, harg3.read_unread, harg4.read_unread, harg5.read_unread, harg6.read_unread, harg7.read_unread, harg9.read_unread,
    View.ld_unit_zero (S := S4096x1024) hz2, View.ld_unit_zero (S := S1024x512) hz2, View.ld_unit_zero (S := S4096x512) hz2, View.ld_unit_zero (S := S16x8) hz2, View.ld_unit_zero (S := S1x8) hz2, View.ld_unit_zero (S := S1024x1) hz2, View.ld_unit_zero (S := S4096x8) hz2]
  try rfl

/-- The last point leaves in the accumulator what a middle point does, -/
theorem accLast_eq (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    accLast c i arg1 harg1 arg2 harg2 arg3 harg3 arg4 harg4 arg5 harg5 arg6 harg6 arg7 harg7 arg8 harg8 arg9 harg9 hc0 hc1 x0 x1 x2 x3 x4 x5 x6 xs = k1_pay1 (k1_pay4 i x1 x6 x0 x2 x2) (k1_pay5 (View.ld (Val := Elt F) x3 (Rect.unit (s := S4096x16) (k1_off1 i) S512x16.size (k1_off1_inb i))) x4) (k1_pay6 i x1 x6 x0 x2 x2) xs := by
  unfold accLast
  rw [View.read_writes_eq_canon _ _ _ (cover_last c i arg1 harg1 arg2 harg2 arg3 harg3 arg4 harg4 arg5 harg5 arg6 harg6 arg7 harg7 arg8 harg8 arg9 harg9 hc0 hc1 x0 x1 x2 x3 x4 x5 x6 xs)]
  unfold runLast
  dsimp only
  sl_unfold_words
  rw [View.canon_unit_zero hz2]
  simp only [View.readAt_eq_ld, harg1.read_unread, harg2.read_unread, harg3.read_unread, harg4.read_unread, harg5.read_unread, harg6.read_unread, harg7.read_unread, harg9.read_unread,
    View.ld_unit_zero (S := S4096x1024) hz2, View.ld_unit_zero (S := S1024x512) hz2, View.ld_unit_zero (S := S4096x512) hz2, View.ld_unit_zero (S := S16x8) hz2, View.ld_unit_zero (S := S1x8) hz2, View.ld_unit_zero (S := S1024x1) hz2, View.ld_unit_zero (S := S4096x8) hz2]
  try rfl

/-- and in the output window's buffer the final payload over the accumulator read back and the bias block. -/
theorem outLast_eq (c : Dev nD) (i : grid1.Coords) (arg1 : Memref sig .tc .vmem S4096x1024 .f32) (harg1 : arg1.IsWhole) (arg2 : Memref sig .tc .vmem S1024x512 .f32) (harg2 : arg2.IsWhole) (arg3 : Memref sig .tc .vmem S4096x512 .f32) (harg3 : arg3.IsWhole) (arg4 : Memref sig .tc .vmem S4096x16 .f32) (harg4 : arg4.IsWhole) (arg5 : Memref sig .tc .vmem S16x8 .f32) (harg5 : arg5.IsWhole) (arg6 : Memref sig .tc .vmem S1x8 .f32) (harg6 : arg6.IsWhole) (arg7 : Memref sig .tc .vmem S1024x1 .f32) (harg7 : arg7.IsWhole) (arg8 : Memref sig .tc .vmem S4096x8 .f32) (harg8 : arg8.IsWhole) (arg9 : Memref sig .tc .vmem S4096x8 .f32) (harg9 : arg9.IsWhole) (hc0 : ¬isFirst i) (hc1 : isLast i)
    (x0 : Vec F S4096x1024 .f32) (x1 : Vec F S1024x512 .f32) (x2 : Vec F S4096x512 .f32) (x3 : Vec F S4096x16 .f32) (x4 : Vec F S16x8 .f32) (x5 : Vec F S1x8 .f32) (x6 : Vec F S1024x1 .f32) (xs : Vec F S4096x8 .f32) :
    outLast c i arg1 harg1 arg2 harg2 arg3 harg3 arg4 harg4 arg5 harg5 arg6 harg6 arg7 harg7 arg8 harg8 arg9 harg9 hc0 hc1 x0 x1 x2 x3 x4 x5 x6 xs = k1_pay2 (k1_pay1 (k1_pay4 i x1 x6 x0 x2 x2) (k1_pay5 (View.ld (Val := Elt F) x3 (Rect.unit (s := S4096x16) (k1_off1 i) S512x16.size (k1_off1_inb i))) x4) (k1_pay6 i x1 x6 x0 x2 x2) xs) x5 := by
  unfold outLast
  rw [View.read_writes_eq_canon _ _ _ (cover_out c i arg1 harg1 arg2 harg2 arg3 harg3 arg4 harg4 arg5 harg5 arg6 harg6 arg7 harg7 arg8 harg8 arg9 harg9 hc0 hc1 x0 x1 x2 x3 x4 x5 x6 xs)]
  unfold runLast
  dsimp only
  sl_unfold_words
  rw [View.canon_unit_zero hz2, View.readCov_unit_zero (S := S4096x8) _ hz2]
  simp only [View.readAt_eq_ld, harg1.read_unread, harg2.read_unread, harg3.read_unread, harg4.read_unread, harg5.read_unread, harg6.read_unread, harg7.read_unread, harg9.read_unread,
    View.ld_unit_zero (S := S4096x1024) hz2, View.ld_unit_zero (S := S1024x512) hz2, View.ld_unit_zero (S := S4096x512) hz2, View.ld_unit_zero (S := S16x8) hz2, View.ld_unit_zero (S := S1x8) hz2, View.ld_unit_zero (S := S1024x1) hz2, View.ld_unit_zero (S := S4096x8) hz2]
  try rfl

/-! ## The values, point by point -/

/-- The 512 rows of window 3's block (the whole array, staged once) the body loads at point `t`: rows
    `k1_off1 (grid1.coords t) 0 + ·`, all 16 columns. -/
def slice3 (c : Dev nD) (t : Fin cfg1.N) : Vec F S512x16 .f32 :=
  View.ld (Val := Elt F) (iblk V c 3 t : Vec F S4096x16 .f32) (Rect.unit (s := S4096x16) (k1_off1 (grid1.coords t)) S512x16.size (k1_off1_inb (grid1.coords t)))

/-- The slice at an index: the block at the rectangle's index, -/
theorem slice3_apply (c : Dev nD) (t : Fin cfg1.N) (y : S512x16.Idx) :
    slice3 V c t y = iblk V c 3 t ((Rect.unit (s := S4096x16) (k1_off1 (grid1.coords t)) S512x16.size (k1_off1_inb (grid1.coords t))).idx y) := rfl

/-- whose coordinate on each axis is the offset plus the coordinate inside the slice (unit stride). -/
theorem slice3_idx (t : Fin cfg1.N) (y : S512x16.Idx) (a : Fin 2) :
    ((Rect.unit (s := S4096x16) (k1_off1 (grid1.coords t)) S512x16.size (k1_off1_inb (grid1.coords t))).idx y a : ℕ) = k1_off1 (grid1.coords t) a + 1 * (y a : ℕ) := rfl

/-- The accumulator's update at point `t` over contents `a`: the sum payload at the point's blocks. -/
def stepAt (c : Dev nD) (t : Fin cfg1.N) (a : Vec F S4096x8 .f32) : Vec F S4096x8 .f32 :=
  k1_pay1 (k1_pay4 (grid1.coords t) (iblk V c 1 t) (iblk V c 6 t) (iblk V c 0 t) (iblk V c 2 t) (iblk V c 2 t)) (k1_pay5 (slice3 V c t) (iblk V c 4 t)) (k1_pay6 (grid1.coords t) (iblk V c 1 t) (iblk V c 6 t) (iblk V c 0 t) (iblk V c 2 t) (iblk V c 2 t)) a

/-- What the accumulator holds after point `n`: the update over the zeros at the first point, then over what the
    point before left. -/
def acc (c : Dev nD) : (n : ℕ) → n < cfg1.N → Vec F S4096x8 .f32
  | 0, h => stepAt V c ⟨0, h⟩ (k1_pay3 (F := F))
  | n + 1, h => stepAt V c ⟨n + 1, h⟩ (acc c n (Nat.lt_of_succ_lt h))

theorem acc_zero (c : Dev nD) (h : 0 < cfg1.N) :
    acc V c 0 h = k1_pay1 (k1_pay4 (grid1.coords ⟨0, h⟩) (iblk V c 1 ⟨0, h⟩) (iblk V c 6 ⟨0, h⟩) (iblk V c 0 ⟨0, h⟩) (iblk V c 2 ⟨0, h⟩) (iblk V c 2 ⟨0, h⟩)) (k1_pay5 (slice3 V c ⟨0, h⟩) (iblk V c 4 ⟨0, h⟩)) (k1_pay6 (grid1.coords ⟨0, h⟩) (iblk V c 1 ⟨0, h⟩) (iblk V c 6 ⟨0, h⟩) (iblk V c 0 ⟨0, h⟩) (iblk V c 2 ⟨0, h⟩) (iblk V c 2 ⟨0, h⟩)) (k1_pay3 (F := F)) := rfl

theorem acc_succ (c : Dev nD) (n : ℕ) (h : n + 1 < cfg1.N) :
    acc V c (n + 1) h = k1_pay1 (k1_pay4 (grid1.coords ⟨n + 1, h⟩) (iblk V c 1 ⟨n + 1, h⟩) (iblk V c 6 ⟨n + 1, h⟩) (iblk V c 0 ⟨n + 1, h⟩) (iblk V c 2 ⟨n + 1, h⟩) (iblk V c 2 ⟨n + 1, h⟩)) (k1_pay5 (slice3 V c ⟨n + 1, h⟩) (iblk V c 4 ⟨n + 1, h⟩)) (k1_pay6 (grid1.coords ⟨n + 1, h⟩) (iblk V c 1 ⟨n + 1, h⟩) (iblk V c 6 ⟨n + 1, h⟩) (iblk V c 0 ⟨n + 1, h⟩) (iblk V c 2 ⟨n + 1, h⟩) (iblk V c 2 ⟨n + 1, h⟩)) (acc V c n (Nat.lt_of_succ_lt h)) := rfl

/-- The accumulator component of the frame data's recursion is `acc`: by induction on the point, each case by its
    piece lemma. -/
theorem outsAt_acc (c : Dev nD) : ∀ (n : ℕ) (h : n < cfg1.N), (outsAt V c n h).2 = acc V c n h := by
  intro n
  induction n with
  | zero =>
    intro h
    have hc0 : isFirst (grid1.coords (⟨0, h⟩ : Fin cfg1.N)) := (isFirst_iff ⟨0, h⟩).mpr rfl
    have hc1 : ¬isLast (grid1.coords (⟨0, h⟩ : Fin cfg1.N)) :=
      fun hh => (fun e : (0 : ℕ) = 7 => absurd e (by decide)) ((isLast_iff ⟨0, h⟩).mp hh)
    show (outsAt V c (⟨0, h⟩ : Fin cfg1.N).val (⟨0, h⟩ : Fin cfg1.N).isLt).2 = _
    rw [outsAt_first V c ⟨0, h⟩ rfl (fun e : (0 : ℕ) = 7 => absurd e (by decide))]
    dsimp only
    refine (accFirst_eq c (grid1.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) (ms7 ⟨0, h⟩) (hs7 ⟨0, h⟩) scM (Memref.isWhole_whole _) hc0 hc1 (iblk V c 0 ⟨0, h⟩) (iblk V c 1 ⟨0, h⟩) (iblk V c 2 ⟨0, h⟩) (iblk V c 3 ⟨0, h⟩) (iblk V c 4 ⟨0, h⟩) (iblk V c 5 ⟨0, h⟩) (iblk V c 6 ⟨0, h⟩)).trans ?_
    rw [acc_zero]
    unfold slice3
    rfl
  | succ n ih =>
    intro h
    have hc0 : ¬isFirst (grid1.coords (⟨n + 1, h⟩ : Fin cfg1.N)) :=
      fun hh => absurd ((isFirst_iff ⟨n + 1, h⟩).mp hh) (Nat.succ_ne_zero n)
    show (outsAt V c (⟨n + 1, h⟩ : Fin cfg1.N).val (⟨n + 1, h⟩ : Fin cfg1.N).isLt).2 = _
    by_cases h1 : n + 1 = 7
    · have hc1 : isLast (grid1.coords (⟨n + 1, h⟩ : Fin cfg1.N)) := (isLast_iff ⟨n + 1, h⟩).mpr h1
      rw [outsAt_last V c ⟨n + 1, h⟩ (Nat.succ_ne_zero n) h1]
      dsimp only
      refine (accLast_eq c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) scM (Memref.isWhole_whole _) hc0 hc1 (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) _).trans ?_
      rw [acc_succ, ← ih (Nat.lt_of_succ_lt h)]
      unfold slice3
      rfl
    · have hc1 : ¬isLast (grid1.coords (⟨n + 1, h⟩ : Fin cfg1.N)) := fun hh => h1 ((isLast_iff ⟨n + 1, h⟩).mp hh)
      rw [outsAt_mid V c ⟨n + 1, h⟩ (Nat.succ_ne_zero n) h1]
      dsimp only
      refine (accMid_eq c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (ms7 ⟨n + 1, h⟩) (hs7 ⟨n + 1, h⟩) scM (Memref.isWhole_whole _) hc0 hc1 (iblk V c 0 ⟨n + 1, h⟩) (iblk V c 1 ⟨n + 1, h⟩) (iblk V c 2 ⟨n + 1, h⟩) (iblk V c 3 ⟨n + 1, h⟩) (iblk V c 4 ⟨n + 1, h⟩) (iblk V c 5 ⟨n + 1, h⟩) (iblk V c 6 ⟨n + 1, h⟩) _).trans ?_
      rw [acc_succ, ← ih (Nat.lt_of_succ_lt h)]
      unfold slice3
      rfl

theorem seven_lt : 7 < cfg1.N := lt_of_lt_of_eq (by decide : 7 < 8) (show cfg1.N = 8 from N_1).symm

theorem acc_last (c : Dev nD) :
    acc V c 7 seven_lt = stepAt V c ⟨7, seven_lt⟩ (acc V c 6 (Nat.lt_of_succ_lt seven_lt)) := rfl

/-- What the output window's buffer holds after the last point: the final payload over the accumulator after
    the last point and window 5's block. -/
theorem after_out (c : Dev nD) :
    (dat V c).after 7 ⟨7, seven_lt⟩ = k1_pay2 (acc V c 7 seven_lt) (iblk V c 5 ⟨7, seven_lt⟩) := by
  have hc0 : ¬isFirst (grid1.coords (⟨7, seven_lt⟩ : Fin cfg1.N)) :=
    fun hh => absurd ((isFirst_iff ⟨7, seven_lt⟩).mp hh) (by decide)
  have hc1 : isLast (grid1.coords (⟨7, seven_lt⟩ : Fin cfg1.N)) := (isLast_iff ⟨7, seven_lt⟩).mpr rfl
  rw [after7, outsAt_last V c ⟨7, seven_lt⟩ (by decide) rfl]
  dsimp only
  refine (outLast_eq c (grid1.coords ⟨7, seven_lt⟩) (ms0 ⟨7, seven_lt⟩) (hs0 ⟨7, seven_lt⟩) (ms1 ⟨7, seven_lt⟩) (hs1 ⟨7, seven_lt⟩) (ms2 ⟨7, seven_lt⟩) (hs2 ⟨7, seven_lt⟩) (ms3 ⟨7, seven_lt⟩) (hs3 ⟨7, seven_lt⟩) (ms4 ⟨7, seven_lt⟩) (hs4 ⟨7, seven_lt⟩) (ms5 ⟨7, seven_lt⟩) (hs5 ⟨7, seven_lt⟩) (ms6 ⟨7, seven_lt⟩) (hs6 ⟨7, seven_lt⟩) (ms7 ⟨7, seven_lt⟩) (hs7 ⟨7, seven_lt⟩) scM (Memref.isWhole_whole _) hc0 hc1 (iblk V c 0 ⟨7, seven_lt⟩) (iblk V c 1 ⟨7, seven_lt⟩) (iblk V c 2 ⟨7, seven_lt⟩) (iblk V c 3 ⟨7, seven_lt⟩) (iblk V c 4 ⟨7, seven_lt⟩) (iblk V c 5 ⟨7, seven_lt⟩) (iblk V c 6 ⟨7, seven_lt⟩) _).trans ?_
  rw [acc_last, ← outsAt_acc V c 6 (Nat.lt_of_succ_lt seven_lt)]
  unfold stepAt slice3
  rfl

end Cert.KernelIdeal.Edge

end
-- ==== Proof.PayEdge.lean ====
/-
  The edge kernel's stored and passed-on values read at an index, at the exact reals: each is a plain formula over
  the loaded vectors at indices.
-/
import proofs.«168662_g27230092657223_cont_9to1_1126_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«168662_g27230092657223_cont_9to1_1126_2_alg».proof.Proof.LibPlainDot
import proofs.«168662_g27230092657223_cont_9to1_1126_2_alg».proof.Proof.LibRowsDot
import proofs.«168662_g27230092657223_cont_9to1_1126_2_alg».proof.Proof.LibRowLayout
import proofs.«168662_g27230092657223_cont_9to1_1126_2_alg».proof.Proof.LibRealScalars
import proofs.«168662_g27230092657223_cont_9to1_1126_2_alg».proof.Proof.PayLib
import proofs.«168662_g27230092657223_cont_9to1_1126_2_alg».proof.Proof.Spec

noncomputable section

namespace Cert.KernelIdeal.Pay

open Idealize.ShloMosaic Cert.KernelIdeal Cert.KernelIdeal.Gen ValueIdx
open scoped BigOperators

/-- The zero block the first grid step stores: zero at every entry. -/
theorem k1_pay3_apply (r : Fin 4096) (c : Fin 8) : k1_pay3 (F := Ideal) (ix2 r c) = 0 := by
  unfold k1_pay3
  rw [shapeCast_self]
  exact Ideal.ofBits_zero_f32

/-- The dense feature map of the block's edges: the features clamped below at zero, times the weights, at (q, c). -/
theorem k1_pay5_apply (v28 : Vec Ideal S512x16 .f32) (v31 : Vec Ideal S16x8 .f32) (q : Fin 512) (c : Fin 8) :
    k1_pay5 (F := Ideal) v28 v31 (ix2 q c) = ∑ a : Fin 16, max (v28 (ix2 q a)) 0 * v31 (ix2 a c) := by
  unfold k1_pay5
  refine (Cert.Lib.PlainDot.matmul_zero_apply (R := 512) (K := 16) (C := 8) _ rfl none _ v31 (ix2 q c)).trans ?_
  refine (mm_ix2 _ _ q c).trans ?_
  refine Finset.sum_congr rfl fun a _ => ?_
  refine congrArg (fun z => z * v31 (ix2 a c)) ?_
  refine (maximumf_apply _ _ _).trans ?_
  exact congrArg (fun z => max (v28 (ix2 q a)) z) Ideal.ofBits_zero_f32

/-- The accumulation step: the old accumulator plus the block's product with the scaled dense factor, at (r, c). -/
theorem k1_pay1_apply (v20 : Vec Ideal S4096x512 .f32) (v32 : FVec Ideal S512x8 .f32) (v34 : FVec Ideal S512x8 .f32)
    (v36 : Vec Ideal S4096x8 .f32) (r : Fin 4096) (c : Fin 8) :
    k1_pay1 (F := Ideal) v20 v32 v34 v36 (ix2 r c)
      = v36 (ix2 r c) + ∑ q : Fin 512, v20 (ix2 r q) * (v32 (ix2 q c) * v34 (ix2 q c)) := by
  unfold k1_pay1
  rw [shapeCast_self]
  refine (addf_apply _ _ _).trans ?_
  refine congrArg (fun z => v36 (ix2 r c) + z) ?_
  refine (Cert.Lib.PlainDot.matmul_zero_apply (R := 4096) (K := 512) (C := 8) _ rfl none v20 _ (ix2 r c)).trans ?_
  exact mm_ix2 _ _ r c

/-- The adjusted, scaled adjacency block at (r, q): the adjacency itself on the block's diagonal, elsewhere the
    product of the incidence's transpose with the weighted incidence, times the adjacency. -/
theorem k1_pay4_apply (i : grid1.Coords) (v3 : Vec Ideal S1024x512 .f32) (v4 : Vec Ideal S1024x1 .f32)
    (v8 : Vec Ideal S4096x1024 .f32) (v17 : Vec Ideal S4096x512 .f32) (v18 : Vec Ideal S4096x512 .f32)
    (r : Fin 4096) (q : Fin 512) :
    k1_pay4 (F := Ideal) i v3 v4 v8 v17 v18 (ix2 r q)
      = if r.val = q.val + 512 * (i 0).val then v17 (ix2 r q)
        else (∑ n : Fin 1024, v8 (ix2 r n) * (v3 (ix2 n q) * v4 (ix2 n (0 : Fin 1)))) * v18 (ix2 r q) := by
  have hi : (i 0).val < 8 := (i 0).isLt
  unfold k1_pay4
  refine (select_apply _ _ _ _).trans ?_
  unfold Scalar.select
  refine if_congr ?_ rfl ?_
  · rw [diag_mask_apply]
    exact diag_bit_iff r.val q.val (i 0).val 512 (by have := r.isLt; omega) (by have := q.isLt; omega)
  · refine (mulf_apply _ _ _).trans ?_
    refine congrArg (fun z => z * v18 (ix2 r q)) ?_
    rw [shapeCast_self, shapeCast_self]
    refine (Cert.Lib.PlainDot.matmul_zero_apply (R := 4096) (K := 1024) (C := 512) _ rfl none v8 _ (ix2 r q)).trans ?_
    refine (mm_ix2 _ _ r q).trans ?_
    refine Finset.sum_congr rfl fun n _ => ?_
    refine congrArg (fun z => v8 (ix2 r n) * z) ?_
    refine (mulf_apply _ _ _).trans ?_
    refine congrArg (fun z => v3 (ix2 n q) * z) ?_
    exact Cert.KernelIdeal.MvnKernel.broadcastTo_a1_ab_apply _ _ n q

/-- The reciprocal of the adjusted block's column sums plus the small constant, at (q, c). -/
theorem k1_pay6_apply (i : grid1.Coords) (v3 : Vec Ideal S1024x512 .f32) (v4 : Vec Ideal S1024x1 .f32)
    (v8 : Vec Ideal S4096x1024 .f32) (v17 : Vec Ideal S4096x512 .f32) (v18 : Vec Ideal S4096x512 .f32)
    (q : Fin 512) (c : Fin 8) :
    k1_pay6 (F := Ideal) i v3 v4 v8 v17 v18 (ix2 q c)
      = Ideal.div 1 ((∑ r : Fin 4096, k1_pay4 (F := Ideal) i v3 v4 v8 v17 v18 (ix2 r q))
          + Ideal.ofBits .f32 0x2EDBE6FF#32) := by
  unfold k1_pay6
  refine (Cert.KernelIdeal.MvnKernel.broadcastTo_a1_ab_apply _ _ q c).trans ?_
  refine (Cert.KernelIdeal.MvnKernel.shapeCast_a_a1_apply _ _ q (0 : Fin 1)).trans ?_
  refine (divf_apply _ _ _).trans ?_
  refine congrArg₂ Ideal.div ?_ ?_
  · refine (broadcast_apply _ _).trans ?_
    exact Cert.Lib.RealScalars.ofBits_one.trans EReal.coe_one
  · refine (addf_apply _ _ _).trans ?_
    refine congrArg₂ (fun x y : EReal => x + y) ?_ rfl
    exact multiReduction_add_col (a := 4096) (b := 512) _ _ _ _ _ q

/-- The logarithm of a vector, read at an index. -/
theorem log_apply {s : Shape} {φ : FTy} (x : FVec Ideal s φ) (i : s.Idx) : log x i = Ideal.log (x i) := rfl

/-- The column maximum, broadcast back over the rows, at (r, c): the fold of max from -∞ over the column's entries. -/
theorem colMax_apply (X : FVec Ideal S4096x8 .f32) (r : Fin 4096) (c : Fin 8) :
    (broadcastTo S4096x8 (shapeCast S1x8 (multiReduction .maximumf [0] S8 X 0xFF800000#32 reduces_S4096x8_S8 (.inl rfl) rfl) shapeCasts_S8_S1x8) broadcasts_S1x8_S4096x8) (ix2 r c)
      = (Finset.univ : Finset (Fin 4096)).fold max ⊥ (fun r' => X (ix2 r' c)) := by
  refine (broadcastTo_1b_ab_apply _ _ r c).trans ?_
  refine (shapeCast_a_1a_apply _ _ (0 : Fin 1) c).trans ?_
  refine (multiReduction_max_col (a := 4096) (b := 8) X _ _ _ _ c).trans ?_
  rw [ofBits_neg_inf]

/-- The column-wise log-softmax as the kernel computes it from a matrix X — subtract the column maximum, then the
    logarithm of the column's sum of exponentials of the differences — is the plain formula, at (r, c). -/
theorem logSoftmax_tail (X : FVec Ideal S4096x8 .f32) (x : Fin 4096 → Fin 8 → EReal)
    (hX : ∀ (r : Fin 4096) (c : Fin 8), X (ix2 r c) = x r c) (r : Fin 4096) (c : Fin 8) :
    subf (subf X (broadcastTo S4096x8 (shapeCast S1x8 (multiReduction .maximumf [0] S8 X 0xFF800000#32 reduces_S4096x8_S8 (.inl rfl) rfl) shapeCasts_S8_S1x8) broadcasts_S1x8_S4096x8))
        (broadcastTo S4096x8 (log (shapeCast S1x8 (multiReduction .add [0] S8
          (exp (subf X (broadcastTo S4096x8 (shapeCast S1x8 (multiReduction .maximumf [0] S8 X 0xFF800000#32 reduces_S4096x8_S8 (.inl rfl) rfl) shapeCasts_S8_S1x8) broadcasts_S1x8_S4096x8))) 0x00000000#32 reduces_S4096x8_S8 (.inl rfl) rfl) shapeCasts_S8_S1x8))
          broadcasts_S1x8_S4096x8) (ix2 r c)
      = GcnSpec.logSoftmaxCol x r c := by
  have hD : ∀ (r' : Fin 4096) (c' : Fin 8), subf X (broadcastTo S4096x8 (shapeCast S1x8 (multiReduction .maximumf [0] S8 X 0xFF800000#32 reduces_S4096x8_S8 (.inl rfl) rfl) shapeCasts_S8_S1x8) broadcasts_S1x8_S4096x8) (ix2 r' c')
      = x r' c' - (Finset.univ : Finset (Fin 4096)).fold max ⊥ (fun r'' => x r'' c') := by
    intro r' c'
    refine (subf_apply _ _ _).trans ?_
    have hM : (fun r'' : Fin 4096 => X (ix2 r'' c')) = fun r'' => x r'' c' := funext fun r'' => hX r'' c'
    rw [colMax_apply, hX, hM]
  refine (subf_apply _ _ _).trans ?_
  unfold GcnSpec.logSoftmaxCol
  refine congrArg₂ (fun a b : EReal => a - b) (hD r c) ?_
  refine (broadcastTo_1b_ab_apply _ _ r c).trans ?_
  refine (log_apply _ _).trans ?_
  refine congrArg Ideal.log ?_
  refine (shapeCast_a_1a_apply _ _ (0 : Fin 1) c).trans ?_
  refine (multiReduction_add_col (a := 4096) (b := 8) _ _ _ _ _ c).trans ?_
  refine Finset.sum_congr rfl fun r' _ => ?_
  refine (Cert.KernelIdeal.MvnKernel.exp_apply _ _).trans ?_
  exact congrArg Ideal.exp (hD r' c)

/-- The stored result: the column-wise log-softmax of the edge layer's output plus its bias, at (r, c). -/
theorem k1_pay2_apply (v45 : Vec Ideal S4096x8 .f32) (v46 : Vec Ideal S1x8 .f32) (r : Fin 4096) (c : Fin 8) :
    k1_pay2 (F := Ideal) v45 v46 (ix2 r c)
      = GcnSpec.logSoftmaxCol (fun r' c' => v45 (ix2 r' c') + v46 (ix2 (0 : Fin 1) c')) r c := by
  unfold k1_pay2
  refine logSoftmax_tail _ _ ?_ r c
  intro r' c'
  refine (addf_apply _ _ _).trans ?_
  refine congrArg (fun z => v45 (ix2 r' c') + z) ?_
  rw [shapeCast_self]
  exact broadcastTo_1b_ab_apply v46 _ r' c'

end Cert.KernelIdeal.Pay

end
-- ==== Proof.EdgeMath.lean ====
import proofs.«168662_g27230092657223_cont_9to1_1126_2_alg».proof.Proof.PayEdge
import proofs.«168662_g27230092657223_cont_9to1_1126_2_alg».proof.Proof.Spec
import proofs.«168662_g27230092657223_cont_9to1_1126_2_alg».proof.Proof.TileMath

/-!
# The edge kernel's arithmetic against the plain formulas

As for the node kernel: the vectors the body loads at a grid point agree with coordinate functions of the arrays;
the point's adjusted block is the adjusted adjacency at the tile's columns, the dense block is the dense map of the
clamped features at the tile's rows, the scale block the columns' scales, one accumulation step adds the tile's
partial sum, eight steps from zero give the aggregation, and the final step is the column-wise log-softmax of the
biased sum.
-/

noncomputable section

namespace Cert.KernelIdeal.EdgeMath

open Idealize.ShloMosaic Cert.KernelIdeal Cert.KernelIdeal.Gen ValueIdx GcnSpec Cert.KernelIdeal.Pay Cert.Lib.BlockSum
open scoped BigOperators

variable (T : Fin 1024 → Fin 4096 → EReal) (Z : Fin 4096 → Fin 16 → EReal) (adjE : Fin 4096 → Fin 4096 → EReal)
  (d : Fin 1024 → EReal) (w2 : Fin 16 → Fin 8 → EReal) (b2 : Fin 8 → EReal)

/-- The small constant added to a column's sum. -/
abbrev ε : EReal := Ideal.ofBits .f32 0x2EDBE6FF#32

/-- The edge layer's adjusted adjacency, for the weight vector `d`. -/
abbrev A2 : Fin 4096 → Fin 4096 → EReal := adjusted (edgeMultKer T d) adjE

/-- Column `q` of tile `t`. -/
def col (t : Fin 8) (q : Fin 512) : Fin 4096 := ⟨512 * t.val + q.val, by have := t.isLt; have := q.isLt; omega⟩

theorem col_eq_pos (t : Fin 8) (q : Fin 512) : col t q = pos 8 512 t q :=
  Fin.ext (by show 512 * t.val + q.val = t.val * 512 + q.val; omega)

section Point

variable (t : Fin 8) (i : grid1.Coords) (hi : (i 0).val = t.val)
  (v3 : Vec Ideal S1024x512 .f32) (h3 : ∀ n q, v3 (ix2 n q) = T n (col t q))
  (v4 : Vec Ideal S1024x1 .f32) (h4 : ∀ n, v4 (ix2 n (0 : Fin 1)) = d n)
  (v8 : Vec Ideal S4096x1024 .f32) (h8 : ∀ r n, v8 (ix2 r n) = T n r)
  (v17 : Vec Ideal S4096x512 .f32) (h17 : ∀ r q, v17 (ix2 r q) = adjE r (col t q))
  (v28 : Vec Ideal S512x16 .f32) (h28 : ∀ q a, v28 (ix2 q a) = Z (col t q) a)
  (v31 : Vec Ideal S16x8 .f32) (h31 : ∀ a c, v31 (ix2 a c) = w2 a c)

include hi h3 h4 h8 h17 in
/-- The point's adjusted block is the adjusted adjacency at the tile's columns. -/
theorem tile_adjusted (r : Fin 4096) (q : Fin 512) :
    k1_pay4 (F := Ideal) i v3 v4 v8 v17 v17 (ix2 r q) = A2 T adjE d r (col t q) := by
  rw [k1_pay4_apply]
  unfold A2 adjusted edgeMultKer
  have hd : (r.val = q.val + 512 * (i 0).val) ↔ r = col t q := by
    rw [hi]
    constructor
    · intro h; exact Fin.ext (by show r.val = 512 * t.val + q.val; omega)
    · intro h; rw [h]; show 512 * t.val + q.val = q.val + 512 * t.val; omega
  refine (if_congr hd (h17 r q) ?_)
  rw [h17 r q]
  refine congrArg (fun z => z * adjE r (col t q)) (Finset.sum_congr rfl fun n _ => ?_)
  rw [h8 r n, h3 n q, h4 n]

include h28 h31 in
/-- The point's dense block: the dense map of the clamped features at the tile's rows. -/
theorem tile_dense (q : Fin 512) (c : Fin 8) :
    k1_pay5 (F := Ideal) v28 v31 (ix2 q c) = dense (relu Z) w2 (col t q) c := by
  rw [k1_pay5_apply]
  unfold dense relu
  refine Finset.sum_congr rfl fun a _ => ?_
  rw [h28 q a, h31 a c]

include hi h3 h4 h8 h17 in
/-- The point's scale block: the scales of the tile's columns. -/
theorem tile_scale (q : Fin 512) (c : Fin 8) :
    k1_pay6 (F := Ideal) i v3 v4 v8 v17 v17 (ix2 q c) = colScale 1 ε (A2 T adjE d) (col t q) := by
  rw [k1_pay6_apply]
  unfold colScale
  refine congrArg (fun z => Ideal.div 1 (z + ε)) (Finset.sum_congr rfl fun r _ => ?_)
  exact tile_adjusted T adjE d t i hi v3 h3 v4 h4 v8 h8 v17 h17 r q

include hi h3 h4 h8 h17 h28 h31 in
/-- One accumulation step adds the tile's partial sum of the aggregation. -/
theorem tile_step (v36 : Vec Ideal S4096x8 .f32) (r : Fin 4096) (c : Fin 8) :
    k1_pay1 (F := Ideal) (k1_pay4 (F := Ideal) i v3 v4 v8 v17 v17) (k1_pay5 (F := Ideal) v28 v31)
        (k1_pay6 (F := Ideal) i v3 v4 v8 v17 v17) v36 (ix2 r c)
      = v36 (ix2 r c) + ∑ q : Fin 512, A2 T adjE d r (col t q)
          * (dense (relu Z) w2 (col t q) c * colScale 1 ε (A2 T adjE d) (col t q)) := by
  rw [k1_pay1_apply]
  refine congrArg (fun z => v36 (ix2 r c) + z) (Finset.sum_congr rfl fun q _ => ?_)
  rw [tile_adjusted T adjE d t i hi v3 h3 v4 h4 v8 h8 v17 h17 r q,
    tile_dense Z w2 t v28 h28 v31 h31 q c,
    tile_scale T adjE d t i hi v3 h3 v4 h4 v8 h8 v17 h17 q c]

end Point

/-- Eight accumulation steps from zero, each adding its tile's partial sum, then the bias: the aggregation. -/
theorem edge_out (acc : ℕ → EReal) (r : Fin 4096) (c : Fin 8) (h0 : acc 0 = 0)
    (hs : ∀ (n : ℕ) (hn : n < 8), acc (n + 1) = acc n + ∑ q : Fin 512, A2 T adjE d r (col ⟨n, hn⟩ q)
      * (dense (relu Z) w2 (col ⟨n, hn⟩ q) c * colScale 1 ε (A2 T adjE d) (col ⟨n, hn⟩ q))) :
    acc 8 + b2 c = aggKer 1 ε (A2 T adjE d) (dense (relu Z) w2) b2 r c := by
  refine aggKer_of_tiles 8 512 8 1 ε (A2 T adjE d) (dense (relu Z) w2) b2 r c acc h0 fun n hn => ?_
  rw [hs n hn]
  refine congrArg (fun z => acc n + z) (Finset.sum_congr rfl fun q _ => ?_)
  rw [col_eq_pos]

/-- The final step: the column-wise log-softmax of the biased sum. -/
theorem edge_result (v45 : Vec Ideal S4096x8 .f32) (v46 : Vec Ideal S1x8 .f32)
    (h45 : ∀ r c, v45 (ix2 r c) + b2 c = aggKer 1 ε (A2 T adjE d) (dense (relu Z) w2) b2 r c)
    (h46 : ∀ c, v46 (ix2 (0 : Fin 1) c) = b2 c) (r : Fin 4096) (c : Fin 8) :
    k1_pay2 (F := Ideal) v45 v46 (ix2 r c)
      = logSoftmaxCol (aggKer 1 ε (A2 T adjE d) (dense (relu Z) w2) b2) r c := by
  rw [k1_pay2_apply]
  refine congrArg (fun x => logSoftmaxCol x r c) ?_
  funext r' c'
  rw [h46 c', h45 r' c']

end Cert.KernelIdeal.EdgeMath

end
-- ==== Proof.EdgeGlue.lean ====
import proofs.«168662_g27230092657223_cont_9to1_1126_2_alg».proof.Proof.EdgeValue
import proofs.«168662_g27230092657223_cont_9to1_1126_2_alg».proof.Proof.EdgeMath
import proofs.«168662_g27230092657223_cont_9to1_1126_2_alg».proof.Proof.Blocks
import Idealize.ShloMosaic.Lib.Pipeline.Value

/-!
# The edge region's result array, from what its body leaves point by point

Given what the accumulator holds after each point as the body's payloads of the point's blocks (a recursion on the
point) and what the last point stores into the output window, the region's result array — one block, the whole
array, written back once, at the last point — holds the plain formula at every index.
-/

set_option maxRecDepth 16384

noncomputable section

namespace Cert.KernelIdeal.EdgeGlue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx GcnSpec Cert.KernelIdeal.Blocks Cert.KernelIdeal.EdgeMath

variable (V : (c : Dev nD) → (b : Ref sig .tc) → Buf (Elt Ideal) ((c : Thread nD τ).loc b)) (c : Dev nD)

/-- The grid is one axis: a point's coordinate is its number. -/
theorem coords_val : ∀ t : Fin cfg1.N, ((grid1.coords t) 0).val = t.val :=
  (by decide +kernel : ∀ t : Fin grid1.N, ((grid1.coords t) 0).val = t.val)

theorem ltN {n : ℕ} (hn : n < cfg1.N) : n < 8 := lt_of_lt_of_eq hn (show cfg1.N = 8 from N_1)

/-- The last point. -/
abbrev tl : Fin cfg1.N := ⟨7, by rw [show cfg1.N = 8 from N_1]; decide⟩

/-- The output window's block is its whole array: an index of the array is in the last point's block. -/
theorem mem_out (i : S4096x8.Idx) : i ∈ ((cfg1.win 7).blk tl).view.set := by
  show i ∈ ((View.whole main_v4).slice (win1_7.rect tl)).set
  rw [View.set_slice_whole, Rect.mem_set_unit]
  intro a
  match a with
  | ⟨0, _⟩ =>
    show win1_7.index tl (0 : Fin 2) * 4096 ≤ (i 0).val ∧ (i 0).val < win1_7.index tl (0 : Fin 2) * 4096 + 4096
    rw [(idx1_7 tl).1]; have := idx2_lt0 i; omega
  | ⟨1, _⟩ =>
    show win1_7.index tl (1 : Fin 2) * 8 ≤ (i 1).val ∧ (i 1).val < win1_7.index tl (1 : Fin 2) * 8 + 8
    rw [(idx1_7 tl).2]; have := idx2_lt1 i; omega

/-- The region's result array is what the last point leaves in the output window's buffer. -/
theorem arrAt_out (G : S4096x8.Idx → EReal)
    (hG : ∀ (p : Fin 4096) (q : Fin 8), ((Edge.dat V c).after 7 tl : S4096x8.Idx → EReal) (ix2 p q) = G (ix2 p q)) :
    ((Edge.dat V c).arrAt 7 cfg1.N : S4096x8.Idx → EReal) = G := by
  refine (Edge.dat V c).arrAt_eq_of_cover 7 G (fun t ht => ?_) (fun i => ⟨tl, (flush1_7 tl).mpr (by decide), mem_out i⟩)
  have htl : t = tl := Fin.ext (by have h := (flush1_7 t).mp ht; have := ltN t.isLt; show t.val = 7; omega)
  subst htl
  show (cfg1.win 7).cut (grid1.coords tl) ((Edge.dat V c).after 7 tl) = _
  funext y
  obtain ⟨p, q, rfl⟩ : ∃ (p : Fin 4096) (q : Fin 8), y = ix2 p q := ⟨y 0, y 1, eq_ix2 y⟩
  exact (hG p q).trans (blk1_7 (F := Ideal) c tl G p q).symm

section Values

variable (T : Fin 1024 → Fin 4096 → EReal) (Z : Fin 4096 → Fin 16 → EReal) (adjE : Fin 4096 → Fin 4096 → EReal)
  (d : Fin 1024 → EReal) (w2 : Fin 16 → Fin 8 → EReal) (b2 : Fin 8 → EReal)
  (hT : ∀ n j, (V c main_arg4 : S1024x4096.Idx → EReal) (ix2 n j) = T n j)
  (hTt : ∀ r n, (V c main_v0 : S4096x1024.Idx → EReal) (ix2 r n) = T n r)
  (hAdj : ∀ i j, (V c main_arg2 : S4096x4096.Idx → EReal) (ix2 i j) = adjE i j)
  (hZ : ∀ e a, (V c main_arg1 : S4096x16.Idx → EReal) (ix2 e a) = Z e a)
  (hw2 : ∀ a k, (V c main_arg8 : S16x8.Idx → EReal) (ix2 a k) = w2 a k)
  (hb2 : ∀ k, (V c main_v3 : S1x8.Idx → EReal) (ix2 (0 : Fin 1) k) = b2 k)
  (hd : ∀ n, (V c main_v2 : S1024x1.Idx → EReal) (ix2 n (0 : Fin 1)) = d n)

/-- The tile of a point. -/
abbrev tileOf (t : Fin cfg1.N) : Fin 8 := ⟨t.val, ltN t.isLt⟩

include hT hTt hAdj hw2 hd in
/-- One point's accumulation step, at the point's blocks. -/
theorem step_at (t : Fin cfg1.N) (sl : Vec Ideal S512x16 .f32)
    (hsl : ∀ q a, sl (ix2 q a) = Z (col (tileOf t) q) a) (v36 : Vec Ideal S4096x8 .f32) (r : Fin 4096) (k : Fin 8) :
    k1_pay1 (F := Ideal)
        (k1_pay4 (F := Ideal) (grid1.coords t) (Edge.iblk V c 1 t) (Edge.iblk V c 6 t) (Edge.iblk V c 0 t) (Edge.iblk V c 2 t) (Edge.iblk V c 2 t))
        (k1_pay5 (F := Ideal) sl (Edge.iblk V c 4 t))
        (k1_pay6 (F := Ideal) (grid1.coords t) (Edge.iblk V c 1 t) (Edge.iblk V c 6 t) (Edge.iblk V c 0 t) (Edge.iblk V c 2 t) (Edge.iblk V c 2 t))
        v36 (ix2 r k)
      = v36 (ix2 r k) + ∑ q : Fin 512, A2 T adjE d r (col (tileOf t) q)
          * (dense (relu Z) w2 (col (tileOf t) q) k * colScale 1 ε (A2 T adjE d) (col (tileOf t) q)) :=
  tile_step T Z adjE d w2 (tileOf t) (grid1.coords t) (coords_val t)
    (Edge.iblk V c 1 t) (fun n q => (blk1_1 (F := Ideal) c t _ n q).trans (hT n _))
    (Edge.iblk V c 6 t) (fun n => (blk1_6 (F := Ideal) c t _ n (0 : Fin 1)).trans (hd n))
    (Edge.iblk V c 0 t) (fun r n => (blk1_0 (F := Ideal) c t _ r n).trans (hTt r n))
    (Edge.iblk V c 2 t) (fun r q => (blk1_2 (F := Ideal) c t _ r q).trans (hAdj r _))
    sl hsl
    (Edge.iblk V c 4 t) (fun a k => (blk1_4 (F := Ideal) c t _ a k).trans (hw2 a k))
    v36 r k

include hT hTt hAdj hw2 hb2 hd in
/-- THE EDGE REGION'S RESULT: given the slice of the features each point loads, what the accumulator holds after each
    point and what the last point stores, the result array holds the column-wise log-softmax of the aggregation. -/
theorem edge_value_of
    (sl : Fin cfg1.N → Vec Ideal S512x16 .f32)
    (hsl : ∀ t q a, sl t (ix2 q a) = Z (col (tileOf t) q) a)
    (acc : (n : ℕ) → n < cfg1.N → Vec Ideal S4096x8 .f32)
    (hacc0 : ∀ h : 0 < cfg1.N, acc 0 h = k1_pay1 (F := Ideal)
      (k1_pay4 (F := Ideal) (grid1.coords ⟨0, h⟩) (Edge.iblk V c 1 ⟨0, h⟩) (Edge.iblk V c 6 ⟨0, h⟩) (Edge.iblk V c 0 ⟨0, h⟩) (Edge.iblk V c 2 ⟨0, h⟩) (Edge.iblk V c 2 ⟨0, h⟩))
      (k1_pay5 (F := Ideal) (sl ⟨0, h⟩) (Edge.iblk V c 4 ⟨0, h⟩))
      (k1_pay6 (F := Ideal) (grid1.coords ⟨0, h⟩) (Edge.iblk V c 1 ⟨0, h⟩) (Edge.iblk V c 6 ⟨0, h⟩) (Edge.iblk V c 0 ⟨0, h⟩) (Edge.iblk V c 2 ⟨0, h⟩) (Edge.iblk V c 2 ⟨0, h⟩))
      (k1_pay3 (F := Ideal)))
    (haccS : ∀ (n : ℕ) (h : n + 1 < cfg1.N), acc (n + 1) h = k1_pay1 (F := Ideal)
      (k1_pay4 (F := Ideal) (grid1.coords ⟨n + 1, h⟩) (Edge.iblk V c 1 ⟨n + 1, h⟩) (Edge.iblk V c 6 ⟨n + 1, h⟩) (Edge.iblk V c 0 ⟨n + 1, h⟩) (Edge.iblk V c 2 ⟨n + 1, h⟩) (Edge.iblk V c 2 ⟨n + 1, h⟩))
      (k1_pay5 (F := Ideal) (sl ⟨n + 1, h⟩) (Edge.iblk V c 4 ⟨n + 1, h⟩))
      (k1_pay6 (F := Ideal) (grid1.coords ⟨n + 1, h⟩) (Edge.iblk V c 1 ⟨n + 1, h⟩) (Edge.iblk V c 6 ⟨n + 1, h⟩) (Edge.iblk V c 0 ⟨n + 1, h⟩) (Edge.iblk V c 2 ⟨n + 1, h⟩) (Edge.iblk V c 2 ⟨n + 1, h⟩))
      (acc n (Nat.lt_of_succ_lt h)))
    (hout : ((Edge.dat V c).after 7 tl : S4096x8.Idx → EReal)
      = k1_pay2 (F := Ideal) (acc 7 tl.isLt) (Edge.iblk V c 5 tl))
    (e : Fin 4096) (k : Fin 8) :
    ((Edge.dat V c).arrAt 7 cfg1.N : S4096x8.Idx → EReal) (ix2 e k)
      = logSoftmaxCol (aggKer 1 ε (A2 T adjE d) (dense (relu Z) w2) b2) e k := by
  have hedge : ∀ (r : Fin 4096) (k : Fin 8), acc 7 tl.isLt (ix2 r k) + b2 k = aggKer 1 ε (A2 T adjE d) (dense (relu Z) w2) b2 r k := by
    intro r k
    let a : ℕ → EReal := fun n => match n with
      | 0 => 0
      | n + 1 => if h : n < cfg1.N then acc n h (ix2 r k) else 0
    have ha : ∀ (n : ℕ) (h : n < cfg1.N), a (n + 1) = acc n h (ix2 r k) := fun n h => dif_pos h
    have h8 : a 8 = acc 7 tl.isLt (ix2 r k) := ha 7 tl.isLt
    rw [← h8]
    refine edge_out T Z adjE d w2 b2 a r k rfl fun n hn => ?_
    have hN : n < cfg1.N := lt_of_lt_of_eq hn (show 8 = cfg1.N from N_1.symm)
    rw [ha n hN]
    cases n with
    | zero =>
      rw [hacc0 hN, step_at V c T Z adjE d w2 hT hTt hAdj hw2 hd ⟨0, hN⟩ (sl ⟨0, hN⟩) (hsl ⟨0, hN⟩) _ r k,
        Cert.KernelIdeal.Pay.k1_pay3_apply]
    | succ n =>
      rw [haccS n hN, step_at V c T Z adjE d w2 hT hTt hAdj hw2 hd ⟨n + 1, hN⟩ (sl ⟨n + 1, hN⟩) (hsl ⟨n + 1, hN⟩) _ r k,
        ha n (Nat.lt_of_succ_lt hN)]
  have hfin := arrAt_out V c (fun i => logSoftmaxCol (aggKer 1 ε (A2 T adjE d) (dense (relu Z) w2) b2) ⟨(i 0).val, idx2_lt0 i⟩ ⟨(i 1).val, idx2_lt1 i⟩) (fun p q => by
    rw [hout]
    exact edge_result T Z adjE d w2 b2 (acc 7 tl.isLt) (Edge.iblk V c 5 tl) hedge
      (fun k => (blk1_5 (F := Ideal) c tl _ (0 : Fin 1) k).trans (hb2 k)) p q)
  exact congrFun hfin (ix2 e k)

include hZ in
/-- The slice of the features a point loads is the features at the tile's rows. -/
theorem slice_feat (t : Fin cfg1.N) (q : Fin 512) (a : Fin 16) :
    Edge.slice3 V c t (ix2 q a) = Z (col (tileOf t) q) a := by
  rw [Edge.slice3_apply]
  have hidx : (Rect.unit (s := S4096x16) (k1_off1 (grid1.coords t)) S512x16.size (k1_off1_inb (grid1.coords t))).idx (ix2 q a)
      = ix2 (col (tileOf t) q) a := by
    funext b
    refine Fin.ext ?_
    match b with
    | ⟨0, _⟩ =>
      refine (Edge.slice3_idx t (ix2 q a) 0).trans ?_
      rw [congrFun (k1_off1_eq (grid1.coords t)) 0]
      show 512 * ((grid1.coords t) 0).val + 1 * q.val = 512 * t.val + q.val
      rw [coords_val t, Nat.one_mul]
    | ⟨1, _⟩ =>
      refine (Edge.slice3_idx t (ix2 q a) 1).trans ?_
      rw [congrFun (k1_off1_eq (grid1.coords t)) 1]
      show 0 + 1 * a.val = a.val
      rw [Nat.one_mul, Nat.zero_add]
  rw [hidx]
  exact (blk1_3 (F := Ideal) c t _ (col (tileOf t) q) a).trans (hZ _ a)

include hT hTt hAdj hZ hw2 hb2 hd in
/-- THE EDGE REGION'S RESULT ARRAY holds the column-wise log-softmax of the aggregation. -/
theorem edge_value (e : Fin 4096) (k : Fin 8) :
    ((Edge.dat V c).arrAt 7 cfg1.N : S4096x8.Idx → EReal) (ix2 e k)
      = logSoftmaxCol (aggKer 1 ε (A2 T adjE d) (dense (relu Z) w2) b2) e k :=
  edge_value_of V c T Z adjE d w2 b2 hT hTt hAdj hw2 hb2 hd
    (Edge.slice3 V c) (slice_feat V c Z hZ)
    (Edge.acc V c) (fun h => Edge.acc_zero V c h) (fun n h => Edge.acc_succ V c n h)
    (Edge.after_out V c) e k

end Values

end Cert.KernelIdeal.EdgeGlue

end
-- ==== Proof.KernelValue.lean ====
import proofs.«168662_g27230092657223_cont_9to1_1126_2_alg».proof.Proof.Assembly
import proofs.«168662_g27230092657223_cont_9to1_1126_2_alg».proof.Proof.NodeGlue
import proofs.«168662_g27230092657223_cont_9to1_1126_2_alg».proof.Proof.EdgeGlue
import Idealize.ShloMosaic.Lib.ValueLayout
import Idealize.ShloMosaic.Lib.StableHlo.Run

/-!
# The program's result at the exact-real instance

The node region is entered with the arguments as launched, the incidence matrix transposed and the first bias as a
row; it leaves the edge layer's weight vector in its result array. The edge region is entered with the same, that
vector and the second bias as a row; its result array ends at the column-wise log-softmax of the edge layer's
output: the network's result in the tiled association.
-/

noncomputable section

namespace Cert.KernelIdeal.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx GcnSpec Cert.KernelIdeal.Whole Idealize.ShloMosaic.StableHlo

variable (m : (ℓ : Loc nD τ sig) → Buf (Elt Ideal) ℓ) (c : Dev nD)

/-! ## The arguments as coordinate functions -/

abbrev aX : Fin 1024 → Fin 128 → EReal := fun i a => (m ((c : Thread nD τ).loc main_arg0) : S1024x128.Idx → EReal) (ix2 i a)
abbrev aZ : Fin 4096 → Fin 16 → EReal := fun e a => (m ((c : Thread nD τ).loc main_arg1) : S4096x16.Idx → EReal) (ix2 e a)
abbrev aAdjE : Fin 4096 → Fin 4096 → EReal := fun i j => (m ((c : Thread nD τ).loc main_arg2) : S4096x4096.Idx → EReal) (ix2 i j)
abbrev aAdjV : Fin 1024 → Fin 1024 → EReal := fun i j => (m ((c : Thread nD τ).loc main_arg3) : S1024x1024.Idx → EReal) (ix2 i j)
abbrev aT : Fin 1024 → Fin 4096 → EReal := fun i e => (m ((c : Thread nD τ).loc main_arg4) : S1024x4096.Idx → EReal) (ix2 i e)
abbrev aW1 : Fin 128 → Fin 64 → EReal := fun a k => (m ((c : Thread nD τ).loc main_arg5) : S128x64.Idx → EReal) (ix2 a k)
abbrev aB1 : Fin 64 → EReal := fun k => (m ((c : Thread nD τ).loc main_arg6) : S64.Idx → EReal) (ix1 k)
abbrev aP1 : Fin 16 → EReal := fun a => (m ((c : Thread nD τ).loc main_arg7) : S1x16.Idx → EReal) (ix2 (0 : Fin 1) a)
abbrev aW2 : Fin 16 → Fin 8 → EReal := fun a k => (m ((c : Thread nD τ).loc main_arg8) : S16x8.Idx → EReal) (ix2 a k)
abbrev aB2 : Fin 8 → EReal := fun k => (m ((c : Thread nD τ).loc main_arg9) : S8.Idx → EReal) (ix1 k)
abbrev aP2 : Fin 64 → EReal := fun k => (m ((c : Thread nD τ).loc main_arg10) : S1x64.Idx → EReal) (ix2 (0 : Fin 1) k)

/-! ## What the host stretches write -/

theorem V1_v0 : (W1 m c (Proc.devRef .tc main_v0) : S4096x1024.Idx → EReal)
    = transpose S4096x1024 [1, 0] (m ((c : Thread nD τ).loc main_arg4)) transposes_S1024x4096_S4096x1024_1_0 := by
  show (StableHlo.after hostOps0 (fun b => m ((c : Dev nD), b)) (Proc.devRef .tc main_v0) : S4096x1024.Idx → EReal) = _
  after_results <;> rfl

theorem V1_v1 : (W1 m c (Proc.devRef .tc main_v1) : S1x64.Idx → EReal)
    = shapeCast S1x64 (m ((c : Thread nD τ).loc main_arg6)) shapeCasts_S64_S1x64 := by
  show (StableHlo.after hostOps0 (fun b => m ((c : Dev nD), b)) (Proc.devRef .tc main_v1) : S1x64.Idx → EReal) = _
  after_results <;> rfl

theorem V3_v3 : (W3 m c (Proc.devRef .tc main_v3) : S1x8.Idx → EReal)
    = shapeCast S1x8 (W2 m c (Proc.devRef .tc main_arg9)) shapeCasts_S8_S1x8 := by
  show (StableHlo.after hostOps1 (W2 m c) (Proc.devRef .tc main_v3) : S1x8.Idx → EReal) = _
  after_results <;> rfl

/-- The transposed incidence matrix the node region finds. -/
theorem V1_Tt (e : Fin 4096) (n : Fin 1024) : (V1 m c main_v0 : S4096x1024.Idx → EReal) (ix2 e n) = aT m c n e := by
  show (W1 m c (Proc.devRef .tc main_v0) : S4096x1024.Idx → EReal) (ix2 e n) = _
  rw [V1_v0]
  exact transpose_ix2_apply _ _ e n

/-- The first bias as a row. -/
theorem V1_b1 (k : Fin 64) : (V1 m c main_v1 : S1x64.Idx → EReal) (ix2 (0 : Fin 1) k) = aB1 m c k := by
  show (W1 m c (Proc.devRef .tc main_v1) : S1x64.Idx → EReal) (ix2 (0 : Fin 1) k) = _
  rw [V1_v1]
  exact shapeCast_a_1a_apply _ _ (0 : Fin 1) k

/-- An argument as the node region finds it. -/
theorem V1_arg (b : Ref sig .tc) (h : b ∉ ([main_v0, main_v1] : List (Ref sig .tc))) : V1 m c b = m ((c : Thread nD τ).loc b) :=
  W1_keep m c b h
/-- An argument as the edge region finds it. -/
theorem V3_arg (b : Ref sig .tc) (h0 : b ∉ ([main_v0, main_v1] : List (Ref sig .tc))) (h2 : b ≠ main_v2)
    (h3 : b ∉ ([main_v3] : List (Ref sig .tc))) : V3 m c b = m ((c : Thread nD τ).loc b) :=
  (V3_keep m c b h2 h3).trans (W1_keep m c b h0)

/-- The second bias as a row. -/
theorem V3_b2 (k : Fin 8) : (V3 m c main_v3 : S1x8.Idx → EReal) (ix2 (0 : Fin 1) k) = aB2 m c k := by
  show (W3 m c (Proc.devRef .tc main_v3) : S1x8.Idx → EReal) (ix2 (0 : Fin 1) k) = _
  rw [V3_v3]
  refine (shapeCast_a_1a_apply _ _ (0 : Fin 1) k).trans ?_
  exact congrFun ((W2_keep m c main_arg9 (by decide)).trans (W1_keep m c main_arg9 (by decide))) (ix1 k)

/-- The transposed incidence matrix the edge region finds. -/
theorem V3_Tt (e : Fin 4096) (n : Fin 1024) : (V3 m c main_v0 : S4096x1024.Idx → EReal) (ix2 e n) = aT m c n e :=
  (congrFun (V3_keep m c main_v0 (by decide) (by decide)) (ix2 e n)).trans (V1_Tt m c e n)

/-! ## The two regions' results -/

/-- The node region leaves the edge layer's weight vector. -/
theorem node_result (r : Fin 1024) :
    ((Node.dat (V1 m) c).arrAt 9 cfg0.N : S1024x1.Idx → EReal) (ix2 r (0 : Fin 1))
      = edgeWeightKer 1 (Ideal.ofBits .f32 0x2EDBE6FF#32) (aX m c) (aZ m c) (aAdjV m c) (aT m c) (aW1 m c) (aB1 m c) (aP1 m c) (aP2 m c) r :=
  NodeGlue.node_value (V1 m) c (aT m c) (aZ m c) (aAdjV m c) (aX m c) (aW1 m c) (aB1 m c) (aP1 m c) (aP2 m c)
    (fun i e => congrFun (V1_arg m c main_arg4 (by decide)) (ix2 i e))
    (fun e n => V1_Tt m c e n)
    (fun i j => congrFun (V1_arg m c main_arg3 (by decide)) (ix2 i j))
    (fun i a => congrFun (V1_arg m c main_arg0 (by decide)) (ix2 i a))
    (fun e a => congrFun (V1_arg m c main_arg1 (by decide)) (ix2 e a))
    (fun a k => congrFun (V1_arg m c main_arg5 (by decide)) (ix2 a k))
    (fun k => V1_b1 m c k)
    (fun a => congrFun (V1_arg m c main_arg7 (by decide)) (ix2 (0 : Fin 1) a))
    (fun k => congrFun (V1_arg m c main_arg10 (by decide)) (ix2 (0 : Fin 1) k))
    r

/-- The program's result array ends at the network's result, tiled association. -/
theorem kernel_result (e : Fin 4096) (k : Fin 8) :
    ((Edge.dat (V3 m) c).arrAt 7 cfg1.N : S4096x8.Idx → EReal) (ix2 e k)
      = resultKer 1 (Ideal.ofBits .f32 0x2EDBE6FF#32) (aX m c) (aZ m c) (aAdjE m c) (aAdjV m c) (aT m c) (aW1 m c) (aB1 m c) (aP1 m c)
          (aW2 m c) (aB2 m c) (aP2 m c) e k :=
  EdgeGlue.edge_value (V3 m) c (aT m c) (aZ m c) (aAdjE m c)
    (edgeWeightKer 1 (Ideal.ofBits .f32 0x2EDBE6FF#32) (aX m c) (aZ m c) (aAdjV m c) (aT m c) (aW1 m c) (aB1 m c) (aP1 m c) (aP2 m c))
    (aW2 m c) (aB2 m c)
    (fun n j => congrFun (V3_arg m c main_arg4 (by decide) (by decide) (by decide)) (ix2 n j))
    (fun r n => V3_Tt m c r n)
    (fun i j => congrFun (V3_arg m c main_arg2 (by decide) (by decide) (by decide)) (ix2 i j))
    (fun e a => congrFun (V3_arg m c main_arg1 (by decide) (by decide) (by decide)) (ix2 e a))
    (fun a k => congrFun (V3_arg m c main_arg8 (by decide) (by decide) (by decide)) (ix2 a k))
    (fun k => V3_b2 m c k)
    (fun n => (congrFun (V3_node_result m c) (ix2 n (0 : Fin 1))).trans (node_result m c n))
    e k

end Cert.KernelIdeal.KernelValue

end
-- ==== Proof.RefLemmas.lean ====
/-
  Scalar and fold facts on the extended reals used when the plain formulation is read at an index: the identity
  mask's entry as a number, the masked combination that leaves the diagonal alone, the word of −∞, and a column
  maximum of a 4096 × 8 array as a fold over the row coordinate.
-/
import proofs.«168662_g27230092657223_cont_9to1_1126_2_alg».proof.Proof.Spec
import proofs.«168662_g27230092657223_cont_9to1_1126_2_alg».proof.Proof.LibRealScalars
import Idealize.ShloMosaic.Lib.ValueIdx
import Idealize.ShloMosaic.Lib.Pipeline.Value
import Idealize.ShloMosaic.PureOps.Ideal.Laws

noncomputable section

namespace Cert.ReferenceIdeal.RefLemmas

open Idealize.ShloMosaic Idealize.ShloMosaic.ValueIdx
open scoped BigOperators

/-- The identity mask's entry: the comparison of the two coordinates (the first with the zero word added), converted
    to a number, is 1 on the diagonal and 0 off it. Both coordinates are below 4096, so their 32-bit words differ
    when they do. -/
theorem mask_word (p q : Nat) (hp : p < 4096) (hq : q < 4096) :
    FloatOps.uitofp (F := Ideal) .f32 (IntOp.cmpi .eq (IntOp.addi (BitVec.ofNat 32 p) 0#32) (BitVec.ofNat 32 q))
      = if p = q then (1 : EReal) else 0 := by
  have h0 : IntOp.addi (BitVec.ofNat 32 p) 0#32 = BitVec.ofNat 32 p := by simp [IntOp.addi]
  rw [h0]
  show (((IntOp.cmpi .eq (BitVec.ofNat 32 p) (BitVec.ofNat 32 q)).toNat : ℝ) : EReal) = _
  by_cases h : p = q
  · subst h
    rw [if_pos rfl]
    simp [IntOp.cmpi]
  · rw [if_neg h]
    have hne : BitVec.ofNat 32 p ≠ BitVec.ofNat 32 q := by
      intro hh
      have := congrArg BitVec.toNat hh
      simp only [BitVec.toNat_ofNat] at this
      omega
    simp [IntOp.cmpi, hne]

/-- The masked combination: mask · 1 + (1 − mask) · m, times a, is a on the diagonal and m · a off it. -/
theorem adjust_scalar (p q : Nat) (hp : p < 4096) (hq : q < 4096) (m a : EReal) :
    (FloatOps.uitofp (F := Ideal) .f32 (IntOp.cmpi .eq (IntOp.addi (BitVec.ofNat 32 p) 0#32) (BitVec.ofNat 32 q))
          * Ideal.ofBits .f32 0x3F800000#32
        + (Ideal.ofBits .f32 0x3F800000#32
            - FloatOps.uitofp (F := Ideal) .f32 (IntOp.cmpi .eq (IntOp.addi (BitVec.ofNat 32 p) 0#32) (BitVec.ofNat 32 q))) * m) * a
      = if p = q then a else m * a := by
  rw [mask_word p q hp hq, Cert.Lib.RealScalars.ofBits_one, EReal.coe_one]
  by_cases h : p = q
  · rw [if_pos h, if_pos h]
    have h1 : (1 : EReal) - 1 = 0 := by
      rw [← EReal.coe_one, ← EReal.coe_sub, sub_self, EReal.coe_zero]
    rw [h1, zero_mul, one_mul, add_zero, one_mul]
  · rw [if_neg h, if_neg h, zero_mul, zero_add, sub_zero, one_mul]

/-- The word of −∞. -/
theorem ofBits_neg_inf : Ideal.ofBits .f32 0xFF800000#32 = (⊥ : EReal) := by
  simp [Ideal.ofBits, Ideal.ieee]

/-- A column maximum of a 4096 × 8 array, as the fold of max over the row coordinate. -/
theorem colmax_fold (y : (⟨2, ![4096, 8]⟩ : Shape).Idx → EReal) (init : (⟨0, ![]⟩ : Shape).Idx → EReal)
    (h' : Shape.ReducesTo ⟨2, ![4096, 8]⟩ [0] ⟨1, ![8]⟩) (hu : 0 < (⟨0, ![]⟩ : Shape).numel) (c : Fin 8) :
    Host.reduce (FloatOps.maximumf (F := Ideal) (φ := .f32)) y init h' hu (ix1 c)
      = (Finset.univ : Finset (Fin 4096)).fold max (init (Shape.Idx.first hu)) (fun r => y (ix2 r c)) := by
  have h : Shape.Reduces ⟨2, ![4096, 8]⟩ [0] ⟨1, ![8]⟩ := by decide
  refine (Host.reduce_eq_fold_single _ y init h' h hu (ix1 c)).trans ?_
  exact Finset.fold_congr (fun k _ => congrArg y (funext fun a => Fin.ext (by
    match a with
    | ⟨0, _⟩ => rfl
    | ⟨1, _⟩ => rfl)))

end Cert.ReferenceIdeal.RefLemmas

end
-- ==== Proof.RefValue.lean ====
/-
  The plain formulation read at an index: each stage of the two graph-convolution layers and of the column-wise
  log-softmax, read at explicit coordinates, is the corresponding index-level formula of the specification.
-/
import proofs.«168662_g27230092657223_cont_9to1_1126_2_alg».proof.Proof.RefReadP
import proofs.«168662_g27230092657223_cont_9to1_1126_2_alg».proof.Proof.RefLemmas
import proofs.«168662_g27230092657223_cont_9to1_1126_2_alg».proof.Proof.Spec
import proofs.«168662_g27230092657223_cont_9to1_1126_2_alg».proof.Proof.LibRealScalars
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

section Stages

variable (x0 : (⟨S1024x128, .f32⟩ : BufTy).Contents (Elt Ideal)) (x1 : (⟨S4096x16, .f32⟩ : BufTy).Contents (Elt Ideal))
  (x2 : (⟨S4096x4096, .f32⟩ : BufTy).Contents (Elt Ideal)) (x3 : (⟨S1024x1024, .f32⟩ : BufTy).Contents (Elt Ideal))
  (x4 : (⟨S1024x4096, .f32⟩ : BufTy).Contents (Elt Ideal)) (x5 : (⟨S128x64, .f32⟩ : BufTy).Contents (Elt Ideal))
  (x6 : (⟨S64, .f32⟩ : BufTy).Contents (Elt Ideal)) (x7 : (⟨S1x16, .f32⟩ : BufTy).Contents (Elt Ideal))
  (x8 : (⟨S16x8, .f32⟩ : BufTy).Contents (Elt Ideal)) (x9 : (⟨S8, .f32⟩ : BufTy).Contents (Elt Ideal))
  (x10 : (⟨S1x64, .f32⟩ : BufTy).Contents (Elt Ideal))

/-! ## The node layer -/

/-- The node layer's weight vector: the edge features contracted with the first projection. -/
theorem d1_at (e : Fin 4096) :
    val_main_v2 (F := Ideal) x1 x7 (ix1 e) = (GcnSpec.contract (fun i a => x1 (ix2 i a)) (fun a => x7 (ix2 0 a))) e := by
  rw [val_main_v2_apply, val_main_v1_apply]
  unfold GcnSpec.contract
  refine Finset.sum_congr rfl fun k _ => ?_
  rw [val_main_v0_apply]
  have e1 : lidx_main_v1 (idx_main_v2 (ix1 e)) k = ix2 e k :=
    funext fun a => Fin.ext (by match a with | ⟨0, _⟩ => exact Nat.div_one _ | ⟨1, _⟩ => rfl)
  have e2 : idx_main_v0 (ridx_main_v1 (idx_main_v2 (ix1 e)) k) = ix2 0 k := funext fun a => Fin.ext (by match a with | ⟨0, _⟩ => rfl | ⟨1, _⟩ => rfl)
  rw [e1, e2]

/-- The node multiplier Σₑ (T i e · d e) · T j e. -/
theorem v7_at (i j : Fin 1024) :
    val_main_v7 (F := Ideal) x1 x4 x7 (ix2 i j) = (GcnSpec.nodeMultRef (fun i j => x4 (ix2 i j)) (GcnSpec.contract (fun i a => x1 (ix2 i a)) (fun a => x7 (ix2 0 a)))) i j := by
  rw [val_main_v7_apply]
  unfold GcnSpec.nodeMultRef
  refine Finset.sum_congr rfl fun k _ => ?_
  rw [val_main_v5_apply, val_main_v4_apply, val_main_v3_apply, val_main_v6_apply]
  have e1 : lidx_main_v7 (ix2 i j) k = ix2 i k := funext fun a => Fin.ext (by match a with | ⟨0, _⟩ => rfl | ⟨1, _⟩ => rfl)
  have e2 : idx_main_v3 (idx_main_v4 (lidx_main_v7 (ix2 i j) k)) = ix1 k := funext fun a => Fin.ext (by match a with | ⟨0, _⟩ => rfl)
  have e3 : idx_main_v6 (ridx_main_v7 (ix2 i j) k) = ix2 j k := funext fun a => Fin.ext (by match a with | ⟨0, _⟩ => rfl | ⟨1, _⟩ => rfl)
  rw [e2, e1, e3, d1_at]
  rfl

/-- The adjusted adjacency of the node layer: the identity mask keeps the diagonal, the multiplier scales the rest. -/
theorem v22_at (i j : Fin 1024) :
    val_main_v22 (F := Ideal) x1 x3 x4 x7 (ix2 i j) = (GcnSpec.adjusted (GcnSpec.nodeMultRef (fun i j => x4 (ix2 i j)) (GcnSpec.contract (fun i a => x1 (ix2 i a)) (fun a => x7 (ix2 0 a)))) (fun i j => x3 (ix2 i j))) i j := by
  rw [val_main_v22_apply, val_main_v21_apply, val_main_v17_apply, val_main_v20_apply, val_main_v19_apply,
    val_main_v13_apply, val_main_v12_apply, val_main_v11_apply, val_main_v8_apply, val_main_v9_apply,
    val_main_v10_apply, val_main_c_apply, val_main_v16_apply, val_main_v15_apply, val_main_v14_apply,
    val_main_cst_apply, val_main_v18_apply, val_main_cst_0_apply, v7_at]
  simp only [Ideal.ofBits_def, Ideal.addf_def, Ideal.mulf_def, Ideal.subf_def]
  refine (RefLemmas.adjust_scalar i.val j.val (by omega) (by omega) _ _).trans ?_
  unfold GcnSpec.adjusted
  by_cases h : i = j
  · rw [if_pos h, if_pos (congrArg Fin.val h)]
  · rw [if_neg h, if_neg (fun hh => h (Fin.ext hh))]

/-- The node layer's column scale: the reciprocal of the column's sum plus the small constant. -/
theorem v27_at (j : Fin 1024) :
    val_main_v27 (F := Ideal) x1 x3 x4 x7 (ix1 j) = GcnSpec.colScale (1 : EReal) (Ideal.ofBits .f32 0x2EDBE6FF#32) (GcnSpec.adjusted (GcnSpec.nodeMultRef (fun i j => x4 (ix2 i j)) (GcnSpec.contract (fun i a => x1 (ix2 i a)) (fun a => x7 (ix2 0 a)))) (fun i j => x3 (ix2 i j))) j := by
  rw [val_main_v27_apply, val_main_v26_apply, val_main_cst_3_apply, val_main_v25_apply, val_main_v24_apply,
    val_main_cst_2_apply, val_main_v23_apply, val_main_cst_1_apply]
  simp only [Ideal.ofBits_def, Ideal.addf_def, Ideal.hostDivf_def]
  rw [Ideal.ofBits_zero_f32, zero_add, Cert.Lib.RealScalars.ofBits_one, EReal.coe_one]
  unfold GcnSpec.colScale
  refine congrArg (fun s => Ideal.div 1 (s + _)) (Finset.sum_congr rfl fun k _ => ?_)
  have e1 : idx_main_v23 (ix1 j) k = ix2 k j := funext fun a => Fin.ext (by match a with | ⟨0, _⟩ => rfl | ⟨1, _⟩ => rfl)
  rw [e1, v22_at]

/-- The node layer's output before the clamp. -/
theorem v35_at (i : Fin 1024) (c : Fin 64) :
    val_main_v35 (F := Ideal) x0 x1 x3 x4 x5 x6 x7 (ix2 i c) = (GcnSpec.nodeOutRef (1 : EReal) (Ideal.ofBits .f32 0x2EDBE6FF#32) (fun i a => x0 (ix2 i a)) (fun i a => x1 (ix2 i a)) (fun i j => x3 (ix2 i j)) (fun i j => x4 (ix2 i j)) (fun a c => x5 (ix2 a c)) (fun c => x6 (ix1 c)) (fun a => x7 (ix2 0 a))) i c := by
  rw [val_main_v35_apply, val_main_v34_apply, val_main_v33_apply, val_main_v32_apply]
  simp only [Ideal.addf_def]
  unfold GcnSpec.nodeOutRef GcnSpec.aggRef
  have eb : idx_main_v33 (idx_main_v34 (ix2 i c)) = ix1 c := funext fun a => Fin.ext (by match a with | ⟨0, _⟩ => rfl)
  rw [eb]
  refine congrArg (· + x6 (ix1 c)) (Finset.sum_congr rfl fun k _ => ?_)
  have e1 : lidx_main_v32 (ix2 i c) k = ix2 i k := funext fun a => Fin.ext (by match a with | ⟨0, _⟩ => rfl | ⟨1, _⟩ => rfl)
  have e2 : ridx_main_v32 (ix2 i c) k = ix2 k c := funext fun a => Fin.ext (by match a with | ⟨0, _⟩ => rfl | ⟨1, _⟩ => rfl)
  rw [e1, e2, val_main_v30_apply, val_main_v29_apply, val_main_v28_apply, v22_at, val_main_v31_apply]
  have e3 : idx_main_v28 (idx_main_v29 (ix2 i k)) = ix1 k := funext fun a => Fin.ext (by match a with | ⟨0, _⟩ => rfl)
  rw [e3, v27_at]
  simp only [Ideal.mulf_def]
  unfold GcnSpec.dense
  refine congrArg (_ * ·) (Finset.sum_congr rfl fun a _ => ?_)
  have e4 : lidx_main_v31 (ix2 k c) a = ix2 k a := funext fun a => Fin.ext (by match a with | ⟨0, _⟩ => rfl | ⟨1, _⟩ => rfl)
  have e5 : ridx_main_v31 (ix2 k c) a = ix2 a c := funext fun a => Fin.ext (by match a with | ⟨0, _⟩ => rfl | ⟨1, _⟩ => rfl)
  rw [e4, e5]

/-- The edge layer's weight vector: the clamped node output contracted with the second projection. -/
theorem d2_at (n : Fin 1024) :
    val_main_v40 (F := Ideal) x0 x1 x3 x4 x5 x6 x7 x10 (ix1 n) = (GcnSpec.edgeWeightRef (1 : EReal) (Ideal.ofBits .f32 0x2EDBE6FF#32) (fun i a => x0 (ix2 i a)) (fun i a => x1 (ix2 i a)) (fun i j => x3 (ix2 i j)) (fun i j => x4 (ix2 i j)) (fun a c => x5 (ix2 a c)) (fun c => x6 (ix1 c)) (fun a => x7 (ix2 0 a)) (fun c => x10 (ix2 0 c))) n := by
  rw [val_main_v40_apply, val_main_v39_apply]
  unfold GcnSpec.edgeWeightRef GcnSpec.contract
  refine Finset.sum_congr rfl fun k _ => ?_
  have e1 : lidx_main_v39 (idx_main_v40 (ix1 n)) k = ix2 n k :=
    funext fun a => Fin.ext (by match a with | ⟨0, _⟩ => exact Nat.div_one _ | ⟨1, _⟩ => rfl)
  have e2 : idx_main_v38 (ridx_main_v39 (idx_main_v40 (ix1 n)) k) = ix2 0 k := funext fun a => Fin.ext (by match a with | ⟨0, _⟩ => rfl | ⟨1, _⟩ => rfl)
  rw [val_main_v38_apply, e1, e2, val_main_v36_apply, v35_at, val_main_call0_v0_apply, val_main_call0_cst_apply]
  simp only [Ideal.ofBits_def, Ideal.maximumf_def]
  rw [Ideal.ofBits_zero_f32]
  rfl

/-! ## The edge layer -/

/-- The edge multiplier Σₙ (T n i · d n) · T n j. -/
theorem v45_at (i j : Fin 4096) :
    val_main_v45 (F := Ideal) x0 x1 x3 x4 x5 x6 x7 x10 (ix2 i j) = (GcnSpec.edgeMultRef (fun i j => x4 (ix2 i j)) (GcnSpec.edgeWeightRef (1 : EReal) (Ideal.ofBits .f32 0x2EDBE6FF#32) (fun i a => x0 (ix2 i a)) (fun i a => x1 (ix2 i a)) (fun i j => x3 (ix2 i j)) (fun i j => x4 (ix2 i j)) (fun a c => x5 (ix2 a c)) (fun c => x6 (ix1 c)) (fun a => x7 (ix2 0 a)) (fun c => x10 (ix2 0 c)))) i j := by
  rw [val_main_v45_apply]
  unfold GcnSpec.edgeMultRef
  refine Finset.sum_congr rfl fun k _ => ?_
  rw [val_main_v44_apply, val_main_v43_apply, val_main_v42_apply, val_main_v41_apply]
  have e1 : idx_main_v41 (lidx_main_v45 (ix2 i j) k) = ix2 k i := funext fun a => Fin.ext (by match a with | ⟨0, _⟩ => rfl | ⟨1, _⟩ => rfl)
  have e2 : idx_main_v42 (idx_main_v43 (lidx_main_v45 (ix2 i j) k)) = ix1 k := funext fun a => Fin.ext (by match a with | ⟨0, _⟩ => rfl)
  have e3 : ridx_main_v45 (ix2 i j) k = ix2 k j := funext fun a => Fin.ext (by match a with | ⟨0, _⟩ => rfl | ⟨1, _⟩ => rfl)
  rw [e1, e2, e3, d2_at]
  rfl

/-- The adjusted adjacency of the edge layer. -/
theorem v60_at (i j : Fin 4096) :
    val_main_v60 (F := Ideal) x0 x1 x2 x3 x4 x5 x6 x7 x10 (ix2 i j) = (GcnSpec.adjusted (GcnSpec.edgeMultRef (fun i j => x4 (ix2 i j)) (GcnSpec.edgeWeightRef (1 : EReal) (Ideal.ofBits .f32 0x2EDBE6FF#32) (fun i a => x0 (ix2 i a)) (fun i a => x1 (ix2 i a)) (fun i j => x3 (ix2 i j)) (fun i j => x4 (ix2 i j)) (fun a c => x5 (ix2 a c)) (fun c => x6 (ix1 c)) (fun a => x7 (ix2 0 a)) (fun c => x10 (ix2 0 c)))) (fun i j => x2 (ix2 i j))) i j := by
  rw [val_main_v60_apply, val_main_v59_apply, val_main_v55_apply, val_main_v58_apply, val_main_v57_apply,
    val_main_v51_apply, val_main_v50_apply, val_main_v49_apply, val_main_v46_apply, val_main_v47_apply,
    val_main_v48_apply, val_main_c_4_apply, val_main_v54_apply, val_main_v53_apply, val_main_v52_apply,
    val_main_cst_5_apply, val_main_v56_apply, val_main_cst_6_apply, v45_at]
  simp only [Ideal.ofBits_def, Ideal.addf_def, Ideal.mulf_def, Ideal.subf_def]
  refine (RefLemmas.adjust_scalar i.val j.val (by omega) (by omega) _ _).trans ?_
  unfold GcnSpec.adjusted
  by_cases h : i = j
  · rw [if_pos h, if_pos (congrArg Fin.val h)]
  · rw [if_neg h, if_neg (fun hh => h (Fin.ext hh))]

/-- The edge layer's column scale. -/
theorem v65_at (j : Fin 4096) :
    val_main_v65 (F := Ideal) x0 x1 x2 x3 x4 x5 x6 x7 x10 (ix1 j) = GcnSpec.colScale (1 : EReal) (Ideal.ofBits .f32 0x2EDBE6FF#32) (GcnSpec.adjusted (GcnSpec.edgeMultRef (fun i j => x4 (ix2 i j)) (GcnSpec.edgeWeightRef (1 : EReal) (Ideal.ofBits .f32 0x2EDBE6FF#32) (fun i a => x0 (ix2 i a)) (fun i a => x1 (ix2 i a)) (fun i j => x3 (ix2 i j)) (fun i j => x4 (ix2 i j)) (fun a c => x5 (ix2 a c)) (fun c => x6 (ix1 c)) (fun a => x7 (ix2 0 a)) (fun c => x10 (ix2 0 c)))) (fun i j => x2 (ix2 i j))) j := by
  rw [val_main_v65_apply, val_main_v64_apply, val_main_cst_9_apply, val_main_v63_apply, val_main_v62_apply,
    val_main_cst_8_apply, val_main_v61_apply, val_main_cst_7_apply]
  simp only [Ideal.ofBits_def, Ideal.addf_def, Ideal.hostDivf_def]
  rw [Ideal.ofBits_zero_f32, zero_add, Cert.Lib.RealScalars.ofBits_one, EReal.coe_one]
  unfold GcnSpec.colScale
  refine congrArg (fun s => Ideal.div 1 (s + _)) (Finset.sum_congr rfl fun k _ => ?_)
  have e1 : idx_main_v61 (ix1 j) k = ix2 k j := funext fun a => Fin.ext (by match a with | ⟨0, _⟩ => rfl | ⟨1, _⟩ => rfl)
  rw [e1, v60_at]

/-- The edge layer's output. -/
theorem v73_at (i : Fin 4096) (c : Fin 8) :
    val_main_v73 (F := Ideal) x0 x1 x2 x3 x4 x5 x6 x7 x8 x9 x10 (ix2 i c) = (GcnSpec.edgeOutRef (1 : EReal) (Ideal.ofBits .f32 0x2EDBE6FF#32) (fun i a => x0 (ix2 i a)) (fun i a => x1 (ix2 i a)) (fun i j => x2 (ix2 i j)) (fun i j => x3 (ix2 i j)) (fun i j => x4 (ix2 i j)) (fun a c => x5 (ix2 a c)) (fun c => x6 (ix1 c)) (fun a => x7 (ix2 0 a)) (fun a c => x8 (ix2 a c)) (fun c => x9 (ix1 c)) (fun c => x10 (ix2 0 c))) i c := by
  rw [val_main_v73_apply, val_main_v72_apply, val_main_v71_apply, val_main_v70_apply]
  simp only [Ideal.addf_def]
  unfold GcnSpec.edgeOutRef GcnSpec.aggRef
  have eb : idx_main_v71 (idx_main_v72 (ix2 i c)) = ix1 c := funext fun a => Fin.ext (by match a with | ⟨0, _⟩ => rfl)
  rw [eb]
  refine congrArg (· + x9 (ix1 c)) (Finset.sum_congr rfl fun k _ => ?_)
  have e1 : lidx_main_v70 (ix2 i c) k = ix2 i k := funext fun a => Fin.ext (by match a with | ⟨0, _⟩ => rfl | ⟨1, _⟩ => rfl)
  have e2 : ridx_main_v70 (ix2 i c) k = ix2 k c := funext fun a => Fin.ext (by match a with | ⟨0, _⟩ => rfl | ⟨1, _⟩ => rfl)
  rw [e1, e2, val_main_v68_apply, val_main_v67_apply, val_main_v66_apply, v60_at, val_main_v69_apply]
  have e3 : idx_main_v66 (idx_main_v67 (ix2 i k)) = ix1 k := funext fun a => Fin.ext (by match a with | ⟨0, _⟩ => rfl)
  rw [e3, v65_at]
  simp only [Ideal.mulf_def]
  unfold GcnSpec.dense GcnSpec.relu
  refine congrArg (_ * ·) (Finset.sum_congr rfl fun a _ => ?_)
  have e4 : lidx_main_v69 (ix2 k c) a = ix2 k a := funext fun a => Fin.ext (by match a with | ⟨0, _⟩ => rfl | ⟨1, _⟩ => rfl)
  have e5 : ridx_main_v69 (ix2 k c) a = ix2 a c := funext fun a => Fin.ext (by match a with | ⟨0, _⟩ => rfl | ⟨1, _⟩ => rfl)
  rw [e4, e5, val_main_v37_apply, val_main_call1_v0_apply, val_main_call1_cst_apply]
  simp only [Ideal.ofBits_def, Ideal.maximumf_def]
  rw [Ideal.ofBits_zero_f32]

/-! ## The column-wise log-softmax -/

/-- A column's maximum from −∞, as the fold over the row coordinate. -/
theorem colmax_at (c : Fin 8) :
    val_main_call2_v2 (F := Ideal) x0 x1 x2 x3 x4 x5 x6 x7 x8 x9 x10 (ix1 c)
      = (Finset.univ : Finset (Fin 4096)).fold max ⊥ (fun r => val_main_v73 (F := Ideal) x0 x1 x2 x3 x4 x5 x6 x7 x8 x9 x10 (ix2 r c)) := by
  rw [val_main_call2_v2_apply, val_main_call2_v1_apply, val_main_call2_cst_0_apply]
  simp only [Ideal.ofBits_def, Ideal.maximumf_def]
  rw [RefLemmas.ofBits_neg_inf, max_bot_left]
  unfold val_main_call2_v0
  generalize val_main_v73 (F := Ideal) x0 x1 x2 x3 x4 x5 x6 x7 x8 x9 x10 = y
  refine (RefLemmas.colmax_fold y _ _ _ c).trans ?_
  rw [val_main_call2_cst_apply]
  simp only [Ideal.ofBits_def]
  rw [RefLemmas.ofBits_neg_inf]

/-- An entry minus its column's maximum. -/
theorem shifted_at (r : Fin 4096) (c : Fin 8) :
    val_main_call2_v5 (F := Ideal) x0 x1 x2 x3 x4 x5 x6 x7 x8 x9 x10 (ix2 r c)
      = val_main_v73 (F := Ideal) x0 x1 x2 x3 x4 x5 x6 x7 x8 x9 x10 (ix2 r c)
          - (Finset.univ : Finset (Fin 4096)).fold max ⊥ (fun r' => val_main_v73 (F := Ideal) x0 x1 x2 x3 x4 x5 x6 x7 x8 x9 x10 (ix2 r' c)) := by
  rw [val_main_call2_v5_apply, val_main_call2_v4_apply, val_main_call2_v3_apply]
  have e1 : idx_main_call2_v3 (idx_main_call2_v4 (ix2 r c)) = ix1 c := funext fun a => Fin.ext (by match a with | ⟨0, _⟩ => rfl)
  rw [e1, colmax_at]
  rfl

/-- The result is the column-wise log-softmax of the edge layer's output. -/
theorem lsm_at (e : Fin 4096) (k : Fin 8) :
    val_main_v74 (F := Ideal) x0 x1 x2 x3 x4 x5 x6 x7 x8 x9 x10 (ix2 e k)
      = GcnSpec.logSoftmaxCol (fun i c => val_main_v73 (F := Ideal) x0 x1 x2 x3 x4 x5 x6 x7 x8 x9 x10 (ix2 i c)) e k := by
  rw [val_main_v74_apply, shifted_at, val_main_call2_v10_apply, val_main_call2_v9_apply, val_main_call2_v8_apply,
    val_main_call2_v7_apply, val_main_call2_cst_1_apply]
  simp only [Ideal.ofBits_def, Ideal.subf_def, Ideal.hostUnary_log_def]
  rw [Ideal.ofBits_zero_f32, zero_add]
  unfold GcnSpec.logSoftmaxCol
  refine congrArg (fun s => _ - Ideal.log s) (Finset.sum_congr rfl fun r _ => ?_)
  have e1 : idx_main_call2_v7 (idx_main_call2_v8 (idx_main_call2_v10 (ix2 e k))) r = ix2 r k := funext fun a => Fin.ext (by match a with | ⟨0, _⟩ => rfl | ⟨1, _⟩ => rfl)
  rw [e1, val_main_call2_v6_apply, shifted_at]
  rfl

end Stages

/-- The plain formulation's result at an index is the specification's. -/
theorem ref_result (x0 : (⟨S1024x128, .f32⟩ : BufTy).Contents (Elt Ideal)) (x1 : (⟨S4096x16, .f32⟩ : BufTy).Contents (Elt Ideal))
    (x2 : (⟨S4096x4096, .f32⟩ : BufTy).Contents (Elt Ideal)) (x3 : (⟨S1024x1024, .f32⟩ : BufTy).Contents (Elt Ideal))
    (x4 : (⟨S1024x4096, .f32⟩ : BufTy).Contents (Elt Ideal)) (x5 : (⟨S128x64, .f32⟩ : BufTy).Contents (Elt Ideal))
    (x6 : (⟨S64, .f32⟩ : BufTy).Contents (Elt Ideal)) (x7 : (⟨S1x16, .f32⟩ : BufTy).Contents (Elt Ideal))
    (x8 : (⟨S16x8, .f32⟩ : BufTy).Contents (Elt Ideal)) (x9 : (⟨S8, .f32⟩ : BufTy).Contents (Elt Ideal))
    (x10 : (⟨S1x64, .f32⟩ : BufTy).Contents (Elt Ideal)) (e : Fin 4096) (k : Fin 8) :
    Cert.ReferenceIdeal.Read.val_main_v74 (F := Ideal) x0 x1 x2 x3 x4 x5 x6 x7 x8 x9 x10 (ValueIdx.ix2 e k)
      = GcnSpec.resultRef (1 : EReal) (Ideal.ofBits .f32 0x2EDBE6FF#32)
          (fun i a => x0 (ValueIdx.ix2 i a)) (fun i a => x1 (ValueIdx.ix2 i a)) (fun i j => x2 (ValueIdx.ix2 i j)) (fun i j => x3 (ValueIdx.ix2 i j)) (fun i j => x4 (ValueIdx.ix2 i j))
          (fun a c => x5 (ValueIdx.ix2 a c)) (fun c => x6 (ValueIdx.ix1 c)) (fun a => x7 (ValueIdx.ix2 0 a)) (fun a c => x8 (ValueIdx.ix2 a c)) (fun c => x9 (ValueIdx.ix1 c)) (fun c => x10 (ValueIdx.ix2 0 c)) e k := by
  rw [lsm_at]
  unfold GcnSpec.resultRef
  have h : (fun i c => val_main_v73 (F := Ideal) x0 x1 x2 x3 x4 x5 x6 x7 x8 x9 x10 (ix2 i c)) = (GcnSpec.edgeOutRef (1 : EReal) (Ideal.ofBits .f32 0x2EDBE6FF#32) (fun i a => x0 (ix2 i a)) (fun i a => x1 (ix2 i a)) (fun i j => x2 (ix2 i j)) (fun i j => x3 (ix2 i j)) (fun i j => x4 (ix2 i j)) (fun a c => x5 (ix2 a c)) (fun c => x6 (ix1 c)) (fun a => x7 (ix2 0 a)) (fun a c => x8 (ix2 a c)) (fun c => x9 (ix1 c)) (fun c => x10 (ix2 0 c))) :=
    funext fun i => funext fun c => v73_at x0 x1 x2 x3 x4 x5 x6 x7 x8 x9 x10 i c
  rw [h]

end Cert.ReferenceIdeal.RefValue

end
-- ==== Proof.lean ====
/- The certificate of a two-layer graph-convolution network with a column-wise log-softmax, written as two tiled
   passes, against its plain formulation.

   Both passes keep an accumulator across the tiles of their grid: a pass multiplies the weighted incidence matrix
   with its transpose one column tile at a time, replaces the diagonal, scales by the adjacency, sums the tile's
   columns, folds the reciprocals of those sums into the rows of a small dense factor, and adds the tile's product
   to the accumulator; the last tile adds the bias and finishes (the node pass with a clamp and a contraction, the
   edge pass with the log-softmax). The plain formulation scales the adjacency's columns first and multiplies once.
   Over the extended reals the two agree by commutativity and associativity of multiplication and addition alone:
   no entry needs to be finite, so the precondition is never opened.

   The frames: each pass's body is run in its three control cases (first tile, middle tiles, last tile), the
   accumulators' contents after each tile are carried as the passes' invariants, and the two passes with the host
   operations around them make one run that ends with every buffer at a stated valuation; the arguments are read
   off it unchanged, at the word-level instance and at the exact one alike. The values: the bodies' arithmetic
   read at an index, the accumulation as a sum over tiles, the plain formulation's stages read at an index, and
   the one reassociation that joins the two sides. -/
import proofs.«168662_g27230092657223_cont_9to1_1126_2_alg».proof.Defs
import proofs.«168662_g27230092657223_cont_9to1_1126_2_alg».proof.Proof.Gen.Kernel
import proofs.«168662_g27230092657223_cont_9to1_1126_2_alg».proof.Proof.Gen.KernelIdeal
import proofs.«168662_g27230092657223_cont_9to1_1126_2_alg».proof.Proof.Gen.ReferenceIdeal
import proofs.«168662_g27230092657223_cont_9to1_1126_2_alg».proof.Proof.Gen.Pre_finite_inputs
import proofs.«168662_g27230092657223_cont_9to1_1126_2_alg».proof.Proof.KAssembly
import proofs.«168662_g27230092657223_cont_9to1_1126_2_alg».proof.Proof.Assembly
import proofs.«168662_g27230092657223_cont_9to1_1126_2_alg».proof.Proof.KernelValue
import proofs.«168662_g27230092657223_cont_9to1_1126_2_alg».proof.Proof.RefValue
import proofs.«168662_g27230092657223_cont_9to1_1126_2_alg».proof.Proof.Spec
import Idealize.ShloMosaic.Adequacy
import Idealize.ShloMosaic.Init

noncomputable section

namespace Cert.Proof

open Idealize.ShloMosaic Idealize.ShloMosaic.TcCoe Idealize.SL.Sem ValueIdx

/-- The word-level program runs to the end and leaves its arguments as launched. -/
theorem frame_kernel : Cert.frame_Kernel := fun m ρ _ => Cert.Kernel.Whole.frame (F := Bits) m ρ

/-- So does the idealized program. -/
theorem frame_ideal : Cert.frame_KernelIdeal := fun m ρ _ => Cert.KernelIdeal.Whole.frame (F := Ideal) m ρ

/-- And the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Over the extended reals the tiled program and the plain one end with equal results: index by index both are the
    network's result, in two associations of the same sums and products. -/
theorem algebraic : Cert.algebraic_KernelIdeal_ReferenceIdeal := by
  intro m ρ m' ρ' _ hagree
  refine ⟨fun c => (Cert.KernelIdeal.Edge.dat (Cert.KernelIdeal.Whole.V3 m) c).arrAt 7 Cert.KernelIdeal.cfg1.N,
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨h0, h1, h2, h3, h4, h5, h6, h7, h8, h9, h10⟩ := hagree c
  rw [h0, h1, h2, h3, h4, h5, h6, h7, h8, h9, h10]
  funext i
  obtain ⟨e, k, rfl⟩ : ∃ (e : Fin 4096) (k : Fin 8), i = ix2 e k := ⟨i 0, i 1, eq_ix2 i⟩
  rw [Cert.ReferenceIdeal.RefValue.ref_result, GcnSpec.resultRef_eq_resultKer]
  exact (Cert.KernelIdeal.KernelValue.kernel_result m c e k).symm

theorem claim : Cert.Claim := ⟨Cert.Kernel.Gen.facts, Cert.KernelIdeal.Gen.facts, Cert.ReferenceIdeal.Gen.facts, Cert.Pre_finite_inputs.Gen.facts,
  frame_kernel, frame_ideal, frame_ref, trivial, algebraic⟩

end Cert.Proof

end
